-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S4x1x128 : Shape := ⟨3, ![4, 1, 128]⟩
abbrev S2048x64 : Shape := ⟨2, ![2048, 64]⟩
abbrev S512x64 : Shape := ⟨2, ![512, 64]⟩
abbrev S1x1x128 : Shape := ⟨3, ![1, 1, 128]⟩
abbrev S1x1 : Shape := ⟨2, ![1, 1]⟩
abbrev S2048 : Shape := ⟨1, ![2048]⟩
abbrev S2048x1 : Shape := ⟨2, ![2048, 1]⟩
abbrev S512 : Shape := ⟨1, ![512]⟩
abbrev S512x1 : Shape := ⟨2, ![512, 1]⟩
abbrev S64x512 : Shape := ⟨2, ![64, 512]⟩
abbrev S2048x512 : Shape := ⟨2, ![2048, 512]⟩
abbrev S1x512 : Shape := ⟨2, ![1, 512]⟩
abbrev S1 : Shape := ⟨1, ![1]⟩
abbrev S4x1x1 : Shape := ⟨3, ![4, 1, 1]⟩
abbrev S4 : Shape := ⟨1, ![4]⟩
abbrev S_ : Shape := ⟨0, ![]⟩

abbrev nBuf : Space → Nat
  | .hbm => 27
  | .vmem => 21
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S4x1x128, .f32⟩
  | .hbm, ⟨3, _⟩ => ⟨S4x1x1, .f32⟩
  | .hbm, ⟨4, _⟩ => ⟨S4, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x1x128, .f32⟩
  | .hbm, ⟨10, _⟩ => ⟨S4x1x1, .f32⟩
  | .hbm, ⟨11, _⟩ => ⟨S4, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x1x128, .f32⟩
  | .hbm, ⟨17, _⟩ => ⟨S4x1x1, .f32⟩
  | .hbm, ⟨18, _⟩ => ⟨S4, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S512x64, .f32⟩
  | .local _ .vmem, ⟨3, _⟩ => ⟨S512x64, .f32⟩
  | .local _ .vmem, ⟨4, _⟩ => ⟨S1x1x128, .f32⟩
  | .local _ .vmem, ⟨5, _⟩ => ⟨S1x1x128, .f32⟩
  | .local _ .vmem, ⟨6, _⟩ => ⟨S1x1, .f32⟩
  | .local _ .vmem, ⟨7, _⟩ => ⟨S2048x64, .f32⟩
  | .local _ .vmem, ⟨8, _⟩ => ⟨S2048x64, .f32⟩
  | .local _ .vmem, ⟨9, _⟩ => ⟨S512x64, .f32⟩
  | .local _ .vmem, ⟨10, _⟩ => ⟨S512x64, .f32⟩
  | .local _ .vmem, ⟨11, _⟩ => ⟨S1x1x128, .f32⟩
  | .local _ .vmem, ⟨12, _⟩ => ⟨S1x1x128, .f32⟩
  | .local _ .vmem, ⟨13, _⟩ => ⟨S1x1, .f32⟩
  | .local _ .vmem, ⟨14, _⟩ => ⟨S2048x64, .f32⟩
  | .local _ .vmem, ⟨15, _⟩ => ⟨S2048x64, .f32⟩
  | .local _ .vmem, ⟨16, _⟩ => ⟨S512x64, .f32⟩
  | .local _ .vmem, ⟨17, _⟩ => ⟨S512x64, .f32⟩
  | .local _ .vmem, ⟨18, _⟩ => ⟨S1x1x128, .f32⟩
  | .local _ .vmem, ⟨19, _⟩ => ⟨S1x1x128, .f32⟩
  | .local _ .vmem, ⟨20, _⟩ => ⟨S1x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_15 : BitVec 32 := 0#32
  let v36 : BitVec 1 := Scalar.cmpi .ne v35 c0_i32_15
  v36

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 16], ![false, false]⟩

def k2_cond2 (i : grid2.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_15 : BitVec 32 := 0#32
  let v36 : BitVec 1 := Scalar.cmpi .ne v35 c0_i32_15
  v36

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x64_S2048x64_0_0 : ∀ a, (![0, 0] : Fin 2 → Nat) a + S2048x64.size a ≤ S2048x64.size a
  h_S2048x64 : 0 < S2048x64.numel
  inb_S512x64_S512x64_0_0 : ∀ a, (![0, 0] : Fin 2 → Nat) a + S512x64.size a ≤ S512x64.size a
  h_S512x64 : 0 < S512x64.numel
  reduces_S2048x64_S2048 : S2048x64.Reduces [1] S2048
  shapeCasts_S2048_S2048x1 : S2048.ShapeCasts S2048x1
  reduces_S512x64_S512 : S512x64.Reduces [1] S512
  shapeCasts_S512_S512x1 : S512.ShapeCasts S512x1
  transposes_S512x64_p1_0_S64x512 : S512x64.Transposes [1, 0] S64x512
  transposes_S512x1_p1_0_S1x512 : S512x1.Transposes [1, 0] S1x512
  broadcasts_S2048x1_S2048x512 : S2048x1.Broadcasts S2048x512
  broadcasts_S1x512_S2048x512 : S1x512.Broadcasts S2048x512
  reduces_S2048x512_S2048 : S2048x512.Reduces [1] S2048
  reduces_S2048x1_S1 : S2048x1.Reduces [0] S1
  shapeCasts_S1_S1x1 : S1.ShapeCasts S1x1
  iota_S1x1x128_d2_w32 : S1x1x128.Iotas .tc 32 [2]
  natLt_1_32 : 1 < 32
  inpos_S1x1_p0_0 : ∀ a, (![0, 0] : Fin 2 → Nat) a < S1x1.size a
  inb_S1x1x128_S1x1x128_0_0_0 : ∀ a, (![0, 0, 0] : Fin 3 → Nat) a + S1x1x128.size a ≤ S1x1x128.size a
  h_S1x1x128 : 0 < S1x1x128.numel
  slices_S4x1x128_S4x1x1_0_0_0 : S4x1x128.Slices ![0, 0, 0] S4x1x1
  shapeCasts_S4x1x1_S4 : S4x1x1.ShapeCasts S4
  reducesTo_S4_S_d0 : S4.ReducesTo [0] S_
  h_S_ : 0 < S_.numel
  dot_S2048x64_S64x512_S2048x512_1_0_0_1_n_n_wf : DotDims.WF S2048x64 S64x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S8192x64.size a
  hwx0_1 : ∀ i : grid0.Coords, EltTy.bits .f32 = 32 ∨ (Rect.block (s := S8192x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S8192x64.size a
  hwx1_0 : ∀ i : grid1.Coords, EltTy.bits .f32 = 32 ∨ (Rect.block (s := S8192x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S8192x64.size a
  hwx1_1 : ∀ i : grid1.Coords, EltTy.bits .f32 = 32 ∨ (Rect.block (s := S8192x64) S512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S4x1x128.size a
  hwx1_2 : ∀ i : grid1.Coords, EltTy.bits .f32 = 32 ∨ (Rect.block (s := S4x1x128) S1x1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S8192x64.size a
  hwx2_0 : ∀ i : grid2.Coords, EltTy.bits .f32 = 32 ∨ (Rect.block (s := S8192x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S8192x64.size a
  hwx2_1 : ∀ i : grid2.Coords, EltTy.bits .f32 = 32 ∨ (Rect.block (s := S8192x64) S512x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x128.size a ≤ S4x1x128.size a
  hwx2_2 : ∀ i : grid2.Coords, EltTy.bits .f32 = 32 ∨ (Rect.block (s := S4x1x128) S1x1x128.size (cc2_transform_2 i) (hinb2_2 i)).WholeWords (EltTy.packing .f32)

variable [Facts₀]

def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S512x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x1x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 84
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S64x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x64, .f32⟩
  | .hbm, ⟨29, _⟩ => ⟨S_, .f32⟩
  | .hbm, ⟨30, _⟩ => ⟨S8192, .f32⟩
  | .hbm, ⟨31, _⟩ => ⟨S8192x64, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S1x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S64x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192x64, .f32⟩
  | .hbm, ⟨56, _⟩ => ⟨S_, .f32⟩
  | .hbm, ⟨57, _⟩ => ⟨S8192, .f32⟩
  | .hbm, ⟨58, _⟩ => ⟨S8192x64, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S1x8192, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S64x8192, .f32⟩
  | .hbm, ⟨67, _⟩ => ⟨S8192x8192, .f32⟩
  | .hbm, ⟨68, _⟩ => ⟨S_, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩
abbrev main_v43 : Ref sig .tc := ⟨.hbm, 58, rfl⟩
abbrev main_cst_12 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_13 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_14 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_15 : Ref sig .tc := ⟨.hbm, 77, rfl⟩
abbrev main_v59 : Ref sig .tc := ⟨.hbm, 78, rfl⟩
abbrev main_cst_16 : Ref sig .tc := ⟨.hbm, 79, rfl⟩
abbrev main_v60 : Ref sig .tc := ⟨.hbm, 80, rfl⟩
abbrev main_cst_17 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KBody0.lean ====
/-
  The body of pallas_call 0 run at one grid point, in the three control cases a grid of 4 row blocks by 16 column
  blocks meets: the point that resets the accumulator (column block 0), a point that only accumulates, and the point
  that also stores the row block's partial sum (column block 15). Each run leaves the two input tiles as found; what the
  accumulator (and, at the last point, the output's buffer) holds afterwards is read back from the stores the run made
  and named by the body's own arithmetic: the tile's sum added to what the accumulator held.
-/
import proofs.«175880_j29377576305361_2_alg».proof.Proof.Gen.Kernel.Launch
import proofs.«175880_j29377576305361_2_alg».proof.Proof.Gen.Kernel.Skeleton
import proofs.«175880_j29377576305361_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch that resets the accumulator: taken where the second grid coordinate is 0. -/
abbrev condFirst0 (i : grid0.Coords) : Prop := (Scalar.cmpi .ne (Scalar.extui (Scalar.cmpi .eq (BitVec.ofNat 32 (i 1).val) 0#32)) 0#32) = 1#1
/-- The branch that stores the block's partial sum: taken where the second grid coordinate is 15. -/
abbrev condLast0 (i : grid0.Coords) : Prop := k0_cond2 i = 1#1

set_option maxHeartbeats 1000000 in
/-- At a point that resets the accumulator and is not the last of its row block: the accumulator ends at the pieces found, the two inputs and the idle output as they were. -/
noncomputable def runFirst0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : condFirst0 i) (hc1 : ¬condLast0 i) (x0 : Vec F S2048x64 .f32) (x1 : Vec F S512x64 .f32) :
    { LS0 : List (View.Piece (Elt F) S1x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, fun xi2 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- At a point that neither resets nor stores: the accumulator, found at `xs`, ends at the pieces found. -/
noncomputable def runMid0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : ¬condFirst0 i) (hc1 : ¬condLast0 i) (x0 : Vec F S2048x64 .f32) (x1 : Vec F S512x64 .f32) (xs : Vec F S1x1 .f32) :
    { LS0 : List (View.Piece (Elt F) S1x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, fun xi2 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- At the last point of a row block: the accumulator, found at `xs`, ends at the pieces found, and the output's buffer at the pieces found. -/
noncomputable def runLast0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : ¬condFirst0 i) (hc1 : condLast0 i) (x0 : Vec F S2048x64 .f32) (x1 : Vec F S512x64 .f32) (xs : Vec F S1x1 .f32) :
    Σ' (L2 : List (View.Piece (Elt F) S1x1x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

theorem hzTwo0 : (![0, 0] : Fin 2 → ℕ) = fun _ => 0 := by funext a; fin_cases a <;> rfl
theorem hzThree0 : (![0, 0, 0] : Fin 3 → ℕ) = fun _ => 0 := by funext a; fin_cases a <;> rfl

theorem scoverFirst0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst0 i) (hc1 : ¬condLast0 i) (x0 : Vec F S2048x64 .f32) (x1 : Vec F S512x64 .f32) (y : S1x1.Idx) :
    ∃ pc ∈ (runFirst0 c i arg2 harg2 arg3 harg3 arg4 harg4 arg5 harg5 hc0 hc1 x0 x1).1, y ∈ pc.1.set :=
  View.cover_of_tiledL (runFirst0 c i arg2 harg2 arg3 harg3 arg4 harg4 arg5 harg5 hc0 hc1 x0 x1).1 S1x1.size (by sl_kernel_rfl) y

/-- What the accumulator holds after a resetting point: the found pieces read back. -/
def accFirst0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst0 i) (hc1 : ¬condLast0 i) (x0 : Vec F S2048x64 .f32) (x1 : Vec F S512x64 .f32) : Vec F S1x1 .f32 :=
  arg5.view.read (Elt F) (arg5.view.writes (Elt F) arg5.view.junk (runFirst0 c i arg2 harg2 arg3 harg3 arg4 harg4 arg5 harg5 hc0 hc1 x0 x1).1)

/-- It is the tile's sum added to the zero the reset stored. -/
theorem accFirst0_eq (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst0 i) (hc1 : ¬condLast0 i) (x0 : Vec F S2048x64 .f32) (x1 : Vec F S512x64 .f32) :
    accFirst0 c i arg2 harg2 arg3 harg3 arg4 harg4 arg5 harg5 hc0 hc1 x0 x1 = k0_pay3 x0 x1 (k0_pay2 (F := F)) := by
  unfold accFirst0
  rw [View.read_writes_eq_canon _ _ _ (scoverFirst0 c i arg2 harg2 arg3 harg3 arg4 harg4 arg5 harg5 hc0 hc1 x0 x1)]
  unfold runFirst0
  dsimp only
  sl_unfold_words
  rw [View.canon_cons_unit_zero hzTwo0, View.readCov_unit_zero _ hzTwo0]
  simp only [View.readAt_eq_ld, harg2.read_unread, harg3.read_unread, View.ld_unit_zero (S := S2048x64) hzTwo0, View.ld_unit_zero (S := S512x64) hzTwo0]

theorem scoverMid0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : ¬condLast0 i) (x0 : Vec F S2048x64 .f32) (x1 : Vec F S512x64 .f32) (xs : Vec F S1x1 .f32) (y : S1x1.Idx) :
    ∃ pc ∈ (runMid0 c i arg2 harg2 arg3 harg3 arg4 harg4 arg5 harg5 hc0 hc1 x0 x1 xs).1, y ∈ pc.1.set :=
  View.cover_of_tiledL (runMid0 c i arg2 harg2 arg3 harg3 arg4 harg4 arg5 harg5 hc0 hc1 x0 x1 xs).1 S1x1.size (by sl_kernel_rfl) y

/-- What the accumulator holds after a point that only accumulates. -/
def accMid0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : ¬condLast0 i) (x0 : Vec F S2048x64 .f32) (x1 : Vec F S512x64 .f32) (xs : Vec F S1x1 .f32) : Vec F S1x1 .f32 :=
  arg5.view.read (Elt F) (arg5.view.writes (Elt F) arg5.view.junk (runMid0 c i arg2 harg2 arg3 harg3 arg4 harg4 arg5 harg5 hc0 hc1 x0 x1 xs).1)

theorem accMid0_eq (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : ¬condLast0 i) (x0 : Vec F S2048x64 .f32) (x1 : Vec F S512x64 .f32) (xs : Vec F S1x1 .f32) :
    accMid0 c i arg2 harg2 arg3 harg3 arg4 harg4 arg5 harg5 hc0 hc1 x0 x1 xs = k0_pay3 x0 x1 xs := by
  unfold accMid0
  rw [View.read_writes_eq_canon _ _ _ (scoverMid0 c i arg2 harg2 arg3 harg3 arg4 harg4 arg5 harg5 hc0 hc1 x0 x1 xs)]
  unfold runMid0
  dsimp only
  sl_unfold_words
  rw [View.canon_unit_zero hzTwo0]
  simp only [View.readAt_eq_ld, harg2.read_unread, harg3.read_unread, harg5.read_unread, View.ld_unit_zero (S := S2048x64) hzTwo0, View.ld_unit_zero (S := S512x64) hzTwo0, View.ld_unit_zero (S := S1x1) hzTwo0]

theorem scoverLast0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : condLast0 i) (x0 : Vec F S2048x64 .f32) (x1 : Vec F S512x64 .f32) (xs : Vec F S1x1 .f32) (y : S1x1.Idx) :
    ∃ pc ∈ (runLast0 c i arg2 harg2 arg3 harg3 arg4 harg4 arg5 harg5 hc0 hc1 x0 x1 xs).2.1, y ∈ pc.1.set :=
  View.cover_of_tiledL (runLast0 c i arg2 harg2 arg3 harg3 arg4 harg4 arg5 harg5 hc0 hc1 x0 x1 xs).2.1 S1x1.size (by sl_kernel_rfl) y

theorem coverLast0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : condLast0 i) (x0 : Vec F S2048x64 .f32) (x1 : Vec F S512x64 .f32) (xs : Vec F S1x1 .f32) (y : S1x1x128.Idx) :
    ∃ pc ∈ (runLast0 c i arg2 harg2 arg3 harg3 arg4 harg4 arg5 harg5 hc0 hc1 x0 x1 xs).1, y ∈ pc.1.set :=
  View.cover_of_tiledL (runLast0 c i arg2 harg2 arg3 harg3 arg4 harg4 arg5 harg5 hc0 hc1 x0 x1 xs).1 S1x1x128.size (by sl_kernel_rfl) y

/-- What the accumulator holds after the last point of a row block. -/
def accLast0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : condLast0 i) (x0 : Vec F S2048x64 .f32) (x1 : Vec F S512x64 .f32) (xs : Vec F S1x1 .f32) : Vec F S1x1 .f32 :=
  arg5.view.read (Elt F) (arg5.view.writes (Elt F) arg5.view.junk (runLast0 c i arg2 harg2 arg3 harg3 arg4 harg4 arg5 harg5 hc0 hc1 x0 x1 xs).2.1)

/-- What the output's buffer holds after the last point of a row block. -/
def outLast0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : condLast0 i) (x0 : Vec F S2048x64 .f32) (x1 : Vec F S512x64 .f32) (xs : Vec F S1x1 .f32) : Vec F S1x1x128 .f32 :=
  arg4.view.read (Elt F) (arg4.view.writes (Elt F) arg4.view.junk (runLast0 c i arg2 harg2 arg3 harg3 arg4 harg4 arg5 harg5 hc0 hc1 x0 x1 xs).1)

theorem accLast0_eq (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : condLast0 i) (x0 : Vec F S2048x64 .f32) (x1 : Vec F S512x64 .f32) (xs : Vec F S1x1 .f32) :
    accLast0 c i arg2 harg2 arg3 harg3 arg4 harg4 arg5 harg5 hc0 hc1 x0 x1 xs = k0_pay3 x0 x1 xs := by
  unfold accLast0
  rw [View.read_writes_eq_canon _ _ _ (scoverLast0 c i arg2 harg2 arg3 harg3 arg4 harg4 arg5 harg5 hc0 hc1 x0 x1 xs)]
  unfold runLast0
  dsimp only
  sl_unfold_words
  rw [View.canon_unit_zero hzTwo0]
  simp only [View.readAt_eq_ld, harg2.read_unread, harg3.read_unread, harg5.read_unread, View.ld_unit_zero (S := S2048x64) hzTwo0, View.ld_unit_zero (S := S512x64) hzTwo0, View.ld_unit_zero (S := S1x1) hzTwo0]

theorem outLast0_eq (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : condLast0 i) (x0 : Vec F S2048x64 .f32) (x1 : Vec F S512x64 .f32) (xs : Vec F S1x1 .f32) :
    outLast0 c i arg2 harg2 arg3 harg3 arg4 harg4 arg5 harg5 hc0 hc1 x0 x1 xs = k0_pay1 (k0_pay3 x0 x1 xs) := by
  unfold outLast0
  rw [View.read_writes_eq_canon _ _ _ (coverLast0 c i arg2 harg2 arg3 harg3 arg4 harg4 arg5 harg5 hc0 hc1 x0 x1 xs)]
  unfold runLast0
  dsimp only
  sl_unfold_words
  rw [View.canon_unit_zero hzThree0, View.readCov_unit_zero _ hzTwo0]
  simp only [View.readAt_eq_ld, harg2.read_unread, harg3.read_unread, harg5.read_unread, View.ld_unit_zero (S := S2048x64) hzTwo0, View.ld_unit_zero (S := S512x64) hzTwo0, View.ld_unit_zero (S := S1x1) hzTwo0]

end Cert.Kernel.Body

end
-- ==== Proof.KRegion0.lean ====
/-
  Pallas_call 0 over its grid of 4 row blocks by 16 column blocks, from any contents `V` of the core's buffers at its
  entry: what the accumulator holds after each point (the tile's sum added to the previous point's value, restarted
  from zero at column block 0), the proof data over it (each input's buffer at its tile, the output's at the masked
  accumulator, written back only after column block 15), and the body's obligation at every point by the case of the
  point.
-/
import proofs.«175880_j29377576305361_2_alg».proof.Proof.Gen.Kernel.Launch
import proofs.«175880_j29377576305361_2_alg».proof.Proof.Gen.Kernel.Skeleton
import proofs.«175880_j29377576305361_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«175880_j29377576305361_2_alg».proof.Proof.KBody0

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current buffer holds its tile at every point, fetched there or not (unfetched, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions over the grid, and where the output is idle -/

theorem hcondFirst0 : ∀ t : Fin cfg0.N, condFirst0 (grid0.coords t) ↔ t.val % 16 = 0 :=
  (by decide +kernel : ∀ t : Fin grid0.N, condFirst0 (grid0.coords t) ↔ t.val % 16 = 0)
theorem hcondLast0 : ∀ t : Fin cfg0.N, condLast0 (grid0.coords t) ↔ t.val % 16 = 15 :=
  (by decide +kernel : ∀ t : Fin grid0.N, condLast0 (grid0.coords t) ↔ t.val % 16 = 15)
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬condLast0 (grid0.coords t) → cfg0.idle 2 (grid0.coords t) = true := by decide +kernel
theorem noFlush0_2 : ∀ t : Fin cfg0.N, ¬condLast0 (grid0.coords t) → (cfg0.win 2).flush t = false := by decide +kernel
theorem liveAt0_2 : ∀ t : Fin cfg0.N, condLast0 (grid0.coords t) → cfg0.idle 2 (grid0.coords t) = false := by decide +kernel

/-! ## The accumulator point by point -/

/-- What the accumulator holds after point `n`: the tile's sum of point `n` added to zero at column block 0, to the value after point `n - 1` otherwise. -/
def accAt0 (c : Dev nD) : (n : ℕ) → n < cfg0.N → Vec F S1x1 .f32
  | 0, hn => k0_pay3 (iblk0 V c 0 ⟨0, hn⟩) (iblk0 V c 1 ⟨0, hn⟩) (k0_pay2 (F := F))
  | n + 1, hn =>
    if (n + 1) % 16 = 0 then k0_pay3 (iblk0 V c 0 ⟨n + 1, hn⟩) (iblk0 V c 1 ⟨n + 1, hn⟩) (k0_pay2 (F := F))
    else k0_pay3 (iblk0 V c 0 ⟨n + 1, hn⟩) (iblk0 V c 1 ⟨n + 1, hn⟩) (accAt0 c n (Nat.lt_of_succ_lt hn))

theorem accAt0_first (c : Dev nD) (t : Fin cfg0.N) (h0 : t.val % 16 = 0) :
    accAt0 V c t.val t.isLt = k0_pay3 (iblk0 V c 0 t) (iblk0 V c 1 t) (k0_pay2 (F := F)) := by
  obtain ⟨n, hn⟩ := t
  cases n with
  | zero => rfl
  | succ n => exact if_pos h0

theorem accAt0_next (c : Dev nD) (t : Fin cfg0.N) (h0 : ¬t.val % 16 = 0) :
    accAt0 V c t.val t.isLt = k0_pay3 (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The accumulator's buffer. -/
abbrev scM0 : Memref sig .tc .vmem S1x1 .f32 := Memref.whole cc0_scratch0

/-- The core's scoped buffers other than this call's staging buffers and accumulator, each at some contents. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))

/-- The class invariant hands out the accumulator's buffer at some contents beside the rest, -/
theorem PhiA_open0 (c : Dev nD) : (Pipeline.ΦA spec0 c : sProp 𝕄) ⊢ iprop((∃ d, owns (c : Thread nD τ) scM0 fullShare d) ∗ rest0 (F := F) c ∗ (∃ r, prngReg c r)) := by
  unfold Pipeline.ΦA rest0; rw [scopedRest0_eq]
  iintro ⟨⟨HS, Hb1, Hb2, Hb3, Hb4, Hb5, Hb6, Hb7, Hb8, Hb9, Hb10, Hb11, Hb12, Hb13, Hb14⟩, Hp⟩
  isplitl [HS]
  · icases HS with ⟨%f, HS⟩; iexists f; rw [owns_whole]; iexact HS
  isplitr [Hp]; swap; · iexact Hp
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hb8]; · iexact Hb8
  isplitl [Hb9]; · iexact Hb9
  isplitl [Hb10]; · iexact Hb10
  isplitl [Hb11]; · iexact Hb11
  isplitl [Hb12]; · iexact Hb12
  isplitl [Hb13]; · iexact Hb13
  iexact Hb14

/-- and takes it back at any contents. -/
theorem PhiA_close0 (c : Dev nD) : iprop((∃ d, owns (c : Thread nD τ) scM0 fullShare d) ∗ rest0 (F := F) c ∗ (∃ r, prngReg c r)) ⊢ (Pipeline.ΦA spec0 c : sProp 𝕄) := by
  unfold Pipeline.ΦA rest0; rw [scopedRest0_eq]; simp only [owns_whole]
  iintro ⟨⟨%d, HS⟩, ⟨Hb1, Hb2, Hb3, Hb4, Hb5, Hb6, Hb7, Hb8, Hb9, Hb10, Hb11, Hb12, Hb13, Hb14⟩, Hp⟩
  isplitr [Hp]; swap; · iexact Hp
  ·
    isplitl [HS]; · (iexists d; iexact HS)
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    iexact Hb14

/-- The invariant before position `n`: before the first point the class's; afterwards the accumulator at what the point before left, the rest and the generator register at some state. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ rest0 (F := F) c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (accAt0 V c n hn) ∗ rest0 (F := F) c ∗ (∃ r, prngReg c r)) := rfl
theorem PhiS0_pos (c : Dev nD) (n : ℕ) (h : n ≤ cfg0.N) (hz : n ≠ 0) :
    PhiS0 V c n h = iprop(owns (c : Thread nD τ) scM0 fullShare (accAt0 V c (n - 1) (by omega)) ∗ rest0 (F := F) c ∗ (∃ r, prngReg c r)) := by
  cases n with
  | zero => exact absurd rfl hz
  | succ n => rfl

/-- At any position the invariant yields the accumulator's buffer at some contents beside the rest. -/
theorem PhiS0_open (c : Dev nD) (n : ℕ) (h : n ≤ cfg0.N) :
    PhiS0 V c n h ⊢ iprop((∃ d, owns (c : Thread nD τ) scM0 fullShare d) ∗ rest0 (F := F) c ∗ (∃ r, prngReg c r)) := by
  cases n with
  | zero => exact PhiA_open0 c
  | succ n =>
    rw [PhiS0_succ]
    iintro ⟨HS, Hr, Hg⟩
    isplitl [HS]; · iexists _; iexact HS
    isplitl [Hr]; · iexact Hr
    iexact Hg

/-! ## The proof data -/

/-- The proof data of the call on core `c`: the arrays as the call finds them; after the body at point `t` each input's
    buffer at its tile and the output's at the masked accumulator; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (accAt0 V c t.val t.isLt)
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (accAt0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

abbrev ms0_0 (t : Fin cfg0.N) : Memref sig .tc .vmem S2048x64 .f32 := win0_0.stage (cfg0.slots t 0)
abbrev ms0_1 (t : Fin cfg0.N) : Memref sig .tc .vmem S512x64 .f32 := win0_1.stage (cfg0.slots t 1)
abbrev ms0_2 (t : Fin cfg0.N) : Memref sig .tc .vmem S1x1x128 .f32 := win0_2.stage (cfg0.slots t 2)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their tiles; the point's position among the 16 column blocks says
    which case it is in; the invariant hands the accumulator over at what the point before left (at anything where the
    body resets it first) and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 64 := lt_of_lt_of_eq t.isLt (show cfg0.N = 64 from N_0)
  rw [PhiS0_castSucc V c t]
  by_cases h0 : t.val % 16 = 0
  · have h1 : ¬t.val % 16 = 15 := by omega
    have hc0 : condFirst0 (grid0.coords t) := (hcondFirst0 t).mpr h0
    have hc1 : ¬condLast0 (grid0.coords t) := fun h => h1 ((hcondLast0 t).mp h)
    rw [Dat.leavesExact_idle (dat0 V c) 2 t (idleAt0_2 t hc1) (noFlush0_2 t hc1)]
    rw [accAt0_first V c t h0]
    iintro ⟨HΦ, Ho, ⟨%d0, H0⟩, ⟨%d1, H1⟩, ⟨%d2, H2⟩⟩
    ihave HΦ' := (PhiS0_open V c t.val (Nat.le_of_lt t.isLt)) $$ HΦ
    icases HΦ' with ⟨HS, Hr, Hg⟩
    iapply ((runFirst0 c (grid0.coords t) _ _ _ _ _ _ _ _ hc0 hc1 (iblk0 V c 0 t) (iblk0 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hr Hg]
    · isplitl [HS]
      · unfold owns; iexists _; isplitr
        swap; · iexact HS
        ipureintro
        exact (View.read_writes_of_cover _ _ _ _ _ (scoverFirst0 c _ _ _ _ _ _ _ _ _ hc0 hc1 _ _)).trans (accFirst0_eq c _ _ _ _ _ _ _ _ _ hc0 hc1 _ _)
      isplitl [Hr]; · iexact Hr
      iexact Hg
    isplitl [Ho]; · iexact Ho
    isplitl [H0]; · iexact H0
    isplitl [H1]; · iexact H1
    iexists _; iexact H2
  · have hz : t.val ≠ 0 := fun h => h0 (by rw [h])
    have hc0 : ¬condFirst0 (grid0.coords t) := fun h => h0 ((hcondFirst0 t).mp h)
    rw [PhiS0_pos V c _ _ hz, accAt0_next V c t h0]
    by_cases h1 : t.val % 16 = 15
    · have hc1 : condLast0 (grid0.coords t) := (hcondLast0 t).mpr h1
      rw [show (dat0 V c).leavesExact 2 t = owns (c : Thread nD τ) (ms0_2 t) fullShare ((dat0 V c).after 2 t) from by
        unfold Dat.leavesExact; rw [liveAt0_2 t hc1], after0_2, accAt0_next V c t h0]
      iintro ⟨⟨HS, Hr, Hg⟩, Ho, ⟨%d0, H0⟩, ⟨%d1, H1⟩, ⟨%d2, H2⟩⟩
      iapply ((runLast0 c (grid0.coords t) _ _ _ _ _ _ _ _ hc0 hc1 (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS]
        · unfold owns; iexists _; isplitr
          swap; · iexact HS
          ipureintro
          exact (View.read_writes_of_cover _ _ _ _ _ (scoverLast0 c _ _ _ _ _ _ _ _ _ hc0 hc1 _ _ _)).trans (accLast0_eq c _ _ _ _ _ _ _ _ _ hc0 hc1 _ _ _)
        isplitl [Hr]; · iexact Hr
        iexact Hg
      isplitl [Ho]; · iexact Ho
      isplitl [H0]; · iexact H0
      isplitl [H1]; · iexact H1
      unfold owns; iexists _; isplitr
      swap; · iexact H2
      ipureintro
      exact (View.read_writes_of_cover _ _ _ _ _ (coverLast0 c _ _ _ _ _ _ _ _ _ hc0 hc1 _ _ _)).trans (outLast0_eq c _ _ _ _ _ _ _ _ _ hc0 hc1 _ _ _)
    · have hc1 : ¬condLast0 (grid0.coords t) := fun h => h1 ((hcondLast0 t).mp h)
      rw [Dat.leavesExact_idle (dat0 V c) 2 t (idleAt0_2 t hc1) (noFlush0_2 t hc1)]
      iintro ⟨⟨HS, Hr, Hg⟩, Ho, ⟨%d0, H0⟩, ⟨%d1, H1⟩, ⟨%d2, H2⟩⟩
      iapply ((runMid0 c (grid0.coords t) _ _ _ _ _ _ _ _ hc0 hc1 (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS]
        · unfold owns; iexists _; isplitr
          swap; · iexact HS
          ipureintro
          exact (View.read_writes_of_cover _ _ _ _ _ (scoverMid0 c _ _ _ _ _ _ _ _ _ hc0 hc1 _ _ _)).trans (accMid0_eq c _ _ _ _ _ _ _ _ _ hc0 hc1 _ _ _)
        isplitl [Hr]; · iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives it back, the accumulator's value forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl]
  exact (PhiS0_open V c _ _).trans (PhiA_close0 c)

end Region

end Cert.Kernel.Body

end
-- ==== Proof.KBody1.lean ====
/-
  The body of pallas_call 1 run at one grid point, in the three control cases a grid of 4 row blocks by 16 column
  blocks meets: the point that resets the accumulator (column block 0), a point that only accumulates, and the point
  that also stores the row block's partial sum (column block 15). Each run leaves the two input tiles as found; what the
  accumulator (and, at the last point, the output's buffer) holds afterwards is read back from the stores the run made
  and named by the body's own arithmetic: the tile's sum added to what the accumulator held.
-/
import proofs.«175880_j29377576305361_2_alg».proof.Proof.Gen.Kernel.Launch
import proofs.«175880_j29377576305361_2_alg».proof.Proof.Gen.Kernel.Skeleton
import proofs.«175880_j29377576305361_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch that resets the accumulator: taken where the second grid coordinate is 0. -/
abbrev condFirst1 (i : grid1.Coords) : Prop := (Scalar.cmpi .ne (Scalar.extui (Scalar.cmpi .eq (BitVec.ofNat 32 (i 1).val) 0#32)) 0#32) = 1#1
/-- The branch that stores the block's partial sum: taken where the second grid coordinate is 15. -/
abbrev condLast1 (i : grid1.Coords) : Prop := k1_cond2 i = 1#1

set_option maxHeartbeats 1000000 in
/-- At a point that resets the accumulator and is not the last of its row block: the accumulator ends at the pieces found, the two inputs and the idle output as they were. -/
noncomputable def runFirst1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : condFirst1 i) (hc1 : ¬condLast1 i) (x0 : Vec F S2048x64 .f32) (x1 : Vec F S512x64 .f32) :
    { LS0 : List (View.Piece (Elt F) S1x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, fun xi2 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- At a point that neither resets nor stores: the accumulator, found at `xs`, ends at the pieces found. -/
noncomputable def runMid1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : ¬condFirst1 i) (hc1 : ¬condLast1 i) (x0 : Vec F S2048x64 .f32) (x1 : Vec F S512x64 .f32) (xs : Vec F S1x1 .f32) :
    { LS0 : List (View.Piece (Elt F) S1x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, fun xi2 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- At the last point of a row block: the accumulator, found at `xs`, ends at the pieces found, and the output's buffer at the pieces found. -/
noncomputable def runLast1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : ¬condFirst1 i) (hc1 : condLast1 i) (x0 : Vec F S2048x64 .f32) (x1 : Vec F S512x64 .f32) (xs : Vec F S1x1 .f32) :
    Σ' (L2 : List (View.Piece (Elt F) S1x1x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

theorem hzTwo1 : (![0, 0] : Fin 2 → ℕ) = fun _ => 0 := by funext a; fin_cases a <;> rfl
theorem hzThree1 : (![0, 0, 0] : Fin 3 → ℕ) = fun _ => 0 := by funext a; fin_cases a <;> rfl

theorem scoverFirst1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst1 i) (hc1 : ¬condLast1 i) (x0 : Vec F S2048x64 .f32) (x1 : Vec F S512x64 .f32) (y : S1x1.Idx) :
    ∃ pc ∈ (runFirst1 c i arg2 harg2 arg3 harg3 arg4 harg4 arg5 harg5 hc0 hc1 x0 x1).1, y ∈ pc.1.set :=
  View.cover_of_tiledL (runFirst1 c i arg2 harg2 arg3 harg3 arg4 harg4 arg5 harg5 hc0 hc1 x0 x1).1 S1x1.size (by sl_kernel_rfl) y

/-- What the accumulator holds after a resetting point: the found pieces read back. -/
def accFirst1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst1 i) (hc1 : ¬condLast1 i) (x0 : Vec F S2048x64 .f32) (x1 : Vec F S512x64 .f32) : Vec F S1x1 .f32 :=
  arg5.view.read (Elt F) (arg5.view.writes (Elt F) arg5.view.junk (runFirst1 c i arg2 harg2 arg3 harg3 arg4 harg4 arg5 harg5 hc0 hc1 x0 x1).1)

/-- It is the tile's sum added to the zero the reset stored. -/
theorem accFirst1_eq (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst1 i) (hc1 : ¬condLast1 i) (x0 : Vec F S2048x64 .f32) (x1 : Vec F S512x64 .f32) :
    accFirst1 c i arg2 harg2 arg3 harg3 arg4 harg4 arg5 harg5 hc0 hc1 x0 x1 = k1_pay3 x0 x1 (k1_pay2 (F := F)) := by
  unfold accFirst1
  rw [View.read_writes_eq_canon _ _ _ (scoverFirst1 c i arg2 harg2 arg3 harg3 arg4 harg4 arg5 harg5 hc0 hc1 x0 x1)]
  unfold runFirst1
  dsimp only
  sl_unfold_words
  rw [View.canon_cons_unit_zero hzTwo1, View.readCov_unit_zero _ hzTwo1]
  simp only [View.readAt_eq_ld, harg2.read_unread, harg3.read_unread, View.ld_unit_zero (S := S2048x64) hzTwo1, View.ld_unit_zero (S := S512x64) hzTwo1]

theorem scoverMid1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : ¬condLast1 i) (x0 : Vec F S2048x64 .f32) (x1 : Vec F S512x64 .f32) (xs : Vec F S1x1 .f32) (y : S1x1.Idx) :
    ∃ pc ∈ (runMid1 c i arg2 harg2 arg3 harg3 arg4 harg4 arg5 harg5 hc0 hc1 x0 x1 xs).1, y ∈ pc.1.set :=
  View.cover_of_tiledL (runMid1 c i arg2 harg2 arg3 harg3 arg4 harg4 arg5 harg5 hc0 hc1 x0 x1 xs).1 S1x1.size (by sl_kernel_rfl) y

/-- What the accumulator holds after a point that only accumulates. -/
def accMid1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : ¬condLast1 i) (x0 : Vec F S2048x64 .f32) (x1 : Vec F S512x64 .f32) (xs : Vec F S1x1 .f32) : Vec F S1x1 .f32 :=
  arg5.view.read (Elt F) (arg5.view.writes (Elt F) arg5.view.junk (runMid1 c i arg2 harg2 arg3 harg3 arg4 harg4 arg5 harg5 hc0 hc1 x0 x1 xs).1)

theorem accMid1_eq (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : ¬condLast1 i) (x0 : Vec F S2048x64 .f32) (x1 : Vec F S512x64 .f32) (xs : Vec F S1x1 .f32) :
    accMid1 c i arg2 harg2 arg3 harg3 arg4 harg4 arg5 harg5 hc0 hc1 x0 x1 xs = k1_pay3 x0 x1 xs := by
  unfold accMid1
  rw [View.read_writes_eq_canon _ _ _ (scoverMid1 c i arg2 harg2 arg3 harg3 arg4 harg4 arg5 harg5 hc0 hc1 x0 x1 xs)]
  unfold runMid1
  dsimp only
  sl_unfold_words
  rw [View.canon_unit_zero hzTwo1]
  simp only [View.readAt_eq_ld, harg2.read_unread, harg3.read_unread, harg5.read_unread, View.ld_unit_zero (S := S2048x64) hzTwo1, View.ld_unit_zero (S := S512x64) hzTwo1, View.ld_unit_zero (S := S1x1) hzTwo1]

theorem scoverLast1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : condLast1 i) (x0 : Vec F S2048x64 .f32) (x1 : Vec F S512x64 .f32) (xs : Vec F S1x1 .f32) (y : S1x1.Idx) :
    ∃ pc ∈ (runLast1 c i arg2 harg2 arg3 harg3 arg4 harg4 arg5 harg5 hc0 hc1 x0 x1 xs).2.1, y ∈ pc.1.set :=
  View.cover_of_tiledL (runLast1 c i arg2 harg2 arg3 harg3 arg4 harg4 arg5 harg5 hc0 hc1 x0 x1 xs).2.1 S1x1.size (by sl_kernel_rfl) y

theorem coverLast1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : condLast1 i) (x0 : Vec F S2048x64 .f32) (x1 : Vec F S512x64 .f32) (xs : Vec F S1x1 .f32) (y : S1x1x128.Idx) :
    ∃ pc ∈ (runLast1 c i arg2 harg2 arg3 harg3 arg4 harg4 arg5 harg5 hc0 hc1 x0 x1 xs).1, y ∈ pc.1.set :=
  View.cover_of_tiledL (runLast1 c i arg2 harg2 arg3 harg3 arg4 harg4 arg5 harg5 hc0 hc1 x0 x1 xs).1 S1x1x128.size (by sl_kernel_rfl) y

/-- What the accumulator holds after the last point of a row block. -/
def accLast1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : condLast1 i) (x0 : Vec F S2048x64 .f32) (x1 : Vec F S512x64 .f32) (xs : Vec F S1x1 .f32) : Vec F S1x1 .f32 :=
  arg5.view.read (Elt F) (arg5.view.writes (Elt F) arg5.view.junk (runLast1 c i arg2 harg2 arg3 harg3 arg4 harg4 arg5 harg5 hc0 hc1 x0 x1 xs).2.1)

/-- What the output's buffer holds after the last point of a row block. -/
def outLast1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : condLast1 i) (x0 : Vec F S2048x64 .f32) (x1 : Vec F S512x64 .f32) (xs : Vec F S1x1 .f32) : Vec F S1x1x128 .f32 :=
  arg4.view.read (Elt F) (arg4.view.writes (Elt F) arg4.view.junk (runLast1 c i arg2 harg2 arg3 harg3 arg4 harg4 arg5 harg5 hc0 hc1 x0 x1 xs).1)

theorem accLast1_eq (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : condLast1 i) (x0 : Vec F S2048x64 .f32) (x1 : Vec F S512x64 .f32) (xs : Vec F S1x1 .f32) :
    accLast1 c i arg2 harg2 arg3 harg3 arg4 harg4 arg5 harg5 hc0 hc1 x0 x1 xs = k1_pay3 x0 x1 xs := by
  unfold accLast1
  rw [View.read_writes_eq_canon _ _ _ (scoverLast1 c i arg2 harg2 arg3 harg3 arg4 harg4 arg5 harg5 hc0 hc1 x0 x1 xs)]
  unfold runLast1
  dsimp only
  sl_unfold_words
  rw [View.canon_unit_zero hzTwo1]
  simp only [View.readAt_eq_ld, harg2.read_unread, harg3.read_unread, harg5.read_unread, View.ld_unit_zero (S := S2048x64) hzTwo1, View.ld_unit_zero (S := S512x64) hzTwo1, View.ld_unit_zero (S := S1x1) hzTwo1]

theorem outLast1_eq (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : condLast1 i) (x0 : Vec F S2048x64 .f32) (x1 : Vec F S512x64 .f32) (xs : Vec F S1x1 .f32) :
    outLast1 c i arg2 harg2 arg3 harg3 arg4 harg4 arg5 harg5 hc0 hc1 x0 x1 xs = k1_pay1 (k1_pay3 x0 x1 xs) := by
  unfold outLast1
  rw [View.read_writes_eq_canon _ _ _ (coverLast1 c i arg2 harg2 arg3 harg3 arg4 harg4 arg5 harg5 hc0 hc1 x0 x1 xs)]
  unfold runLast1
  dsimp only
  sl_unfold_words
  rw [View.canon_unit_zero hzThree1, View.readCov_unit_zero _ hzTwo1]
  simp only [View.readAt_eq_ld, harg2.read_unread, harg3.read_unread, harg5.read_unread, View.ld_unit_zero (S := S2048x64) hzTwo1, View.ld_unit_zero (S := S512x64) hzTwo1, View.ld_unit_zero (S := S1x1) hzTwo1]

end Cert.Kernel.Body

end
-- ==== Proof.KRegion1.lean ====
/-
  Pallas_call 1 over its grid of 4 row blocks by 16 column blocks, from any contents `V` of the core's buffers at its
  entry: what the accumulator holds after each point (the tile's sum added to the previous point's value, restarted
  from zero at column block 0), the proof data over it (each input's buffer at its tile, the output's at the masked
  accumulator, written back only after column block 15), and the body's obligation at every point by the case of the
  point.
-/
import proofs.«175880_j29377576305361_2_alg».proof.Proof.Gen.Kernel.Launch
import proofs.«175880_j29377576305361_2_alg».proof.Proof.Gen.Kernel.Skeleton
import proofs.«175880_j29377576305361_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«175880_j29377576305361_2_alg».proof.Proof.KBody1

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current buffer holds its tile at every point, fetched there or not (unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions over the grid, and where the output is idle -/

theorem hcondFirst1 : ∀ t : Fin cfg1.N, condFirst1 (grid1.coords t) ↔ t.val % 16 = 0 :=
  (by decide +kernel : ∀ t : Fin grid1.N, condFirst1 (grid1.coords t) ↔ t.val % 16 = 0)
theorem hcondLast1 : ∀ t : Fin cfg1.N, condLast1 (grid1.coords t) ↔ t.val % 16 = 15 :=
  (by decide +kernel : ∀ t : Fin grid1.N, condLast1 (grid1.coords t) ↔ t.val % 16 = 15)
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬condLast1 (grid1.coords t) → cfg1.idle 2 (grid1.coords t) = true := by decide +kernel
theorem noFlush1_2 : ∀ t : Fin cfg1.N, ¬condLast1 (grid1.coords t) → (cfg1.win 2).flush t = false := by decide +kernel
theorem liveAt1_2 : ∀ t : Fin cfg1.N, condLast1 (grid1.coords t) → cfg1.idle 2 (grid1.coords t) = false := by decide +kernel

/-! ## The accumulator point by point -/

/-- What the accumulator holds after point `n`: the tile's sum of point `n` added to zero at column block 0, to the value after point `n - 1` otherwise. -/
def accAt1 (c : Dev nD) : (n : ℕ) → n < cfg1.N → Vec F S1x1 .f32
  | 0, hn => k1_pay3 (iblk1 V c 0 ⟨0, hn⟩) (iblk1 V c 1 ⟨0, hn⟩) (k1_pay2 (F := F))
  | n + 1, hn =>
    if (n + 1) % 16 = 0 then k1_pay3 (iblk1 V c 0 ⟨n + 1, hn⟩) (iblk1 V c 1 ⟨n + 1, hn⟩) (k1_pay2 (F := F))
    else k1_pay3 (iblk1 V c 0 ⟨n + 1, hn⟩) (iblk1 V c 1 ⟨n + 1, hn⟩) (accAt1 c n (Nat.lt_of_succ_lt hn))

theorem accAt1_first (c : Dev nD) (t : Fin cfg1.N) (h0 : t.val % 16 = 0) :
    accAt1 V c t.val t.isLt = k1_pay3 (iblk1 V c 0 t) (iblk1 V c 1 t) (k1_pay2 (F := F)) := by
  obtain ⟨n, hn⟩ := t
  cases n with
  | zero => rfl
  | succ n => exact if_pos h0

theorem accAt1_next (c : Dev nD) (t : Fin cfg1.N) (h0 : ¬t.val % 16 = 0) :
    accAt1 V c t.val t.isLt = k1_pay3 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The accumulator's buffer. -/
abbrev scM1 : Memref sig .tc .vmem S1x1 .f32 := Memref.whole cc1_scratch0

/-- The core's scoped buffers other than this call's staging buffers and accumulator, each at some contents. -/
def rest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))

/-- The class invariant hands out the accumulator's buffer at some contents beside the rest, -/
theorem PhiA_open1 (c : Dev nD) : (Pipeline.ΦA spec1 c : sProp 𝕄) ⊢ iprop((∃ d, owns (c : Thread nD τ) scM1 fullShare d) ∗ rest1 (F := F) c ∗ (∃ r, prngReg c r)) := by
  unfold Pipeline.ΦA rest1; rw [scopedRest1_eq]
  iintro ⟨⟨Hb0, Hb1, Hb2, Hb3, Hb4, Hb5, Hb6, HS, Hb8, Hb9, Hb10, Hb11, Hb12, Hb13, Hb14⟩, Hp⟩
  isplitl [HS]
  · icases HS with ⟨%f, HS⟩; iexists f; rw [owns_whole]; iexact HS
  isplitr [Hp]; swap; · iexact Hp
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb8]; · iexact Hb8
  isplitl [Hb9]; · iexact Hb9
  isplitl [Hb10]; · iexact Hb10
  isplitl [Hb11]; · iexact Hb11
  isplitl [Hb12]; · iexact Hb12
  isplitl [Hb13]; · iexact Hb13
  iexact Hb14

/-- and takes it back at any contents. -/
theorem PhiA_close1 (c : Dev nD) : iprop((∃ d, owns (c : Thread nD τ) scM1 fullShare d) ∗ rest1 (F := F) c ∗ (∃ r, prngReg c r)) ⊢ (Pipeline.ΦA spec1 c : sProp 𝕄) := by
  unfold Pipeline.ΦA rest1; rw [scopedRest1_eq]; simp only [owns_whole]
  iintro ⟨⟨%d, HS⟩, ⟨Hb0, Hb1, Hb2, Hb3, Hb4, Hb5, Hb6, Hb8, Hb9, Hb10, Hb11, Hb12, Hb13, Hb14⟩, Hp⟩
  isplitr [Hp]; swap; · iexact Hp
  ·
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [HS]; · (iexists d; iexact HS)
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    iexact Hb14

/-- The invariant before position `n`: before the first point the class's; afterwards the accumulator at what the point before left, the rest and the generator register at some state. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ rest1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (accAt1 V c n hn) ∗ rest1 (F := F) c ∗ (∃ r, prngReg c r)) := rfl
theorem PhiS1_pos (c : Dev nD) (n : ℕ) (h : n ≤ cfg1.N) (hz : n ≠ 0) :
    PhiS1 V c n h = iprop(owns (c : Thread nD τ) scM1 fullShare (accAt1 V c (n - 1) (by omega)) ∗ rest1 (F := F) c ∗ (∃ r, prngReg c r)) := by
  cases n with
  | zero => exact absurd rfl hz
  | succ n => rfl

/-- At any position the invariant yields the accumulator's buffer at some contents beside the rest. -/
theorem PhiS1_open (c : Dev nD) (n : ℕ) (h : n ≤ cfg1.N) :
    PhiS1 V c n h ⊢ iprop((∃ d, owns (c : Thread nD τ) scM1 fullShare d) ∗ rest1 (F := F) c ∗ (∃ r, prngReg c r)) := by
  cases n with
  | zero => exact PhiA_open1 c
  | succ n =>
    rw [PhiS1_succ]
    iintro ⟨HS, Hr, Hg⟩
    isplitl [HS]; · iexists _; iexact HS
    isplitl [Hr]; · iexact Hr
    iexact Hg

/-! ## The proof data -/

/-- The proof data of the call on core `c`: the arrays as the call finds them; after the body at point `t` each input's
    buffer at its tile and the output's at the masked accumulator; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (accAt1 V c t.val t.isLt)
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (accAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

abbrev ms1_0 (t : Fin cfg1.N) : Memref sig .tc .vmem S2048x64 .f32 := win1_0.stage (cfg1.slots t 0)
abbrev ms1_1 (t : Fin cfg1.N) : Memref sig .tc .vmem S512x64 .f32 := win1_1.stage (cfg1.slots t 1)
abbrev ms1_2 (t : Fin cfg1.N) : Memref sig .tc .vmem S1x1x128 .f32 := win1_2.stage (cfg1.slots t 2)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their tiles; the point's position among the 16 column blocks says
    which case it is in; the invariant hands the accumulator over at what the point before left (at anything where the
    body resets it first) and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  rw [PhiS1_castSucc V c t]
  by_cases h0 : t.val % 16 = 0
  · have h1 : ¬t.val % 16 = 15 := by omega
    have hc0 : condFirst1 (grid1.coords t) := (hcondFirst1 t).mpr h0
    have hc1 : ¬condLast1 (grid1.coords t) := fun h => h1 ((hcondLast1 t).mp h)
    rw [Dat.leavesExact_idle (dat1 V c) 2 t (idleAt1_2 t hc1) (noFlush1_2 t hc1)]
    rw [accAt1_first V c t h0]
    iintro ⟨HΦ, Ho, ⟨%d0, H0⟩, ⟨%d1, H1⟩, ⟨%d2, H2⟩⟩
    ihave HΦ' := (PhiS1_open V c t.val (Nat.le_of_lt t.isLt)) $$ HΦ
    icases HΦ' with ⟨HS, Hr, Hg⟩
    iapply ((runFirst1 c (grid1.coords t) _ _ _ _ _ _ _ _ hc0 hc1 (iblk1 V c 0 t) (iblk1 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hr Hg]
    · isplitl [HS]
      · unfold owns; iexists _; isplitr
        swap; · iexact HS
        ipureintro
        exact (View.read_writes_of_cover _ _ _ _ _ (scoverFirst1 c _ _ _ _ _ _ _ _ _ hc0 hc1 _ _)).trans (accFirst1_eq c _ _ _ _ _ _ _ _ _ hc0 hc1 _ _)
      isplitl [Hr]; · iexact Hr
      iexact Hg
    isplitl [Ho]; · iexact Ho
    isplitl [H0]; · iexact H0
    isplitl [H1]; · iexact H1
    iexists _; iexact H2
  · have hz : t.val ≠ 0 := fun h => h0 (by rw [h])
    have hc0 : ¬condFirst1 (grid1.coords t) := fun h => h0 ((hcondFirst1 t).mp h)
    rw [PhiS1_pos V c _ _ hz, accAt1_next V c t h0]
    by_cases h1 : t.val % 16 = 15
    · have hc1 : condLast1 (grid1.coords t) := (hcondLast1 t).mpr h1
      rw [show (dat1 V c).leavesExact 2 t = owns (c : Thread nD τ) (ms1_2 t) fullShare ((dat1 V c).after 2 t) from by
        unfold Dat.leavesExact; rw [liveAt1_2 t hc1], after1_2, accAt1_next V c t h0]
      iintro ⟨⟨HS, Hr, Hg⟩, Ho, ⟨%d0, H0⟩, ⟨%d1, H1⟩, ⟨%d2, H2⟩⟩
      iapply ((runLast1 c (grid1.coords t) _ _ _ _ _ _ _ _ hc0 hc1 (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS]
        · unfold owns; iexists _; isplitr
          swap; · iexact HS
          ipureintro
          exact (View.read_writes_of_cover _ _ _ _ _ (scoverLast1 c _ _ _ _ _ _ _ _ _ hc0 hc1 _ _ _)).trans (accLast1_eq c _ _ _ _ _ _ _ _ _ hc0 hc1 _ _ _)
        isplitl [Hr]; · iexact Hr
        iexact Hg
      isplitl [Ho]; · iexact Ho
      isplitl [H0]; · iexact H0
      isplitl [H1]; · iexact H1
      unfold owns; iexists _; isplitr
      swap; · iexact H2
      ipureintro
      exact (View.read_writes_of_cover _ _ _ _ _ (coverLast1 c _ _ _ _ _ _ _ _ _ hc0 hc1 _ _ _)).trans (outLast1_eq c _ _ _ _ _ _ _ _ _ hc0 hc1 _ _ _)
    · have hc1 : ¬condLast1 (grid1.coords t) := fun h => h1 ((hcondLast1 t).mp h)
      rw [Dat.leavesExact_idle (dat1 V c) 2 t (idleAt1_2 t hc1) (noFlush1_2 t hc1)]
      iintro ⟨⟨HS, Hr, Hg⟩, Ho, ⟨%d0, H0⟩, ⟨%d1, H1⟩, ⟨%d2, H2⟩⟩
      iapply ((runMid1 c (grid1.coords t) _ _ _ _ _ _ _ _ hc0 hc1 (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS]
        · unfold owns; iexists _; isplitr
          swap; · iexact HS
          ipureintro
          exact (View.read_writes_of_cover _ _ _ _ _ (scoverMid1 c _ _ _ _ _ _ _ _ _ hc0 hc1 _ _ _)).trans (accMid1_eq c _ _ _ _ _ _ _ _ _ hc0 hc1 _ _ _)
        isplitl [Hr]; · iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back, the accumulator's value forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_open V c _ _).trans (PhiA_close1 c)

end Region

end Cert.Kernel.Body

end
-- ==== Proof.KBody2.lean ====
/-
  The body of pallas_call 2 run at one grid point, in the three control cases a grid of 4 row blocks by 16 column
  blocks meets: the point that resets the accumulator (column block 0), a point that only accumulates, and the point
  that also stores the row block's partial sum (column block 15). Each run leaves the two input tiles as found; what the
  accumulator (and, at the last point, the output's buffer) holds afterwards is read back from the stores the run made
  and named by the body's own arithmetic: the tile's sum added to what the accumulator held.
-/
import proofs.«175880_j29377576305361_2_alg».proof.Proof.Gen.Kernel.Launch
import proofs.«175880_j29377576305361_2_alg».proof.Proof.Gen.Kernel.Skeleton
import proofs.«175880_j29377576305361_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch that resets the accumulator: taken where the second grid coordinate is 0. -/
abbrev condFirst2 (i : grid2.Coords) : Prop := (Scalar.cmpi .ne (Scalar.extui (Scalar.cmpi .eq (BitVec.ofNat 32 (i 1).val) 0#32)) 0#32) = 1#1
/-- The branch that stores the block's partial sum: taken where the second grid coordinate is 15. -/
abbrev condLast2 (i : grid2.Coords) : Prop := k2_cond2 i = 1#1

set_option maxHeartbeats 1000000 in
/-- At a point that resets the accumulator and is not the last of its row block: the accumulator ends at the pieces found, the two inputs and the idle output as they were. -/
noncomputable def runFirst2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : condFirst2 i) (hc1 : ¬condLast2 i) (x0 : Vec F S2048x64 .f32) (x1 : Vec F S512x64 .f32) :
    { LS0 : List (View.Piece (Elt F) S1x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨?_, fun xi2 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- At a point that neither resets nor stores: the accumulator, found at `xs`, ends at the pieces found. -/
noncomputable def runMid2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : ¬condFirst2 i) (hc1 : ¬condLast2 i) (x0 : Vec F S2048x64 .f32) (x1 : Vec F S512x64 .f32) (xs : Vec F S1x1 .f32) :
    { LS0 : List (View.Piece (Elt F) S1x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨?_, fun xi2 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- At the last point of a row block: the accumulator, found at `xs`, ends at the pieces found, and the output's buffer at the pieces found. -/
noncomputable def runLast2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : ¬condFirst2 i) (hc1 : condLast2 i) (x0 : Vec F S2048x64 .f32) (x1 : Vec F S512x64 .f32) (xs : Vec F S1x1 .f32) :
    Σ' (L2 : List (View.Piece (Elt F) S1x1x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨?_, ?_, fun E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

theorem hzTwo2 : (![0, 0] : Fin 2 → ℕ) = fun _ => 0 := by funext a; fin_cases a <;> rfl
theorem hzThree2 : (![0, 0, 0] : Fin 3 → ℕ) = fun _ => 0 := by funext a; fin_cases a <;> rfl

theorem scoverFirst2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst2 i) (hc1 : ¬condLast2 i) (x0 : Vec F S2048x64 .f32) (x1 : Vec F S512x64 .f32) (y : S1x1.Idx) :
    ∃ pc ∈ (runFirst2 c i arg2 harg2 arg3 harg3 arg4 harg4 arg5 harg5 hc0 hc1 x0 x1).1, y ∈ pc.1.set :=
  View.cover_of_tiledL (runFirst2 c i arg2 harg2 arg3 harg3 arg4 harg4 arg5 harg5 hc0 hc1 x0 x1).1 S1x1.size (by sl_kernel_rfl) y

/-- What the accumulator holds after a resetting point: the found pieces read back. -/
def accFirst2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst2 i) (hc1 : ¬condLast2 i) (x0 : Vec F S2048x64 .f32) (x1 : Vec F S512x64 .f32) : Vec F S1x1 .f32 :=
  arg5.view.read (Elt F) (arg5.view.writes (Elt F) arg5.view.junk (runFirst2 c i arg2 harg2 arg3 harg3 arg4 harg4 arg5 harg5 hc0 hc1 x0 x1).1)

/-- It is the tile's sum added to the zero the reset stored. -/
theorem accFirst2_eq (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst2 i) (hc1 : ¬condLast2 i) (x0 : Vec F S2048x64 .f32) (x1 : Vec F S512x64 .f32) :
    accFirst2 c i arg2 harg2 arg3 harg3 arg4 harg4 arg5 harg5 hc0 hc1 x0 x1 = k2_pay3 x0 x1 (k2_pay2 (F := F)) := by
  unfold accFirst2
  rw [View.read_writes_eq_canon _ _ _ (scoverFirst2 c i arg2 harg2 arg3 harg3 arg4 harg4 arg5 harg5 hc0 hc1 x0 x1)]
  unfold runFirst2
  dsimp only
  sl_unfold_words
  rw [View.canon_cons_unit_zero hzTwo2, View.readCov_unit_zero _ hzTwo2]
  simp only [View.readAt_eq_ld, harg2.read_unread, harg3.read_unread, View.ld_unit_zero (S := S2048x64) hzTwo2, View.ld_unit_zero (S := S512x64) hzTwo2]

theorem scoverMid2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : ¬condLast2 i) (x0 : Vec F S2048x64 .f32) (x1 : Vec F S512x64 .f32) (xs : Vec F S1x1 .f32) (y : S1x1.Idx) :
    ∃ pc ∈ (runMid2 c i arg2 harg2 arg3 harg3 arg4 harg4 arg5 harg5 hc0 hc1 x0 x1 xs).1, y ∈ pc.1.set :=
  View.cover_of_tiledL (runMid2 c i arg2 harg2 arg3 harg3 arg4 harg4 arg5 harg5 hc0 hc1 x0 x1 xs).1 S1x1.size (by sl_kernel_rfl) y

/-- What the accumulator holds after a point that only accumulates. -/
def accMid2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : ¬condLast2 i) (x0 : Vec F S2048x64 .f32) (x1 : Vec F S512x64 .f32) (xs : Vec F S1x1 .f32) : Vec F S1x1 .f32 :=
  arg5.view.read (Elt F) (arg5.view.writes (Elt F) arg5.view.junk (runMid2 c i arg2 harg2 arg3 harg3 arg4 harg4 arg5 harg5 hc0 hc1 x0 x1 xs).1)

theorem accMid2_eq (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : ¬condLast2 i) (x0 : Vec F S2048x64 .f32) (x1 : Vec F S512x64 .f32) (xs : Vec F S1x1 .f32) :
    accMid2 c i arg2 harg2 arg3 harg3 arg4 harg4 arg5 harg5 hc0 hc1 x0 x1 xs = k2_pay3 x0 x1 xs := by
  unfold accMid2
  rw [View.read_writes_eq_canon _ _ _ (scoverMid2 c i arg2 harg2 arg3 harg3 arg4 harg4 arg5 harg5 hc0 hc1 x0 x1 xs)]
  unfold runMid2
  dsimp only
  sl_unfold_words
  rw [View.canon_unit_zero hzTwo2]
  simp only [View.readAt_eq_ld, harg2.read_unread, harg3.read_unread, harg5.read_unread, View.ld_unit_zero (S := S2048x64) hzTwo2, View.ld_unit_zero (S := S512x64) hzTwo2, View.ld_unit_zero (S := S1x1) hzTwo2]

theorem scoverLast2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : condLast2 i) (x0 : Vec F S2048x64 .f32) (x1 : Vec F S512x64 .f32) (xs : Vec F S1x1 .f32) (y : S1x1.Idx) :
    ∃ pc ∈ (runLast2 c i arg2 harg2 arg3 harg3 arg4 harg4 arg5 harg5 hc0 hc1 x0 x1 xs).2.1, y ∈ pc.1.set :=
  View.cover_of_tiledL (runLast2 c i arg2 harg2 arg3 harg3 arg4 harg4 arg5 harg5 hc0 hc1 x0 x1 xs).2.1 S1x1.size (by sl_kernel_rfl) y

theorem coverLast2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : condLast2 i) (x0 : Vec F S2048x64 .f32) (x1 : Vec F S512x64 .f32) (xs : Vec F S1x1 .f32) (y : S1x1x128.Idx) :
    ∃ pc ∈ (runLast2 c i arg2 harg2 arg3 harg3 arg4 harg4 arg5 harg5 hc0 hc1 x0 x1 xs).1, y ∈ pc.1.set :=
  View.cover_of_tiledL (runLast2 c i arg2 harg2 arg3 harg3 arg4 harg4 arg5 harg5 hc0 hc1 x0 x1 xs).1 S1x1x128.size (by sl_kernel_rfl) y

/-- What the accumulator holds after the last point of a row block. -/
def accLast2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : condLast2 i) (x0 : Vec F S2048x64 .f32) (x1 : Vec F S512x64 .f32) (xs : Vec F S1x1 .f32) : Vec F S1x1 .f32 :=
  arg5.view.read (Elt F) (arg5.view.writes (Elt F) arg5.view.junk (runLast2 c i arg2 harg2 arg3 harg3 arg4 harg4 arg5 harg5 hc0 hc1 x0 x1 xs).2.1)

/-- What the output's buffer holds after the last point of a row block. -/
def outLast2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : condLast2 i) (x0 : Vec F S2048x64 .f32) (x1 : Vec F S512x64 .f32) (xs : Vec F S1x1 .f32) : Vec F S1x1x128 .f32 :=
  arg4.view.read (Elt F) (arg4.view.writes (Elt F) arg4.view.junk (runLast2 c i arg2 harg2 arg3 harg3 arg4 harg4 arg5 harg5 hc0 hc1 x0 x1 xs).1)

theorem accLast2_eq (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : condLast2 i) (x0 : Vec F S2048x64 .f32) (x1 : Vec F S512x64 .f32) (xs : Vec F S1x1 .f32) :
    accLast2 c i arg2 harg2 arg3 harg3 arg4 harg4 arg5 harg5 hc0 hc1 x0 x1 xs = k2_pay3 x0 x1 xs := by
  unfold accLast2
  rw [View.read_writes_eq_canon _ _ _ (scoverLast2 c i arg2 harg2 arg3 harg3 arg4 harg4 arg5 harg5 hc0 hc1 x0 x1 xs)]
  unfold runLast2
  dsimp only
  sl_unfold_words
  rw [View.canon_unit_zero hzTwo2]
  simp only [View.readAt_eq_ld, harg2.read_unread, harg3.read_unread, harg5.read_unread, View.ld_unit_zero (S := S2048x64) hzTwo2, View.ld_unit_zero (S := S512x64) hzTwo2, View.ld_unit_zero (S := S1x1) hzTwo2]

theorem outLast2_eq (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : condLast2 i) (x0 : Vec F S2048x64 .f32) (x1 : Vec F S512x64 .f32) (xs : Vec F S1x1 .f32) :
    outLast2 c i arg2 harg2 arg3 harg3 arg4 harg4 arg5 harg5 hc0 hc1 x0 x1 xs = k2_pay1 (k2_pay3 x0 x1 xs) := by
  unfold outLast2
  rw [View.read_writes_eq_canon _ _ _ (coverLast2 c i arg2 harg2 arg3 harg3 arg4 harg4 arg5 harg5 hc0 hc1 x0 x1 xs)]
  unfold runLast2
  dsimp only
  sl_unfold_words
  rw [View.canon_unit_zero hzThree2, View.readCov_unit_zero _ hzTwo2]
  simp only [View.readAt_eq_ld, harg2.read_unread, harg3.read_unread, harg5.read_unread, View.ld_unit_zero (S := S2048x64) hzTwo2, View.ld_unit_zero (S := S512x64) hzTwo2, View.ld_unit_zero (S := S1x1) hzTwo2]

end Cert.Kernel.Body

end
-- ==== Proof.KRegion2.lean ====
/-
  Pallas_call 2 over its grid of 4 row blocks by 16 column blocks, from any contents `V` of the core's buffers at its
  entry: what the accumulator holds after each point (the tile's sum added to the previous point's value, restarted
  from zero at column block 0), the proof data over it (each input's buffer at its tile, the output's at the masked
  accumulator, written back only after column block 15), and the body's obligation at every point by the case of the
  point.
-/
import proofs.«175880_j29377576305361_2_alg».proof.Proof.Gen.Kernel.Launch
import proofs.«175880_j29377576305361_2_alg».proof.Proof.Gen.Kernel.Skeleton
import proofs.«175880_j29377576305361_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«175880_j29377576305361_2_alg».proof.Proof.KBody2

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's current buffer holds its tile at every point, fetched there or not (unfetched, the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions over the grid, and where the output is idle -/

theorem hcondFirst2 : ∀ t : Fin cfg2.N, condFirst2 (grid2.coords t) ↔ t.val % 16 = 0 :=
  (by decide +kernel : ∀ t : Fin grid2.N, condFirst2 (grid2.coords t) ↔ t.val % 16 = 0)
theorem hcondLast2 : ∀ t : Fin cfg2.N, condLast2 (grid2.coords t) ↔ t.val % 16 = 15 :=
  (by decide +kernel : ∀ t : Fin grid2.N, condLast2 (grid2.coords t) ↔ t.val % 16 = 15)
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬condLast2 (grid2.coords t) → cfg2.idle 2 (grid2.coords t) = true := by decide +kernel
theorem noFlush2_2 : ∀ t : Fin cfg2.N, ¬condLast2 (grid2.coords t) → (cfg2.win 2).flush t = false := by decide +kernel
theorem liveAt2_2 : ∀ t : Fin cfg2.N, condLast2 (grid2.coords t) → cfg2.idle 2 (grid2.coords t) = false := by decide +kernel

/-! ## The accumulator point by point -/

/-- What the accumulator holds after point `n`: the tile's sum of point `n` added to zero at column block 0, to the value after point `n - 1` otherwise. -/
def accAt2 (c : Dev nD) : (n : ℕ) → n < cfg2.N → Vec F S1x1 .f32
  | 0, hn => k2_pay3 (iblk2 V c 0 ⟨0, hn⟩) (iblk2 V c 1 ⟨0, hn⟩) (k2_pay2 (F := F))
  | n + 1, hn =>
    if (n + 1) % 16 = 0 then k2_pay3 (iblk2 V c 0 ⟨n + 1, hn⟩) (iblk2 V c 1 ⟨n + 1, hn⟩) (k2_pay2 (F := F))
    else k2_pay3 (iblk2 V c 0 ⟨n + 1, hn⟩) (iblk2 V c 1 ⟨n + 1, hn⟩) (accAt2 c n (Nat.lt_of_succ_lt hn))

theorem accAt2_first (c : Dev nD) (t : Fin cfg2.N) (h0 : t.val % 16 = 0) :
    accAt2 V c t.val t.isLt = k2_pay3 (iblk2 V c 0 t) (iblk2 V c 1 t) (k2_pay2 (F := F)) := by
  obtain ⟨n, hn⟩ := t
  cases n with
  | zero => rfl
  | succ n => exact if_pos h0

theorem accAt2_next (c : Dev nD) (t : Fin cfg2.N) (h0 : ¬t.val % 16 = 0) :
    accAt2 V c t.val t.isLt = k2_pay3 (iblk2 V c 0 t) (iblk2 V c 1 t) (accAt2 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The accumulator's buffer. -/
abbrev scM2 : Memref sig .tc .vmem S1x1 .f32 := Memref.whole cc2_scratch0

/-- The core's scoped buffers other than this call's staging buffers and accumulator, each at some contents. -/
def rest2 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant hands out the accumulator's buffer at some contents beside the rest, -/
theorem PhiA_open2 (c : Dev nD) : (Pipeline.ΦA spec2 c : sProp 𝕄) ⊢ iprop((∃ d, owns (c : Thread nD τ) scM2 fullShare d) ∗ rest2 (F := F) c ∗ (∃ r, prngReg c r)) := by
  unfold Pipeline.ΦA rest2; rw [scopedRest2_eq]
  iintro ⟨⟨Hb0, Hb1, Hb2, Hb3, Hb4, Hb5, Hb6, Hb7, Hb8, Hb9, Hb10, Hb11, Hb12, Hb13, HS⟩, Hp⟩
  isplitl [HS]
  · icases HS with ⟨%f, HS⟩; iexists f; rw [owns_whole]; iexact HS
  isplitr [Hp]; swap; · iexact Hp
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hb8]; · iexact Hb8
  isplitl [Hb9]; · iexact Hb9
  isplitl [Hb10]; · iexact Hb10
  isplitl [Hb11]; · iexact Hb11
  isplitl [Hb12]; · iexact Hb12
  iexact Hb13

/-- and takes it back at any contents. -/
theorem PhiA_close2 (c : Dev nD) : iprop((∃ d, owns (c : Thread nD τ) scM2 fullShare d) ∗ rest2 (F := F) c ∗ (∃ r, prngReg c r)) ⊢ (Pipeline.ΦA spec2 c : sProp 𝕄) := by
  unfold Pipeline.ΦA rest2; rw [scopedRest2_eq]; simp only [owns_whole]
  iintro ⟨⟨%d, HS⟩, ⟨Hb0, Hb1, Hb2, Hb3, Hb4, Hb5, Hb6, Hb7, Hb8, Hb9, Hb10, Hb11, Hb12, Hb13⟩, Hp⟩
  isplitr [Hp]; swap; · iexact Hp
  ·
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    (iexists d; iexact HS)

/-- The invariant before position `n`: before the first point the class's; afterwards the accumulator at what the point before left, the rest and the generator register at some state. -/
def PhiS2 (c : Dev nD) : (n : ℕ) → n ≤ cfg2.N → sProp 𝕄
  | 0, _ => Pipeline.ΦA spec2 c
  | n + 1, hn => iprop(owns (c : Thread nD τ) scM2 fullShare (accAt2 V c n hn) ∗ rest2 (F := F) c ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2 fullShare (accAt2 V c n hn) ∗ rest2 (F := F) c ∗ (∃ r, prngReg c r)) := rfl
theorem PhiS2_pos (c : Dev nD) (n : ℕ) (h : n ≤ cfg2.N) (hz : n ≠ 0) :
    PhiS2 V c n h = iprop(owns (c : Thread nD τ) scM2 fullShare (accAt2 V c (n - 1) (by omega)) ∗ rest2 (F := F) c ∗ (∃ r, prngReg c r)) := by
  cases n with
  | zero => exact absurd rfl hz
  | succ n => rfl

/-- At any position the invariant yields the accumulator's buffer at some contents beside the rest. -/
theorem PhiS2_open (c : Dev nD) (n : ℕ) (h : n ≤ cfg2.N) :
    PhiS2 V c n h ⊢ iprop((∃ d, owns (c : Thread nD τ) scM2 fullShare d) ∗ rest2 (F := F) c ∗ (∃ r, prngReg c r)) := by
  cases n with
  | zero => exact PhiA_open2 c
  | succ n =>
    rw [PhiS2_succ]
    iintro ⟨HS, Hr, Hg⟩
    isplitl [HS]; · iexists _; iexact HS
    isplitl [Hr]; · iexact Hr
    iexact Hg

/-! ## The proof data -/

/-- The proof data of the call on core `c`: the arrays as the call finds them; after the body at point `t` each input's
    buffer at its tile and the output's at the masked accumulator; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (accAt2 V c t.val t.isLt)
  Φ t := PhiS2 V c t.val (Nat.le_of_lt_succ t.isLt)
  q w := match w with
    | ⟨0, _⟩ => fullShare
    | ⟨1, _⟩ => fullShare
    | ⟨2, _⟩ => fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay1 (accAt2 V c t.val t.isLt) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

abbrev ms2_0 (t : Fin cfg2.N) : Memref sig .tc .vmem S2048x64 .f32 := win2_0.stage (cfg2.slots t 0)
abbrev ms2_1 (t : Fin cfg2.N) : Memref sig .tc .vmem S512x64 .f32 := win2_1.stage (cfg2.slots t 1)
abbrev ms2_2 (t : Fin cfg2.N) : Memref sig .tc .vmem S1x1x128 .f32 := win2_2.stage (cfg2.slots t 2)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their tiles; the point's position among the 16 column blocks says
    which case it is in; the invariant hands the accumulator over at what the point before left (at anything where the
    body resets it first) and takes it back at this point's value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 64 := lt_of_lt_of_eq t.isLt (show cfg2.N = 64 from N_2)
  rw [PhiS2_castSucc V c t]
  by_cases h0 : t.val % 16 = 0
  · have h1 : ¬t.val % 16 = 15 := by omega
    have hc0 : condFirst2 (grid2.coords t) := (hcondFirst2 t).mpr h0
    have hc1 : ¬condLast2 (grid2.coords t) := fun h => h1 ((hcondLast2 t).mp h)
    rw [Dat.leavesExact_idle (dat2 V c) 2 t (idleAt2_2 t hc1) (noFlush2_2 t hc1)]
    rw [accAt2_first V c t h0]
    iintro ⟨HΦ, Ho, ⟨%d0, H0⟩, ⟨%d1, H1⟩, ⟨%d2, H2⟩⟩
    ihave HΦ' := (PhiS2_open V c t.val (Nat.le_of_lt t.isLt)) $$ HΦ
    icases HΦ' with ⟨HS, Hr, Hg⟩
    iapply ((runFirst2 c (grid2.coords t) _ _ _ _ _ _ _ _ hc0 hc1 (iblk2 V c 0 t) (iblk2 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hr Hg]
    · isplitl [HS]
      · unfold owns; iexists _; isplitr
        swap; · iexact HS
        ipureintro
        exact (View.read_writes_of_cover _ _ _ _ _ (scoverFirst2 c _ _ _ _ _ _ _ _ _ hc0 hc1 _ _)).trans (accFirst2_eq c _ _ _ _ _ _ _ _ _ hc0 hc1 _ _)
      isplitl [Hr]; · iexact Hr
      iexact Hg
    isplitl [Ho]; · iexact Ho
    isplitl [H0]; · iexact H0
    isplitl [H1]; · iexact H1
    iexists _; iexact H2
  · have hz : t.val ≠ 0 := fun h => h0 (by rw [h])
    have hc0 : ¬condFirst2 (grid2.coords t) := fun h => h0 ((hcondFirst2 t).mp h)
    rw [PhiS2_pos V c _ _ hz, accAt2_next V c t h0]
    by_cases h1 : t.val % 16 = 15
    · have hc1 : condLast2 (grid2.coords t) := (hcondLast2 t).mpr h1
      rw [show (dat2 V c).leavesExact 2 t = owns (c : Thread nD τ) (ms2_2 t) fullShare ((dat2 V c).after 2 t) from by
        unfold Dat.leavesExact; rw [liveAt2_2 t hc1], after2_2, accAt2_next V c t h0]
      iintro ⟨⟨HS, Hr, Hg⟩, Ho, ⟨%d0, H0⟩, ⟨%d1, H1⟩, ⟨%d2, H2⟩⟩
      iapply ((runLast2 c (grid2.coords t) _ _ _ _ _ _ _ _ hc0 hc1 (iblk2 V c 0 t) (iblk2 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS]
        · unfold owns; iexists _; isplitr
          swap; · iexact HS
          ipureintro
          exact (View.read_writes_of_cover _ _ _ _ _ (scoverLast2 c _ _ _ _ _ _ _ _ _ hc0 hc1 _ _ _)).trans (accLast2_eq c _ _ _ _ _ _ _ _ _ hc0 hc1 _ _ _)
        isplitl [Hr]; · iexact Hr
        iexact Hg
      isplitl [Ho]; · iexact Ho
      isplitl [H0]; · iexact H0
      isplitl [H1]; · iexact H1
      unfold owns; iexists _; isplitr
      swap; · iexact H2
      ipureintro
      exact (View.read_writes_of_cover _ _ _ _ _ (coverLast2 c _ _ _ _ _ _ _ _ _ hc0 hc1 _ _ _)).trans (outLast2_eq c _ _ _ _ _ _ _ _ _ hc0 hc1 _ _ _)
    · have hc1 : ¬condLast2 (grid2.coords t) := fun h => h1 ((hcondLast2 t).mp h)
      rw [Dat.leavesExact_idle (dat2 V c) 2 t (idleAt2_2 t hc1) (noFlush2_2 t hc1)]
      iintro ⟨⟨HS, Hr, Hg⟩, Ho, ⟨%d0, H0⟩, ⟨%d1, H1⟩, ⟨%d2, H2⟩⟩
      iapply ((runMid2 c (grid2.coords t) _ _ _ _ _ _ _ _ hc0 hc1 (iblk2 V c 0 t) (iblk2 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS]
        · unfold owns; iexists _; isplitr
          swap; · iexact HS
          ipureintro
          exact (View.read_writes_of_cover _ _ _ _ _ (scoverMid2 c _ _ _ _ _ _ _ _ _ hc0 hc1 _ _ _)).trans (accMid2_eq c _ _ _ _ _ _ _ _ _ hc0 hc1 _ _ _)
        isplitl [Hr]; · iexact Hr
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point, -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- and after the last point the invariant gives it back, the accumulator's value forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl]
  exact (PhiS2_open V c _ _).trans (PhiA_close2 c)

end Region

end Cert.Kernel.Body

end
-- ==== Proof.SharedArraysK.lean ====
import proofs.«175880_j29377576305361_2_alg».proof.Proof.Gen.Kernel.Launch
import Idealize.ShloMosaic.Lib.Pipeline.RegionsLoop
import Idealize.ShloMosaic.Lib.Pipeline.Regions

noncomputable section

namespace Cert.Kernel.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's unscoped buffers at contents `V` are the buffers behind the windows' arrays and the rest, whether or not
    two windows share an array. -/
theorem split_gen {gr W : Nat} (win : Fin W → Pipeline.WinSpec sig gr) (hunscoped : ∀ w, (Pipeline.arrRef win w).isScoped = false)
    (c : Dev nD) (V : (b : Ref sig .tc) → Buf (Elt F) ((c : Thread nD τ).loc b)) :
    (unscopedBufs c V : sProp 𝕄)
      = iprop((Pipeline.arrBufs (Ix := Unit) (Name := ℕ) (U := UR sig nD τ) (Lvl := ℕ) win c V : sProp 𝕄)
          ∗ Pipeline.unscopedRest (Ix := Unit) (Name := ℕ) (U := UR sig nD τ) (Lvl := ℕ) win c V) := by
  classical
  have hA : Finset.univ.image (Pipeline.arrRef win) ⊆ Finset.univ.filter fun b : Ref sig .tc => ¬ b.isScoped := fun b hb => by
    obtain ⟨w, -, rfl⟩ := Finset.mem_image.mp hb
    exact Finset.mem_filter.mpr ⟨Finset.mem_univ _, by simp [hunscoped w]⟩
  unfold unscopedBufs Pipeline.unscopedRest Pipeline.arrBufs
  rw [bigSep_sdiff_split hA]
  rfl

/-! ## Pipeline 0: windows 0 and 1 read `main_arg0` -/

/-- The buffers behind pipeline 0's arrays: windows 0 and 1 both read `main_arg0`, window 2 writes `main_v0`. -/
theorem image0 : Finset.univ.image (Pipeline.arrRef spec0) = {main_arg0, main_v0} := by decide

/-- The buffers behind pipeline 0's arrays, each whole at the full share, one by one. -/
theorem arrBufs0 (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0) ↦{fullShare} V main_v0)) := by
  unfold Pipeline.arrBufs
  rw [image0, bigSep_insert (by decide), bigSep_singleton]
  rfl

/-- Pipeline 0's arrays one by one: every array is a whole buffer; the input windows hold their shares `q`, the output the full share. -/
theorem arrays0 (c : Dev nD) (dat : Pipeline.Dat τ (Elt F) Unit ℕ (UR sig nD τ) ℕ cfg0 c)
    (Fc : (w : Fin cfg0.W) → Buf (Elt F) ((cfg0.win w).arr.view.loc (c : Thread nD τ))) :
    (dat.arrays Fc : sProp 𝕄)
      = iprop((((c : Thread nD τ).loc main_arg0) ↦{dat.q 0} Fc 0) ∗ (((c : Thread nD τ).loc main_arg0) ↦{dat.q 1} Fc 1)
          ∗ (((c : Thread nD τ).loc main_v0) ↦{fullShare} Fc 2)) := by
  unfold Pipeline.Dat.arrays
  rw [Gen.bigSep_W0]
  rw [(Gen.arr_whole0 0).set_eq_univ, (Gen.arr_whole0 2).set_eq_univ]
  rfl

/-- ENTRY for pipeline 0, whose two input windows read one argument: the core's unscoped buffers at contents `V` are
    the pipeline's arrays at the entry contents — the shared argument's full share split into its left half for window 0
    and its right half for window 1, the output's array at the full share — and the unscoped rest. -/
theorem entry0 (c : Dev nD) (dat : Pipeline.Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b)) (hA : ∀ w, dat.A w = V (Pipeline.arrRef spec0 w)) :
    (unscopedBufs c V : sProp 𝕄)
      ⊢ iprop(dat.arrays (dat.arrAt · 0) ∗ Pipeline.unscopedRest (Ix := Unit) (Name := ℕ) (U := UR sig nD τ) (Lvl := ℕ) spec0 c V) := by
  rw [split_gen spec0 Gen.winFacts₀0.arr_unscoped c V, arrBufs0, arrays0, hq0, hq1]
  rw [show dat.arrAt 0 0 = V main_arg0 from hA 0, show dat.arrAt 1 0 = V main_arg0 from hA 1, show dat.arrAt 2 0 = V main_v0 from hA 2]
  refine sep_mono ?_ .rfl
  iintro ⟨Ha, Hv⟩
  ihave Ha := (pointsTo_share (PosShare.mem_left_op_right fullShare)).1 $$ Ha
  icases Ha with ⟨H1, H2⟩
  isplitl [H1]; · iexact H1
  isplitl [H2]; · iexact H2
  iexact Hv

/-- EXIT for pipeline 0: the pipeline's arrays at contents `Fc` — windows 0 and 1 holding the two halves of the shared
    argument at the same contents — and the unscoped rest at `V` are the core's unscoped buffers at any valuation `V'`
    that has the arrays at `Fc` and agrees with `V` off them: the two halves join back into the full share. -/
theorem exit0 (c : Dev nD) (dat : Pipeline.Dat τ (Elt F) Unit ℕ (UR sig nD τ) ℕ cfg0 c)
    (hq0 : dat.q 0 = fullShare.left) (hq1 : dat.q 1 = fullShare.right)
    (V V' : (b : Ref sig .tc) → Buf (Elt F) ((c : Thread nD τ).loc b))
    (Fc : (w : Fin cfg0.W) → Buf (Elt F) ((cfg0.win w).arr.view.loc (c : Thread nD τ)))
    (hF : ∀ w, Fc w = V' (Pipeline.arrRef spec0 w))
    (hrest : ∀ b, b ∉ Finset.univ.image (Pipeline.arrRef spec0) → V' b = V b) :
    iprop(dat.arrays Fc ∗ Pipeline.unscopedRest (Ix := Unit) (Name := ℕ) (U := UR sig nD τ) (Lvl := ℕ) spec0 c V)
      ⊢ (unscopedBufs c V' : sProp 𝕄) := by
  rw [split_gen spec0 Gen.winFacts₀0.arr_unscoped c V', arrBufs0, arrays0, hq0, hq1]
  rw [show Fc 0 = V' main_arg0 from hF 0, show Fc 1 = V' main_arg0 from hF 1, show Fc 2 = V' main_v0 from hF 2]
  refine sep_mono ?_ (Entails.of_eq ?_)
  · iintro ⟨H1, H2, Hv⟩
    isplitl [H1 H2]
    · iapply (pointsTo_share (PosShare.mem_left_op_right fullShare)).2
      isplitl [H1]; · iexact H1
      iexact H2
    iexact Hv
  · unfold Pipeline.unscopedRest
    exact bigSep_congr fun b hb => by rw [hrest b (Finset.mem_sdiff.mp hb).2]

/-! ## Pipeline 1: windows 0 and 1 read `main_arg1` -/

/-- The buffers behind pipeline 1's arrays: windows 0 and 1 both read `main_arg1`, window 2 writes `main_v5`. -/
theorem image1 : Finset.univ.image (Pipeline.arrRef spec1) = {main_arg1, main_v5} := by decide

/-- The buffers behind pipeline 1's arrays, each whole at the full share, one by one. -/
theorem arrBufs1 (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v5) ↦{fullShare} V main_v5)) := by
  unfold Pipeline.arrBufs
  rw [image1, bigSep_insert (by decide), bigSep_singleton]
  rfl

/-- Pipeline 1's arrays one by one: every array is a whole buffer; the input windows hold their shares `q`, the output the full share. -/
theorem arrays1 (c : Dev nD) (dat : Pipeline.Dat τ (Elt F) Unit ℕ (UR sig nD τ) ℕ cfg1 c)
    (Fc : (w : Fin cfg1.W) → Buf (Elt F) ((cfg1.win w).arr.view.loc (c : Thread nD τ))) :
    (dat.arrays Fc : sProp 𝕄)
      = iprop((((c : Thread nD τ).loc main_arg1) ↦{dat.q 0} Fc 0) ∗ (((c : Thread nD τ).loc main_arg1) ↦{dat.q 1} Fc 1)
          ∗ (((c : Thread nD τ).loc main_v5) ↦{fullShare} Fc 2)) := by
  unfold Pipeline.Dat.arrays
  rw [Gen.bigSep_W1]
  rw [(Gen.arr_whole1 0).set_eq_univ, (Gen.arr_whole1 2).set_eq_univ]
  rfl

/-- ENTRY for pipeline 1, whose two input windows read one argument: the core's unscoped buffers at contents `V` are
    the pipeline's arrays at the entry contents — the shared argument's full share split into its left half for window 0
    and its right half for window 1, the output's array at the full share — and the unscoped rest. -/
theorem entry1 (c : Dev nD) (dat : Pipeline.Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b)) (hA : ∀ w, dat.A w = V (Pipeline.arrRef spec1 w)) :
    (unscopedBufs c V : sProp 𝕄)
      ⊢ iprop(dat.arrays (dat.arrAt · 0) ∗ Pipeline.unscopedRest (Ix := Unit) (Name := ℕ) (U := UR sig nD τ) (Lvl := ℕ) spec1 c V) := by
  rw [split_gen spec1 Gen.winFacts₀1.arr_unscoped c V, arrBufs1, arrays1, hq0, hq1]
  rw [show dat.arrAt 0 0 = V main_arg1 from hA 0, show dat.arrAt 1 0 = V main_arg1 from hA 1, show dat.arrAt 2 0 = V main_v5 from hA 2]
  refine sep_mono ?_ .rfl
  iintro ⟨Ha, Hv⟩
  ihave Ha := (pointsTo_share (PosShare.mem_left_op_right fullShare)).1 $$ Ha
  icases Ha with ⟨H1, H2⟩
  isplitl [H1]; · iexact H1
  isplitl [H2]; · iexact H2
  iexact Hv

/-- EXIT for pipeline 1: the pipeline's arrays at contents `Fc` — windows 0 and 1 holding the two halves of the shared
    argument at the same contents — and the unscoped rest at `V` are the core's unscoped buffers at any valuation `V'`
    that has the arrays at `Fc` and agrees with `V` off them: the two halves join back into the full share. -/
theorem exit1 (c : Dev nD) (dat : Pipeline.Dat τ (Elt F) Unit ℕ (UR sig nD τ) ℕ cfg1 c)
    (hq0 : dat.q 0 = fullShare.left) (hq1 : dat.q 1 = fullShare.right)
    (V V' : (b : Ref sig .tc) → Buf (Elt F) ((c : Thread nD τ).loc b))
    (Fc : (w : Fin cfg1.W) → Buf (Elt F) ((cfg1.win w).arr.view.loc (c : Thread nD τ)))
    (hF : ∀ w, Fc w = V' (Pipeline.arrRef spec1 w))
    (hrest : ∀ b, b ∉ Finset.univ.image (Pipeline.arrRef spec1) → V' b = V b) :
    iprop(dat.arrays Fc ∗ Pipeline.unscopedRest (Ix := Unit) (Name := ℕ) (U := UR sig nD τ) (Lvl := ℕ) spec1 c V)
      ⊢ (unscopedBufs c V' : sProp 𝕄) := by
  rw [split_gen spec1 Gen.winFacts₀1.arr_unscoped c V', arrBufs1, arrays1, hq0, hq1]
  rw [show Fc 0 = V' main_arg1 from hF 0, show Fc 1 = V' main_arg1 from hF 1, show Fc 2 = V' main_v5 from hF 2]
  refine sep_mono ?_ (Entails.of_eq ?_)
  · iintro ⟨H1, H2, Hv⟩
    isplitl [H1 H2]
    · iapply (pointsTo_share (PosShare.mem_left_op_right fullShare)).2
      isplitl [H1]; · iexact H1
      iexact H2
    iexact Hv
  · unfold Pipeline.unscopedRest
    exact bigSep_congr fun b hb => by rw [hrest b (Finset.mem_sdiff.mp hb).2]

end Cert.Kernel.Shared
-- ==== Proof.KFrame.lean ====
/-
  The whole program: three pallas_calls, each followed by a short stretch of host operations. The contents of the
  core's unscoped buffers at each boundary are named in order from the launch memory: a call changes only its output's
  array, to what its write-backs leave; a host stretch is the fold of its operations. Each call is a segment entered at
  the contents before it and left at the contents after it, and every weakly fair execution of the program ends with
  every unscoped buffer at the last contents.
-/
import proofs.«175880_j29377576305361_2_alg».proof.Proof.Gen.Kernel.Launch
import proofs.«175880_j29377576305361_2_alg».proof.Proof.Gen.Kernel.Skeleton
import proofs.«175880_j29377576305361_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«175880_j29377576305361_2_alg».proof.Proof.KRegion0
import proofs.«175880_j29377576305361_2_alg».proof.Proof.KRegion1
import proofs.«175880_j29377576305361_2_alg».proof.Proof.KRegion2
import proofs.«175880_j29377576305361_2_alg».proof.Proof.Gen.Kernel.Regions
import proofs.«175880_j29377576305361_2_alg».proof.Proof.SharedArraysK

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev W0 : Dev nD → Valuation τ sig (Elt F) := fun c b => m (c, b)
abbrev VV0 : (c : Dev nD) → (b : Ref sig .tc) → Buf (Elt F) ((c : Thread nD τ).loc b) := fun c b => W0 m c b
/-- After call 0: its output's array at what the write-backs leave. -/
def W1 (c : Dev nD) : Valuation τ sig (Elt F) :=
  Function.update (W0 m c) (Proc.devRef .tc main_v0) ((dat0 (VV0 m) c).arrAt 2 cfg0.N)
abbrev VV1 : (c : Dev nD) → (b : Ref sig .tc) → Buf (Elt F) ((c : Thread nD τ).loc b) := fun c b => W1 m c b
/-- After the first host stretch. -/
abbrev W2 : Dev nD → Valuation τ sig (Elt F) := fun c => StableHlo.after hostOps1 (W1 m c)
abbrev VV2 : (c : Dev nD) → (b : Ref sig .tc) → Buf (Elt F) ((c : Thread nD τ).loc b) := fun c b => W2 m c b
/-- After call 1. -/
def W3 (c : Dev nD) : Valuation τ sig (Elt F) :=
  Function.update (W2 m c) (Proc.devRef .tc main_v5) ((dat1 (VV2 m) c).arrAt 2 cfg1.N)
abbrev VV3 : (c : Dev nD) → (b : Ref sig .tc) → Buf (Elt F) ((c : Thread nD τ).loc b) := fun c b => W3 m c b
/-- After the second host stretch. -/
abbrev W4 : Dev nD → Valuation τ sig (Elt F) := fun c => StableHlo.after hostOps2 (W3 m c)
abbrev VV4 : (c : Dev nD) → (b : Ref sig .tc) → Buf (Elt F) ((c : Thread nD τ).loc b) := fun c b => W4 m c b
/-- After call 2. -/
def W5 (c : Dev nD) : Valuation τ sig (Elt F) :=
  Function.update (W4 m c) (Proc.devRef .tc main_v10) ((dat2 (VV4 m) c).arrAt 2 cfg2.N)
abbrev VV5 : (c : Dev nD) → (b : Ref sig .tc) → Buf (Elt F) ((c : Thread nD τ).loc b) := fun c b => W5 m c b
/-- After the last host stretch: the end. -/
abbrev W6 : Dev nD → Valuation τ sig (Elt F) := fun c => StableHlo.after hostOps3 (W5 m c)

/-! ## The proof data family and what rides along -/

/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (VV0 m) c
  | ⟨1, _⟩ => fun c => dat1 (VV2 m) c
  | ⟨2, _⟩ => fun c => dat2 (VV4 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)

/-! ## The calls as segments -/

/-- What call 0 is entered with splits into its windows' arrays and the bypassing buffers, -/
theorem hsplit0 (c : Dev nD) : (unscopedBufs c (VV0 m c) : sProp 𝕄)
    ⊢ iprop((pdats m 0 c).arrays ((pdats m 0 c).arrAt · 0) ∗ Pipeline.unscopedRest (Ix := Unit) (Name := ℕ) (U := UR sig nD τ) (Lvl := ℕ) spec0 c (VV0 m c)) :=
  Shared.entry0 c (pdats m 0 c) rfl rfl (VV0 m c) fun _ => rfl

/-- The output's array after the call: every other buffer as entered. -/
theorem hF0 (c : Dev nD) (w : Fin cfg0.W) : (pdats m 0 c).arrAt w cfg0.N = VV1 m c (Pipeline.arrRef spec0 w) := by
  fin_cases w
  · exact ((pdats m 0 c).arrAt_in 0 rfl _).trans (by
      show VV0 m c (Pipeline.arrRef spec0 0) = W1 m c (Proc.devRef .tc (Pipeline.arrRef spec0 0))
      unfold W1
      rw [Function.update_of_ne (StableHlo.devRef_ne_of_ne (by decide))])
  · exact ((pdats m 0 c).arrAt_in 1 rfl _).trans (by
      show VV0 m c (Pipeline.arrRef spec0 1) = W1 m c (Proc.devRef .tc (Pipeline.arrRef spec0 1))
      unfold W1
      rw [Function.update_of_ne (StableHlo.devRef_ne_of_ne (by decide))])
  · show _ = W1 m c (Proc.devRef .tc main_v0)
    unfold W1
    rw [Function.update_self]
    rfl
theorem hrest0 (c : Dev nD) : ∀ b, b ∉ Finset.univ.image (Pipeline.arrRef spec0) → VV1 m c b = VV0 m c b := by
  intro b hb
  show W1 m c (Proc.devRef .tc b) = W0 m c (Proc.devRef .tc b)
  unfold W1
  rw [Function.update_of_ne (StableHlo.devRef_ne_of_ne (fun h => hb (by rw [h]; exact Finset.mem_image.mpr ⟨2, Finset.mem_univ _, rfl⟩)))]

/-- and what it leaves joins back into the core's buffers at the contents after it. -/
theorem hjoin0 (c : Dev nD) : iprop((pdats m 0 c).arrays ((pdats m 0 c).arrAt · cfg0.N) ∗ Pipeline.unscopedRest (Ix := Unit) (Name := ℕ) (U := UR sig nD τ) (Lvl := ℕ) spec0 c (VV0 m c))
    ⊢ (unscopedBufs c (VV1 m c) : sProp 𝕄) :=
  Shared.exit0 c (pdats m 0 c) rfl rfl (VV0 m c) (VV1 m c) ((pdats m 0 c).arrAt · cfg0.N) (hF0 m c) (hrest0 m c)

set_option backward.isDefEq.respectTransparency.types false in
/-- Call 0 as a segment of the program: entered from every unscoped buffer at the contents before it, left at the
    contents after it; its arrays split out and put back; the generator register lent to the invariant and returned;
    nothing owed; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := hsplit0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h2 : (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (VV0 m) c).trans h2
  hexit c := by
    have hjoin := hjoin0 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What call 1 is entered with splits into its windows' arrays and the bypassing buffers, -/
theorem hsplit1 (c : Dev nD) : (unscopedBufs c (VV2 m c) : sProp 𝕄)
    ⊢ iprop((pdats m 1 c).arrays ((pdats m 1 c).arrAt · 0) ∗ Pipeline.unscopedRest (Ix := Unit) (Name := ℕ) (U := UR sig nD τ) (Lvl := ℕ) spec1 c (VV2 m c)) :=
  Shared.entry1 c (pdats m 1 c) rfl rfl (VV2 m c) fun _ => rfl

/-- The output's array after the call: every other buffer as entered. -/
theorem hF1 (c : Dev nD) (w : Fin cfg1.W) : (pdats m 1 c).arrAt w cfg1.N = VV3 m c (Pipeline.arrRef spec1 w) := by
  fin_cases w
  · exact ((pdats m 1 c).arrAt_in 0 rfl _).trans (by
      show VV2 m c (Pipeline.arrRef spec1 0) = W3 m c (Proc.devRef .tc (Pipeline.arrRef spec1 0))
      unfold W3
      rw [Function.update_of_ne (StableHlo.devRef_ne_of_ne (by decide))])
  · exact ((pdats m 1 c).arrAt_in 1 rfl _).trans (by
      show VV2 m c (Pipeline.arrRef spec1 1) = W3 m c (Proc.devRef .tc (Pipeline.arrRef spec1 1))
      unfold W3
      rw [Function.update_of_ne (StableHlo.devRef_ne_of_ne (by decide))])
  · show _ = W3 m c (Proc.devRef .tc main_v5)
    unfold W3
    rw [Function.update_self]
    rfl
theorem hrest1 (c : Dev nD) : ∀ b, b ∉ Finset.univ.image (Pipeline.arrRef spec1) → VV3 m c b = VV2 m c b := by
  intro b hb
  show W3 m c (Proc.devRef .tc b) = W2 m c (Proc.devRef .tc b)
  unfold W3
  rw [Function.update_of_ne (StableHlo.devRef_ne_of_ne (fun h => hb (by rw [h]; exact Finset.mem_image.mpr ⟨2, Finset.mem_univ _, rfl⟩)))]

/-- and what it leaves joins back into the core's buffers at the contents after it. -/
theorem hjoin1 (c : Dev nD) : iprop((pdats m 1 c).arrays ((pdats m 1 c).arrAt · cfg1.N) ∗ Pipeline.unscopedRest (Ix := Unit) (Name := ℕ) (U := UR sig nD τ) (Lvl := ℕ) spec1 c (VV2 m c))
    ⊢ (unscopedBufs c (VV3 m c) : sProp 𝕄) :=
  Shared.exit1 c (pdats m 1 c) rfl rfl (VV2 m c) (VV3 m c) ((pdats m 1 c).arrAt · cfg1.N) (hF1 m c) (hrest1 m c)

set_option backward.isDefEq.respectTransparency.types false in
/-- Call 1 as a segment of the program: entered from every unscoped buffer at the contents before it, left at the
    contents after it; its arrays split out and put back; the generator register lent to the invariant and returned;
    nothing owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := hsplit1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (VV2 m) c).trans h2
  hexit c := by
    have hjoin := hjoin1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What call 2 is entered with splits into its windows' arrays and the bypassing buffers, -/
theorem hsplit2 (c : Dev nD) : (unscopedBufs c (VV4 m c) : sProp 𝕄)
    ⊢ iprop((pdats m 2 c).arrays ((pdats m 2 c).arrAt · 0) ∗ Pipeline.unscopedRest (Ix := Unit) (Name := ℕ) (U := UR sig nD τ) (Lvl := ℕ) spec2 c (VV4 m c)) :=
  Pipeline.arrays_of_unscopedBufs (p := 2) (pcfgs (F := F)) adm (pdats m) launch2.win launch2.arr_whole c ((pdats m 2 c).share_full fun w => by fin_cases w <;> rfl) (VV4 m c) fun _ => rfl

/-- The output's array after the call: every other buffer as entered. -/
theorem hF2 (c : Dev nD) (w : Fin cfg2.W) : (pdats m 2 c).arrAt w cfg2.N = VV5 m c (Pipeline.arrRef spec2 w) := by
  fin_cases w
  · exact ((pdats m 2 c).arrAt_in 0 rfl _).trans (by
      show VV4 m c (Pipeline.arrRef spec2 0) = W5 m c (Proc.devRef .tc (Pipeline.arrRef spec2 0))
      unfold W5
      rw [Function.update_of_ne (StableHlo.devRef_ne_of_ne (by decide))])
  · exact ((pdats m 2 c).arrAt_in 1 rfl _).trans (by
      show VV4 m c (Pipeline.arrRef spec2 1) = W5 m c (Proc.devRef .tc (Pipeline.arrRef spec2 1))
      unfold W5
      rw [Function.update_of_ne (StableHlo.devRef_ne_of_ne (by decide))])
  · show _ = W5 m c (Proc.devRef .tc main_v10)
    unfold W5
    rw [Function.update_self]
    rfl
theorem hrest2 (c : Dev nD) : ∀ b, b ∉ Finset.univ.image (Pipeline.arrRef spec2) → VV5 m c b = VV4 m c b := by
  intro b hb
  show W5 m c (Proc.devRef .tc b) = W4 m c (Proc.devRef .tc b)
  unfold W5
  rw [Function.update_of_ne (StableHlo.devRef_ne_of_ne (fun h => hb (by rw [h]; exact Finset.mem_image.mpr ⟨2, Finset.mem_univ _, rfl⟩)))]

/-- and what it leaves joins back into the core's buffers at the contents after it. -/
theorem hjoin2 (c : Dev nD) : iprop((pdats m 2 c).arrays ((pdats m 2 c).arrAt · cfg2.N) ∗ Pipeline.unscopedRest (Ix := Unit) (Name := ℕ) (U := UR sig nD τ) (Lvl := ℕ) spec2 c (VV4 m c))
    ⊢ (unscopedBufs c (VV5 m c) : sProp 𝕄) :=
  Pipeline.unscopedBufs_of_arrays (p := 2) (pcfgs (F := F)) adm (Ix := Unit) (Name := ℕ) (U := UR sig nD τ) (Lvl := ℕ) launch2.win launch2.arr_whole c (pdats m) ((pdats m 2 c).share_full fun w => by fin_cases w <;> rfl) (VV4 m c) (VV5 m c) ((pdats m 2 c).arrAt · cfg2.N) (hF2 m c) (hrest2 m c)

set_option backward.isDefEq.respectTransparency.types false in
/-- Call 2 as a segment of the program: entered from every unscoped buffer at the contents before it, left at the
    contents after it; its arrays split out and put back; the generator register lent to the invariant and returned;
    nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VV4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (VV4 m c)
  hentry c := by
    rw [Pipeline.ownSems0_none]
    have hsplit := hsplit2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h2 : (Pipeline.ΦA spec2 c : sProp 𝕄) ⊢ iprop((∃ r, prngReg c r) ∗ BI.emp ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (VV4 m) c).trans h2
  hexit c := by
    have hjoin := hjoin2 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m c) ∗ ∃ r, prngReg c r)

set_option backward.isDefEq.respectTransparency.types false in
/-- Every weakly fair execution of the program from memory `m` with zero counters terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## No boundary changes an argument -/

/-- A buffer that no call's output and no host stretch writes holds its launch contents at the end. -/
theorem W6_kept (c : Dev nD) (r : Ref sig .tc) (h1 : r ∉ hostOps1_W) (h2 : r ∉ hostOps2_W) (h3 : r ∉ hostOps3_W)
    (n0 : r ≠ main_v0) (n1 : r ≠ main_v5) (n2 : r ≠ main_v10) : W6 m c r = m ((c : Thread nD τ).loc r) := by
  show StableHlo.after hostOps3 (W5 m c) (Proc.devRef .tc r) = _
  rw [StableHlo.after_of_writes_sub hostOps3 _ hostOps3_writes h3]
  unfold W5
  rw [Function.update_of_ne (StableHlo.devRef_ne_of_ne n2)]
  show StableHlo.after hostOps2 (W3 m c) (Proc.devRef .tc r) = _
  rw [StableHlo.after_of_writes_sub hostOps2 _ hostOps2_writes h2]
  unfold W3
  rw [Function.update_of_ne (StableHlo.devRef_ne_of_ne n1)]
  show StableHlo.after hostOps1 (W1 m c) (Proc.devRef .tc r) = _
  rw [StableHlo.after_of_writes_sub hostOps1 _ hostOps1_writes h1]
  unfold W1
  rw [Function.update_of_ne (StableHlo.devRef_ne_of_ne n0)]

/-- THE FRAME: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W6_kept m c main_arg0 (by decide) (by decide) (by decide) (by decide) (by decide) (by decide)),
     (h c _ (mem_uc main_arg1 (by decide))).trans (W6_kept m c main_arg1 (by decide) (by decide) (by decide) (by decide) (by decide) (by decide))⟩)
    (run_all m ρ)

end Cert.Kernel.Body

end
-- ==== Proof.Body0.lean ====
/-
  The body of pallas_call 0 run at one grid point, in the three control cases a grid of 4 row blocks by 16 column
  blocks meets: the point that resets the accumulator (column block 0), a point that only accumulates, and the point
  that also stores the row block's partial sum (column block 15). Each run leaves the two input tiles as found; what the
  accumulator (and, at the last point, the output's buffer) holds afterwards is read back from the stores the run made
  and named by the body's own arithmetic: the tile's sum added to what the accumulator held.
-/
import proofs.«175880_j29377576305361_2_alg».proof.Proof.Gen.KernelIdeal.Launch
import proofs.«175880_j29377576305361_2_alg».proof.Proof.Gen.KernelIdeal.Skeleton
import proofs.«175880_j29377576305361_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch that resets the accumulator: taken where the second grid coordinate is 0. -/
abbrev condFirst0 (i : grid0.Coords) : Prop := (Scalar.cmpi .ne (Scalar.extui (Scalar.cmpi .eq (BitVec.ofNat 32 (i 1).val) 0#32)) 0#32) = 1#1
/-- The branch that stores the block's partial sum: taken where the second grid coordinate is 15. -/
abbrev condLast0 (i : grid0.Coords) : Prop := k0_cond2 i = 1#1

set_option maxHeartbeats 1000000 in
/-- At a point that resets the accumulator and is not the last of its row block: the accumulator ends at the pieces found, the two inputs and the idle output as they were. -/
noncomputable def runFirst0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : condFirst0 i) (hc1 : ¬condLast0 i) (x0 : Vec F S2048x64 .f32) (x1 : Vec F S512x64 .f32) :
    { LS0 : List (View.Piece (Elt F) S1x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, fun xi2 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- At a point that neither resets nor stores: the accumulator, found at `xs`, ends at the pieces found. -/
noncomputable def runMid0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : ¬condFirst0 i) (hc1 : ¬condLast0 i) (x0 : Vec F S2048x64 .f32) (x1 : Vec F S512x64 .f32) (xs : Vec F S1x1 .f32) :
    { LS0 : List (View.Piece (Elt F) S1x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, fun xi2 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- At the last point of a row block: the accumulator, found at `xs`, ends at the pieces found, and the output's buffer at the pieces found. -/
noncomputable def runLast0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : ¬condFirst0 i) (hc1 : condLast0 i) (x0 : Vec F S2048x64 .f32) (x1 : Vec F S512x64 .f32) (xs : Vec F S1x1 .f32) :
    Σ' (L2 : List (View.Piece (Elt F) S1x1x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

theorem hzTwo0 : (![0, 0] : Fin 2 → ℕ) = fun _ => 0 := by funext a; fin_cases a <;> rfl
theorem hzThree0 : (![0, 0, 0] : Fin 3 → ℕ) = fun _ => 0 := by funext a; fin_cases a <;> rfl

theorem scoverFirst0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst0 i) (hc1 : ¬condLast0 i) (x0 : Vec F S2048x64 .f32) (x1 : Vec F S512x64 .f32) (y : S1x1.Idx) :
    ∃ pc ∈ (runFirst0 c i arg2 harg2 arg3 harg3 arg4 harg4 arg5 harg5 hc0 hc1 x0 x1).1, y ∈ pc.1.set :=
  View.cover_of_tiledL (runFirst0 c i arg2 harg2 arg3 harg3 arg4 harg4 arg5 harg5 hc0 hc1 x0 x1).1 S1x1.size (by sl_kernel_rfl) y

/-- What the accumulator holds after a resetting point: the found pieces read back. -/
def accFirst0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst0 i) (hc1 : ¬condLast0 i) (x0 : Vec F S2048x64 .f32) (x1 : Vec F S512x64 .f32) : Vec F S1x1 .f32 :=
  arg5.view.read (Elt F) (arg5.view.writes (Elt F) arg5.view.junk (runFirst0 c i arg2 harg2 arg3 harg3 arg4 harg4 arg5 harg5 hc0 hc1 x0 x1).1)

/-- It is the tile's sum added to the zero the reset stored. -/
theorem accFirst0_eq (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst0 i) (hc1 : ¬condLast0 i) (x0 : Vec F S2048x64 .f32) (x1 : Vec F S512x64 .f32) :
    accFirst0 c i arg2 harg2 arg3 harg3 arg4 harg4 arg5 harg5 hc0 hc1 x0 x1 = k0_pay3 x0 x1 (k0_pay2 (F := F)) := by
  unfold accFirst0
  rw [View.read_writes_eq_canon _ _ _ (scoverFirst0 c i arg2 harg2 arg3 harg3 arg4 harg4 arg5 harg5 hc0 hc1 x0 x1)]
  unfold runFirst0
  dsimp only
  sl_unfold_words
  rw [View.canon_cons_unit_zero hzTwo0, View.readCov_unit_zero _ hzTwo0]
  simp only [View.readAt_eq_ld, harg2.read_unread, harg3.read_unread, View.ld_unit_zero (S := S2048x64) hzTwo0, View.ld_unit_zero (S := S512x64) hzTwo0]

theorem scoverMid0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : ¬condLast0 i) (x0 : Vec F S2048x64 .f32) (x1 : Vec F S512x64 .f32) (xs : Vec F S1x1 .f32) (y : S1x1.Idx) :
    ∃ pc ∈ (runMid0 c i arg2 harg2 arg3 harg3 arg4 harg4 arg5 harg5 hc0 hc1 x0 x1 xs).1, y ∈ pc.1.set :=
  View.cover_of_tiledL (runMid0 c i arg2 harg2 arg3 harg3 arg4 harg4 arg5 harg5 hc0 hc1 x0 x1 xs).1 S1x1.size (by sl_kernel_rfl) y

/-- What the accumulator holds after a point that only accumulates. -/
def accMid0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : ¬condLast0 i) (x0 : Vec F S2048x64 .f32) (x1 : Vec F S512x64 .f32) (xs : Vec F S1x1 .f32) : Vec F S1x1 .f32 :=
  arg5.view.read (Elt F) (arg5.view.writes (Elt F) arg5.view.junk (runMid0 c i arg2 harg2 arg3 harg3 arg4 harg4 arg5 harg5 hc0 hc1 x0 x1 xs).1)

theorem accMid0_eq (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : ¬condLast0 i) (x0 : Vec F S2048x64 .f32) (x1 : Vec F S512x64 .f32) (xs : Vec F S1x1 .f32) :
    accMid0 c i arg2 harg2 arg3 harg3 arg4 harg4 arg5 harg5 hc0 hc1 x0 x1 xs = k0_pay3 x0 x1 xs := by
  unfold accMid0
  rw [View.read_writes_eq_canon _ _ _ (scoverMid0 c i arg2 harg2 arg3 harg3 arg4 harg4 arg5 harg5 hc0 hc1 x0 x1 xs)]
  unfold runMid0
  dsimp only
  sl_unfold_words
  rw [View.canon_unit_zero hzTwo0]
  simp only [View.readAt_eq_ld, harg2.read_unread, harg3.read_unread, harg5.read_unread, View.ld_unit_zero (S := S2048x64) hzTwo0, View.ld_unit_zero (S := S512x64) hzTwo0, View.ld_unit_zero (S := S1x1) hzTwo0]

theorem scoverLast0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : condLast0 i) (x0 : Vec F S2048x64 .f32) (x1 : Vec F S512x64 .f32) (xs : Vec F S1x1 .f32) (y : S1x1.Idx) :
    ∃ pc ∈ (runLast0 c i arg2 harg2 arg3 harg3 arg4 harg4 arg5 harg5 hc0 hc1 x0 x1 xs).2.1, y ∈ pc.1.set :=
  View.cover_of_tiledL (runLast0 c i arg2 harg2 arg3 harg3 arg4 harg4 arg5 harg5 hc0 hc1 x0 x1 xs).2.1 S1x1.size (by sl_kernel_rfl) y

theorem coverLast0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : condLast0 i) (x0 : Vec F S2048x64 .f32) (x1 : Vec F S512x64 .f32) (xs : Vec F S1x1 .f32) (y : S1x1x128.Idx) :
    ∃ pc ∈ (runLast0 c i arg2 harg2 arg3 harg3 arg4 harg4 arg5 harg5 hc0 hc1 x0 x1 xs).1, y ∈ pc.1.set :=
  View.cover_of_tiledL (runLast0 c i arg2 harg2 arg3 harg3 arg4 harg4 arg5 harg5 hc0 hc1 x0 x1 xs).1 S1x1x128.size (by sl_kernel_rfl) y

/-- What the accumulator holds after the last point of a row block. -/
def accLast0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : condLast0 i) (x0 : Vec F S2048x64 .f32) (x1 : Vec F S512x64 .f32) (xs : Vec F S1x1 .f32) : Vec F S1x1 .f32 :=
  arg5.view.read (Elt F) (arg5.view.writes (Elt F) arg5.view.junk (runLast0 c i arg2 harg2 arg3 harg3 arg4 harg4 arg5 harg5 hc0 hc1 x0 x1 xs).2.1)

/-- What the output's buffer holds after the last point of a row block. -/
def outLast0 (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : condLast0 i) (x0 : Vec F S2048x64 .f32) (x1 : Vec F S512x64 .f32) (xs : Vec F S1x1 .f32) : Vec F S1x1x128 .f32 :=
  arg4.view.read (Elt F) (arg4.view.writes (Elt F) arg4.view.junk (runLast0 c i arg2 harg2 arg3 harg3 arg4 harg4 arg5 harg5 hc0 hc1 x0 x1 xs).1)

theorem accLast0_eq (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : condLast0 i) (x0 : Vec F S2048x64 .f32) (x1 : Vec F S512x64 .f32) (xs : Vec F S1x1 .f32) :
    accLast0 c i arg2 harg2 arg3 harg3 arg4 harg4 arg5 harg5 hc0 hc1 x0 x1 xs = k0_pay3 x0 x1 xs := by
  unfold accLast0
  rw [View.read_writes_eq_canon _ _ _ (scoverLast0 c i arg2 harg2 arg3 harg3 arg4 harg4 arg5 harg5 hc0 hc1 x0 x1 xs)]
  unfold runLast0
  dsimp only
  sl_unfold_words
  rw [View.canon_unit_zero hzTwo0]
  simp only [View.readAt_eq_ld, harg2.read_unread, harg3.read_unread, harg5.read_unread, View.ld_unit_zero (S := S2048x64) hzTwo0, View.ld_unit_zero (S := S512x64) hzTwo0, View.ld_unit_zero (S := S1x1) hzTwo0]

theorem outLast0_eq (c : Dev nD) (i : grid0.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst0 i) (hc1 : condLast0 i) (x0 : Vec F S2048x64 .f32) (x1 : Vec F S512x64 .f32) (xs : Vec F S1x1 .f32) :
    outLast0 c i arg2 harg2 arg3 harg3 arg4 harg4 arg5 harg5 hc0 hc1 x0 x1 xs = k0_pay1 (k0_pay3 x0 x1 xs) := by
  unfold outLast0
  rw [View.read_writes_eq_canon _ _ _ (coverLast0 c i arg2 harg2 arg3 harg3 arg4 harg4 arg5 harg5 hc0 hc1 x0 x1 xs)]
  unfold runLast0
  dsimp only
  sl_unfold_words
  rw [View.canon_unit_zero hzThree0, View.readCov_unit_zero _ hzTwo0]
  simp only [View.readAt_eq_ld, harg2.read_unread, harg3.read_unread, harg5.read_unread, View.ld_unit_zero (S := S2048x64) hzTwo0, View.ld_unit_zero (S := S512x64) hzTwo0, View.ld_unit_zero (S := S1x1) hzTwo0]

end Cert.KernelIdeal.Body

end
-- ==== Proof.Region0.lean ====
/-
  Pallas_call 0 over its grid of 4 row blocks by 16 column blocks, from any contents `V` of the core's buffers at its
  entry: what the accumulator holds after each point (the tile's sum added to the previous point's value, restarted
  from zero at column block 0), the proof data over it (each input's buffer at its tile, the output's at the masked
  accumulator, written back only after column block 15), and the body's obligation at every point by the case of the
  point.
-/
import proofs.«175880_j29377576305361_2_alg».proof.Proof.Gen.KernelIdeal.Launch
import proofs.«175880_j29377576305361_2_alg».proof.Proof.Gen.KernelIdeal.Skeleton
import proofs.«175880_j29377576305361_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«175880_j29377576305361_2_alg».proof.Proof.Body0

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current buffer holds its tile at every point, fetched there or not (unfetched, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions over the grid, and where the output is idle -/

theorem hcondFirst0 : ∀ t : Fin cfg0.N, condFirst0 (grid0.coords t) ↔ t.val % 16 = 0 :=
  (by decide +kernel : ∀ t : Fin grid0.N, condFirst0 (grid0.coords t) ↔ t.val % 16 = 0)
theorem hcondLast0 : ∀ t : Fin cfg0.N, condLast0 (grid0.coords t) ↔ t.val % 16 = 15 :=
  (by decide +kernel : ∀ t : Fin grid0.N, condLast0 (grid0.coords t) ↔ t.val % 16 = 15)
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬condLast0 (grid0.coords t) → cfg0.idle 2 (grid0.coords t) = true := by decide +kernel
theorem noFlush0_2 : ∀ t : Fin cfg0.N, ¬condLast0 (grid0.coords t) → (cfg0.win 2).flush t = false := by decide +kernel
theorem liveAt0_2 : ∀ t : Fin cfg0.N, condLast0 (grid0.coords t) → cfg0.idle 2 (grid0.coords t) = false := by decide +kernel

/-! ## The accumulator point by point -/

/-- What the accumulator holds after point `n`: the tile's sum of point `n` added to zero at column block 0, to the value after point `n - 1` otherwise. -/
def accAt0 (c : Dev nD) : (n : ℕ) → n < cfg0.N → Vec F S1x1 .f32
  | 0, hn => k0_pay3 (iblk0 V c 0 ⟨0, hn⟩) (iblk0 V c 1 ⟨0, hn⟩) (k0_pay2 (F := F))
  | n + 1, hn =>
    if (n + 1) % 16 = 0 then k0_pay3 (iblk0 V c 0 ⟨n + 1, hn⟩) (iblk0 V c 1 ⟨n + 1, hn⟩) (k0_pay2 (F := F))
    else k0_pay3 (iblk0 V c 0 ⟨n + 1, hn⟩) (iblk0 V c 1 ⟨n + 1, hn⟩) (accAt0 c n (Nat.lt_of_succ_lt hn))

theorem accAt0_first (c : Dev nD) (t : Fin cfg0.N) (h0 : t.val % 16 = 0) :
    accAt0 V c t.val t.isLt = k0_pay3 (iblk0 V c 0 t) (iblk0 V c 1 t) (k0_pay2 (F := F)) := by
  obtain ⟨n, hn⟩ := t
  cases n with
  | zero => rfl
  | succ n => exact if_pos h0

theorem accAt0_next (c : Dev nD) (t : Fin cfg0.N) (h0 : ¬t.val % 16 = 0) :
    accAt0 V c t.val t.isLt = k0_pay3 (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The accumulator's buffer. -/
abbrev scM0 : Memref sig .tc .vmem S1x1 .f32 := Memref.whole cc0_scratch0

/-- The core's scoped buffers other than this call's staging buffers and accumulator, each at some contents. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))

/-- The class invariant hands out the accumulator's buffer at some contents beside the rest, -/
theorem PhiA_open0 (c : Dev nD) : (Pipeline.ΦA spec0 c : sProp 𝕄) ⊢ iprop((∃ d, owns (c : Thread nD τ) scM0 fullShare d) ∗ rest0 (F := F) c ∗ (∃ r, prngReg c r)) := by
  unfold Pipeline.ΦA rest0; rw [scopedRest0_eq]
  iintro ⟨⟨HS, Hb1, Hb2, Hb3, Hb4, Hb5, Hb6, Hb7, Hb8, Hb9, Hb10, Hb11, Hb12, Hb13, Hb14⟩, Hp⟩
  isplitl [HS]
  · icases HS with ⟨%f, HS⟩; iexists f; rw [owns_whole]; iexact HS
  isplitr [Hp]; swap; · iexact Hp
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hb8]; · iexact Hb8
  isplitl [Hb9]; · iexact Hb9
  isplitl [Hb10]; · iexact Hb10
  isplitl [Hb11]; · iexact Hb11
  isplitl [Hb12]; · iexact Hb12
  isplitl [Hb13]; · iexact Hb13
  iexact Hb14

/-- and takes it back at any contents. -/
theorem PhiA_close0 (c : Dev nD) : iprop((∃ d, owns (c : Thread nD τ) scM0 fullShare d) ∗ rest0 (F := F) c ∗ (∃ r, prngReg c r)) ⊢ (Pipeline.ΦA spec0 c : sProp 𝕄) := by
  unfold Pipeline.ΦA rest0; rw [scopedRest0_eq]; simp only [owns_whole]
  iintro ⟨⟨%d, HS⟩, ⟨Hb1, Hb2, Hb3, Hb4, Hb5, Hb6, Hb7, Hb8, Hb9, Hb10, Hb11, Hb12, Hb13, Hb14⟩, Hp⟩
  isplitr [Hp]; swap; · iexact Hp
  ·
    isplitl [HS]; · (iexists d; iexact HS)
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    iexact Hb14

/-- The invariant before position `n`: before the first point the class's; afterwards the accumulator at what the point before left, the rest and the generator register at some state. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ rest0 (F := F) c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (accAt0 V c n hn) ∗ rest0 (F := F) c ∗ (∃ r, prngReg c r)) := rfl
theorem PhiS0_pos (c : Dev nD) (n : ℕ) (h : n ≤ cfg0.N) (hz : n ≠ 0) :
    PhiS0 V c n h = iprop(owns (c : Thread nD τ) scM0 fullShare (accAt0 V c (n - 1) (by omega)) ∗ rest0 (F := F) c ∗ (∃ r, prngReg c r)) := by
  cases n with
  | zero => exact absurd rfl hz
  | succ n => rfl

/-- At any position the invariant yields the accumulator's buffer at some contents beside the rest. -/
theorem PhiS0_open (c : Dev nD) (n : ℕ) (h : n ≤ cfg0.N) :
    PhiS0 V c n h ⊢ iprop((∃ d, owns (c : Thread nD τ) scM0 fullShare d) ∗ rest0 (F := F) c ∗ (∃ r, prngReg c r)) := by
  cases n with
  | zero => exact PhiA_open0 c
  | succ n =>
    rw [PhiS0_succ]
    iintro ⟨HS, Hr, Hg⟩
    isplitl [HS]; · iexists _; iexact HS
    isplitl [Hr]; · iexact Hr
    iexact Hg

/-! ## The proof data -/

/-- The proof data of the call on core `c`: the arrays as the call finds them; after the body at point `t` each input's
    buffer at its tile and the output's at the masked accumulator; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (accAt0 V c t.val t.isLt)
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (accAt0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

abbrev ms0_0 (t : Fin cfg0.N) : Memref sig .tc .vmem S2048x64 .f32 := win0_0.stage (cfg0.slots t 0)
abbrev ms0_1 (t : Fin cfg0.N) : Memref sig .tc .vmem S512x64 .f32 := win0_1.stage (cfg0.slots t 1)
abbrev ms0_2 (t : Fin cfg0.N) : Memref sig .tc .vmem S1x1x128 .f32 := win0_2.stage (cfg0.slots t 2)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their tiles; the point's position among the 16 column blocks says
    which case it is in; the invariant hands the accumulator over at what the point before left (at anything where the
    body resets it first) and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 64 := lt_of_lt_of_eq t.isLt (show cfg0.N = 64 from N_0)
  rw [PhiS0_castSucc V c t]
  by_cases h0 : t.val % 16 = 0
  · have h1 : ¬t.val % 16 = 15 := by omega
    have hc0 : condFirst0 (grid0.coords t) := (hcondFirst0 t).mpr h0
    have hc1 : ¬condLast0 (grid0.coords t) := fun h => h1 ((hcondLast0 t).mp h)
    rw [Dat.leavesExact_idle (dat0 V c) 2 t (idleAt0_2 t hc1) (noFlush0_2 t hc1)]
    rw [accAt0_first V c t h0]
    iintro ⟨HΦ, Ho, ⟨%d0, H0⟩, ⟨%d1, H1⟩, ⟨%d2, H2⟩⟩
    ihave HΦ' := (PhiS0_open V c t.val (Nat.le_of_lt t.isLt)) $$ HΦ
    icases HΦ' with ⟨HS, Hr, Hg⟩
    iapply ((runFirst0 c (grid0.coords t) _ _ _ _ _ _ _ _ hc0 hc1 (iblk0 V c 0 t) (iblk0 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hr Hg]
    · isplitl [HS]
      · unfold owns; iexists _; isplitr
        swap; · iexact HS
        ipureintro
        exact (View.read_writes_of_cover _ _ _ _ _ (scoverFirst0 c _ _ _ _ _ _ _ _ _ hc0 hc1 _ _)).trans (accFirst0_eq c _ _ _ _ _ _ _ _ _ hc0 hc1 _ _)
      isplitl [Hr]; · iexact Hr
      iexact Hg
    isplitl [Ho]; · iexact Ho
    isplitl [H0]; · iexact H0
    isplitl [H1]; · iexact H1
    iexists _; iexact H2
  · have hz : t.val ≠ 0 := fun h => h0 (by rw [h])
    have hc0 : ¬condFirst0 (grid0.coords t) := fun h => h0 ((hcondFirst0 t).mp h)
    rw [PhiS0_pos V c _ _ hz, accAt0_next V c t h0]
    by_cases h1 : t.val % 16 = 15
    · have hc1 : condLast0 (grid0.coords t) := (hcondLast0 t).mpr h1
      rw [show (dat0 V c).leavesExact 2 t = owns (c : Thread nD τ) (ms0_2 t) fullShare ((dat0 V c).after 2 t) from by
        unfold Dat.leavesExact; rw [liveAt0_2 t hc1], after0_2, accAt0_next V c t h0]
      iintro ⟨⟨HS, Hr, Hg⟩, Ho, ⟨%d0, H0⟩, ⟨%d1, H1⟩, ⟨%d2, H2⟩⟩
      iapply ((runLast0 c (grid0.coords t) _ _ _ _ _ _ _ _ hc0 hc1 (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS]
        · unfold owns; iexists _; isplitr
          swap; · iexact HS
          ipureintro
          exact (View.read_writes_of_cover _ _ _ _ _ (scoverLast0 c _ _ _ _ _ _ _ _ _ hc0 hc1 _ _ _)).trans (accLast0_eq c _ _ _ _ _ _ _ _ _ hc0 hc1 _ _ _)
        isplitl [Hr]; · iexact Hr
        iexact Hg
      isplitl [Ho]; · iexact Ho
      isplitl [H0]; · iexact H0
      isplitl [H1]; · iexact H1
      unfold owns; iexists _; isplitr
      swap; · iexact H2
      ipureintro
      exact (View.read_writes_of_cover _ _ _ _ _ (coverLast0 c _ _ _ _ _ _ _ _ _ hc0 hc1 _ _ _)).trans (outLast0_eq c _ _ _ _ _ _ _ _ _ hc0 hc1 _ _ _)
    · have hc1 : ¬condLast0 (grid0.coords t) := fun h => h1 ((hcondLast0 t).mp h)
      rw [Dat.leavesExact_idle (dat0 V c) 2 t (idleAt0_2 t hc1) (noFlush0_2 t hc1)]
      iintro ⟨⟨HS, Hr, Hg⟩, Ho, ⟨%d0, H0⟩, ⟨%d1, H1⟩, ⟨%d2, H2⟩⟩
      iapply ((runMid0 c (grid0.coords t) _ _ _ _ _ _ _ _ hc0 hc1 (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS]
        · unfold owns; iexists _; isplitr
          swap; · iexact HS
          ipureintro
          exact (View.read_writes_of_cover _ _ _ _ _ (scoverMid0 c _ _ _ _ _ _ _ _ _ hc0 hc1 _ _ _)).trans (accMid0_eq c _ _ _ _ _ _ _ _ _ hc0 hc1 _ _ _)
        isplitl [Hr]; · iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives it back, the accumulator's value forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl]
  exact (PhiS0_open V c _ _).trans (PhiA_close0 c)

end Region

end Cert.KernelIdeal.Body

end
-- ==== Proof.Body1.lean ====
/-
  The body of pallas_call 1 run at one grid point, in the three control cases a grid of 4 row blocks by 16 column
  blocks meets: the point that resets the accumulator (column block 0), a point that only accumulates, and the point
  that also stores the row block's partial sum (column block 15). Each run leaves the two input tiles as found; what the
  accumulator (and, at the last point, the output's buffer) holds afterwards is read back from the stores the run made
  and named by the body's own arithmetic: the tile's sum added to what the accumulator held.
-/
import proofs.«175880_j29377576305361_2_alg».proof.Proof.Gen.KernelIdeal.Launch
import proofs.«175880_j29377576305361_2_alg».proof.Proof.Gen.KernelIdeal.Skeleton
import proofs.«175880_j29377576305361_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch that resets the accumulator: taken where the second grid coordinate is 0. -/
abbrev condFirst1 (i : grid1.Coords) : Prop := (Scalar.cmpi .ne (Scalar.extui (Scalar.cmpi .eq (BitVec.ofNat 32 (i 1).val) 0#32)) 0#32) = 1#1
/-- The branch that stores the block's partial sum: taken where the second grid coordinate is 15. -/
abbrev condLast1 (i : grid1.Coords) : Prop := k1_cond2 i = 1#1

set_option maxHeartbeats 1000000 in
/-- At a point that resets the accumulator and is not the last of its row block: the accumulator ends at the pieces found, the two inputs and the idle output as they were. -/
noncomputable def runFirst1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : condFirst1 i) (hc1 : ¬condLast1 i) (x0 : Vec F S2048x64 .f32) (x1 : Vec F S512x64 .f32) :
    { LS0 : List (View.Piece (Elt F) S1x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, fun xi2 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- At a point that neither resets nor stores: the accumulator, found at `xs`, ends at the pieces found. -/
noncomputable def runMid1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : ¬condFirst1 i) (hc1 : ¬condLast1 i) (x0 : Vec F S2048x64 .f32) (x1 : Vec F S512x64 .f32) (xs : Vec F S1x1 .f32) :
    { LS0 : List (View.Piece (Elt F) S1x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, fun xi2 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- At the last point of a row block: the accumulator, found at `xs`, ends at the pieces found, and the output's buffer at the pieces found. -/
noncomputable def runLast1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : ¬condFirst1 i) (hc1 : condLast1 i) (x0 : Vec F S2048x64 .f32) (x1 : Vec F S512x64 .f32) (xs : Vec F S1x1 .f32) :
    Σ' (L2 : List (View.Piece (Elt F) S1x1x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

theorem hzTwo1 : (![0, 0] : Fin 2 → ℕ) = fun _ => 0 := by funext a; fin_cases a <;> rfl
theorem hzThree1 : (![0, 0, 0] : Fin 3 → ℕ) = fun _ => 0 := by funext a; fin_cases a <;> rfl

theorem scoverFirst1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst1 i) (hc1 : ¬condLast1 i) (x0 : Vec F S2048x64 .f32) (x1 : Vec F S512x64 .f32) (y : S1x1.Idx) :
    ∃ pc ∈ (runFirst1 c i arg2 harg2 arg3 harg3 arg4 harg4 arg5 harg5 hc0 hc1 x0 x1).1, y ∈ pc.1.set :=
  View.cover_of_tiledL (runFirst1 c i arg2 harg2 arg3 harg3 arg4 harg4 arg5 harg5 hc0 hc1 x0 x1).1 S1x1.size (by sl_kernel_rfl) y

/-- What the accumulator holds after a resetting point: the found pieces read back. -/
def accFirst1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst1 i) (hc1 : ¬condLast1 i) (x0 : Vec F S2048x64 .f32) (x1 : Vec F S512x64 .f32) : Vec F S1x1 .f32 :=
  arg5.view.read (Elt F) (arg5.view.writes (Elt F) arg5.view.junk (runFirst1 c i arg2 harg2 arg3 harg3 arg4 harg4 arg5 harg5 hc0 hc1 x0 x1).1)

/-- It is the tile's sum added to the zero the reset stored. -/
theorem accFirst1_eq (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst1 i) (hc1 : ¬condLast1 i) (x0 : Vec F S2048x64 .f32) (x1 : Vec F S512x64 .f32) :
    accFirst1 c i arg2 harg2 arg3 harg3 arg4 harg4 arg5 harg5 hc0 hc1 x0 x1 = k1_pay3 x0 x1 (k1_pay2 (F := F)) := by
  unfold accFirst1
  rw [View.read_writes_eq_canon _ _ _ (scoverFirst1 c i arg2 harg2 arg3 harg3 arg4 harg4 arg5 harg5 hc0 hc1 x0 x1)]
  unfold runFirst1
  dsimp only
  sl_unfold_words
  rw [View.canon_cons_unit_zero hzTwo1, View.readCov_unit_zero _ hzTwo1]
  simp only [View.readAt_eq_ld, harg2.read_unread, harg3.read_unread, View.ld_unit_zero (S := S2048x64) hzTwo1, View.ld_unit_zero (S := S512x64) hzTwo1]

theorem scoverMid1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : ¬condLast1 i) (x0 : Vec F S2048x64 .f32) (x1 : Vec F S512x64 .f32) (xs : Vec F S1x1 .f32) (y : S1x1.Idx) :
    ∃ pc ∈ (runMid1 c i arg2 harg2 arg3 harg3 arg4 harg4 arg5 harg5 hc0 hc1 x0 x1 xs).1, y ∈ pc.1.set :=
  View.cover_of_tiledL (runMid1 c i arg2 harg2 arg3 harg3 arg4 harg4 arg5 harg5 hc0 hc1 x0 x1 xs).1 S1x1.size (by sl_kernel_rfl) y

/-- What the accumulator holds after a point that only accumulates. -/
def accMid1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : ¬condLast1 i) (x0 : Vec F S2048x64 .f32) (x1 : Vec F S512x64 .f32) (xs : Vec F S1x1 .f32) : Vec F S1x1 .f32 :=
  arg5.view.read (Elt F) (arg5.view.writes (Elt F) arg5.view.junk (runMid1 c i arg2 harg2 arg3 harg3 arg4 harg4 arg5 harg5 hc0 hc1 x0 x1 xs).1)

theorem accMid1_eq (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : ¬condLast1 i) (x0 : Vec F S2048x64 .f32) (x1 : Vec F S512x64 .f32) (xs : Vec F S1x1 .f32) :
    accMid1 c i arg2 harg2 arg3 harg3 arg4 harg4 arg5 harg5 hc0 hc1 x0 x1 xs = k1_pay3 x0 x1 xs := by
  unfold accMid1
  rw [View.read_writes_eq_canon _ _ _ (scoverMid1 c i arg2 harg2 arg3 harg3 arg4 harg4 arg5 harg5 hc0 hc1 x0 x1 xs)]
  unfold runMid1
  dsimp only
  sl_unfold_words
  rw [View.canon_unit_zero hzTwo1]
  simp only [View.readAt_eq_ld, harg2.read_unread, harg3.read_unread, harg5.read_unread, View.ld_unit_zero (S := S2048x64) hzTwo1, View.ld_unit_zero (S := S512x64) hzTwo1, View.ld_unit_zero (S := S1x1) hzTwo1]

theorem scoverLast1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : condLast1 i) (x0 : Vec F S2048x64 .f32) (x1 : Vec F S512x64 .f32) (xs : Vec F S1x1 .f32) (y : S1x1.Idx) :
    ∃ pc ∈ (runLast1 c i arg2 harg2 arg3 harg3 arg4 harg4 arg5 harg5 hc0 hc1 x0 x1 xs).2.1, y ∈ pc.1.set :=
  View.cover_of_tiledL (runLast1 c i arg2 harg2 arg3 harg3 arg4 harg4 arg5 harg5 hc0 hc1 x0 x1 xs).2.1 S1x1.size (by sl_kernel_rfl) y

theorem coverLast1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : condLast1 i) (x0 : Vec F S2048x64 .f32) (x1 : Vec F S512x64 .f32) (xs : Vec F S1x1 .f32) (y : S1x1x128.Idx) :
    ∃ pc ∈ (runLast1 c i arg2 harg2 arg3 harg3 arg4 harg4 arg5 harg5 hc0 hc1 x0 x1 xs).1, y ∈ pc.1.set :=
  View.cover_of_tiledL (runLast1 c i arg2 harg2 arg3 harg3 arg4 harg4 arg5 harg5 hc0 hc1 x0 x1 xs).1 S1x1x128.size (by sl_kernel_rfl) y

/-- What the accumulator holds after the last point of a row block. -/
def accLast1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : condLast1 i) (x0 : Vec F S2048x64 .f32) (x1 : Vec F S512x64 .f32) (xs : Vec F S1x1 .f32) : Vec F S1x1 .f32 :=
  arg5.view.read (Elt F) (arg5.view.writes (Elt F) arg5.view.junk (runLast1 c i arg2 harg2 arg3 harg3 arg4 harg4 arg5 harg5 hc0 hc1 x0 x1 xs).2.1)

/-- What the output's buffer holds after the last point of a row block. -/
def outLast1 (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : condLast1 i) (x0 : Vec F S2048x64 .f32) (x1 : Vec F S512x64 .f32) (xs : Vec F S1x1 .f32) : Vec F S1x1x128 .f32 :=
  arg4.view.read (Elt F) (arg4.view.writes (Elt F) arg4.view.junk (runLast1 c i arg2 harg2 arg3 harg3 arg4 harg4 arg5 harg5 hc0 hc1 x0 x1 xs).1)

theorem accLast1_eq (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : condLast1 i) (x0 : Vec F S2048x64 .f32) (x1 : Vec F S512x64 .f32) (xs : Vec F S1x1 .f32) :
    accLast1 c i arg2 harg2 arg3 harg3 arg4 harg4 arg5 harg5 hc0 hc1 x0 x1 xs = k1_pay3 x0 x1 xs := by
  unfold accLast1
  rw [View.read_writes_eq_canon _ _ _ (scoverLast1 c i arg2 harg2 arg3 harg3 arg4 harg4 arg5 harg5 hc0 hc1 x0 x1 xs)]
  unfold runLast1
  dsimp only
  sl_unfold_words
  rw [View.canon_unit_zero hzTwo1]
  simp only [View.readAt_eq_ld, harg2.read_unread, harg3.read_unread, harg5.read_unread, View.ld_unit_zero (S := S2048x64) hzTwo1, View.ld_unit_zero (S := S512x64) hzTwo1, View.ld_unit_zero (S := S1x1) hzTwo1]

theorem outLast1_eq (c : Dev nD) (i : grid1.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst1 i) (hc1 : condLast1 i) (x0 : Vec F S2048x64 .f32) (x1 : Vec F S512x64 .f32) (xs : Vec F S1x1 .f32) :
    outLast1 c i arg2 harg2 arg3 harg3 arg4 harg4 arg5 harg5 hc0 hc1 x0 x1 xs = k1_pay1 (k1_pay3 x0 x1 xs) := by
  unfold outLast1
  rw [View.read_writes_eq_canon _ _ _ (coverLast1 c i arg2 harg2 arg3 harg3 arg4 harg4 arg5 harg5 hc0 hc1 x0 x1 xs)]
  unfold runLast1
  dsimp only
  sl_unfold_words
  rw [View.canon_unit_zero hzThree1, View.readCov_unit_zero _ hzTwo1]
  simp only [View.readAt_eq_ld, harg2.read_unread, harg3.read_unread, harg5.read_unread, View.ld_unit_zero (S := S2048x64) hzTwo1, View.ld_unit_zero (S := S512x64) hzTwo1, View.ld_unit_zero (S := S1x1) hzTwo1]

end Cert.KernelIdeal.Body

end
-- ==== Proof.Region1.lean ====
/-
  Pallas_call 1 over its grid of 4 row blocks by 16 column blocks, from any contents `V` of the core's buffers at its
  entry: what the accumulator holds after each point (the tile's sum added to the previous point's value, restarted
  from zero at column block 0), the proof data over it (each input's buffer at its tile, the output's at the masked
  accumulator, written back only after column block 15), and the body's obligation at every point by the case of the
  point.
-/
import proofs.«175880_j29377576305361_2_alg».proof.Proof.Gen.KernelIdeal.Launch
import proofs.«175880_j29377576305361_2_alg».proof.Proof.Gen.KernelIdeal.Skeleton
import proofs.«175880_j29377576305361_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«175880_j29377576305361_2_alg».proof.Proof.Body1

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current buffer holds its tile at every point, fetched there or not (unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions over the grid, and where the output is idle -/

theorem hcondFirst1 : ∀ t : Fin cfg1.N, condFirst1 (grid1.coords t) ↔ t.val % 16 = 0 :=
  (by decide +kernel : ∀ t : Fin grid1.N, condFirst1 (grid1.coords t) ↔ t.val % 16 = 0)
theorem hcondLast1 : ∀ t : Fin cfg1.N, condLast1 (grid1.coords t) ↔ t.val % 16 = 15 :=
  (by decide +kernel : ∀ t : Fin grid1.N, condLast1 (grid1.coords t) ↔ t.val % 16 = 15)
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬condLast1 (grid1.coords t) → cfg1.idle 2 (grid1.coords t) = true := by decide +kernel
theorem noFlush1_2 : ∀ t : Fin cfg1.N, ¬condLast1 (grid1.coords t) → (cfg1.win 2).flush t = false := by decide +kernel
theorem liveAt1_2 : ∀ t : Fin cfg1.N, condLast1 (grid1.coords t) → cfg1.idle 2 (grid1.coords t) = false := by decide +kernel

/-! ## The accumulator point by point -/

/-- What the accumulator holds after point `n`: the tile's sum of point `n` added to zero at column block 0, to the value after point `n - 1` otherwise. -/
def accAt1 (c : Dev nD) : (n : ℕ) → n < cfg1.N → Vec F S1x1 .f32
  | 0, hn => k1_pay3 (iblk1 V c 0 ⟨0, hn⟩) (iblk1 V c 1 ⟨0, hn⟩) (k1_pay2 (F := F))
  | n + 1, hn =>
    if (n + 1) % 16 = 0 then k1_pay3 (iblk1 V c 0 ⟨n + 1, hn⟩) (iblk1 V c 1 ⟨n + 1, hn⟩) (k1_pay2 (F := F))
    else k1_pay3 (iblk1 V c 0 ⟨n + 1, hn⟩) (iblk1 V c 1 ⟨n + 1, hn⟩) (accAt1 c n (Nat.lt_of_succ_lt hn))

theorem accAt1_first (c : Dev nD) (t : Fin cfg1.N) (h0 : t.val % 16 = 0) :
    accAt1 V c t.val t.isLt = k1_pay3 (iblk1 V c 0 t) (iblk1 V c 1 t) (k1_pay2 (F := F)) := by
  obtain ⟨n, hn⟩ := t
  cases n with
  | zero => rfl
  | succ n => exact if_pos h0

theorem accAt1_next (c : Dev nD) (t : Fin cfg1.N) (h0 : ¬t.val % 16 = 0) :
    accAt1 V c t.val t.isLt = k1_pay3 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The accumulator's buffer. -/
abbrev scM1 : Memref sig .tc .vmem S1x1 .f32 := Memref.whole cc1_scratch0

/-- The core's scoped buffers other than this call's staging buffers and accumulator, each at some contents. -/
def rest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))

/-- The class invariant hands out the accumulator's buffer at some contents beside the rest, -/
theorem PhiA_open1 (c : Dev nD) : (Pipeline.ΦA spec1 c : sProp 𝕄) ⊢ iprop((∃ d, owns (c : Thread nD τ) scM1 fullShare d) ∗ rest1 (F := F) c ∗ (∃ r, prngReg c r)) := by
  unfold Pipeline.ΦA rest1; rw [scopedRest1_eq]
  iintro ⟨⟨Hb0, Hb1, Hb2, Hb3, Hb4, Hb5, Hb6, HS, Hb8, Hb9, Hb10, Hb11, Hb12, Hb13, Hb14⟩, Hp⟩
  isplitl [HS]
  · icases HS with ⟨%f, HS⟩; iexists f; rw [owns_whole]; iexact HS
  isplitr [Hp]; swap; · iexact Hp
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb8]; · iexact Hb8
  isplitl [Hb9]; · iexact Hb9
  isplitl [Hb10]; · iexact Hb10
  isplitl [Hb11]; · iexact Hb11
  isplitl [Hb12]; · iexact Hb12
  isplitl [Hb13]; · iexact Hb13
  iexact Hb14

/-- and takes it back at any contents. -/
theorem PhiA_close1 (c : Dev nD) : iprop((∃ d, owns (c : Thread nD τ) scM1 fullShare d) ∗ rest1 (F := F) c ∗ (∃ r, prngReg c r)) ⊢ (Pipeline.ΦA spec1 c : sProp 𝕄) := by
  unfold Pipeline.ΦA rest1; rw [scopedRest1_eq]; simp only [owns_whole]
  iintro ⟨⟨%d, HS⟩, ⟨Hb0, Hb1, Hb2, Hb3, Hb4, Hb5, Hb6, Hb8, Hb9, Hb10, Hb11, Hb12, Hb13, Hb14⟩, Hp⟩
  isplitr [Hp]; swap; · iexact Hp
  ·
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [HS]; · (iexists d; iexact HS)
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    iexact Hb14

/-- The invariant before position `n`: before the first point the class's; afterwards the accumulator at what the point before left, the rest and the generator register at some state. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ rest1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (accAt1 V c n hn) ∗ rest1 (F := F) c ∗ (∃ r, prngReg c r)) := rfl
theorem PhiS1_pos (c : Dev nD) (n : ℕ) (h : n ≤ cfg1.N) (hz : n ≠ 0) :
    PhiS1 V c n h = iprop(owns (c : Thread nD τ) scM1 fullShare (accAt1 V c (n - 1) (by omega)) ∗ rest1 (F := F) c ∗ (∃ r, prngReg c r)) := by
  cases n with
  | zero => exact absurd rfl hz
  | succ n => rfl

/-- At any position the invariant yields the accumulator's buffer at some contents beside the rest. -/
theorem PhiS1_open (c : Dev nD) (n : ℕ) (h : n ≤ cfg1.N) :
    PhiS1 V c n h ⊢ iprop((∃ d, owns (c : Thread nD τ) scM1 fullShare d) ∗ rest1 (F := F) c ∗ (∃ r, prngReg c r)) := by
  cases n with
  | zero => exact PhiA_open1 c
  | succ n =>
    rw [PhiS1_succ]
    iintro ⟨HS, Hr, Hg⟩
    isplitl [HS]; · iexists _; iexact HS
    isplitl [Hr]; · iexact Hr
    iexact Hg

/-! ## The proof data -/

/-- The proof data of the call on core `c`: the arrays as the call finds them; after the body at point `t` each input's
    buffer at its tile and the output's at the masked accumulator; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (accAt1 V c t.val t.isLt)
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (accAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

abbrev ms1_0 (t : Fin cfg1.N) : Memref sig .tc .vmem S2048x64 .f32 := win1_0.stage (cfg1.slots t 0)
abbrev ms1_1 (t : Fin cfg1.N) : Memref sig .tc .vmem S512x64 .f32 := win1_1.stage (cfg1.slots t 1)
abbrev ms1_2 (t : Fin cfg1.N) : Memref sig .tc .vmem S1x1x128 .f32 := win1_2.stage (cfg1.slots t 2)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their tiles; the point's position among the 16 column blocks says
    which case it is in; the invariant hands the accumulator over at what the point before left (at anything where the
    body resets it first) and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  rw [PhiS1_castSucc V c t]
  by_cases h0 : t.val % 16 = 0
  · have h1 : ¬t.val % 16 = 15 := by omega
    have hc0 : condFirst1 (grid1.coords t) := (hcondFirst1 t).mpr h0
    have hc1 : ¬condLast1 (grid1.coords t) := fun h => h1 ((hcondLast1 t).mp h)
    rw [Dat.leavesExact_idle (dat1 V c) 2 t (idleAt1_2 t hc1) (noFlush1_2 t hc1)]
    rw [accAt1_first V c t h0]
    iintro ⟨HΦ, Ho, ⟨%d0, H0⟩, ⟨%d1, H1⟩, ⟨%d2, H2⟩⟩
    ihave HΦ' := (PhiS1_open V c t.val (Nat.le_of_lt t.isLt)) $$ HΦ
    icases HΦ' with ⟨HS, Hr, Hg⟩
    iapply ((runFirst1 c (grid1.coords t) _ _ _ _ _ _ _ _ hc0 hc1 (iblk1 V c 0 t) (iblk1 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hr Hg]
    · isplitl [HS]
      · unfold owns; iexists _; isplitr
        swap; · iexact HS
        ipureintro
        exact (View.read_writes_of_cover _ _ _ _ _ (scoverFirst1 c _ _ _ _ _ _ _ _ _ hc0 hc1 _ _)).trans (accFirst1_eq c _ _ _ _ _ _ _ _ _ hc0 hc1 _ _)
      isplitl [Hr]; · iexact Hr
      iexact Hg
    isplitl [Ho]; · iexact Ho
    isplitl [H0]; · iexact H0
    isplitl [H1]; · iexact H1
    iexists _; iexact H2
  · have hz : t.val ≠ 0 := fun h => h0 (by rw [h])
    have hc0 : ¬condFirst1 (grid1.coords t) := fun h => h0 ((hcondFirst1 t).mp h)
    rw [PhiS1_pos V c _ _ hz, accAt1_next V c t h0]
    by_cases h1 : t.val % 16 = 15
    · have hc1 : condLast1 (grid1.coords t) := (hcondLast1 t).mpr h1
      rw [show (dat1 V c).leavesExact 2 t = owns (c : Thread nD τ) (ms1_2 t) fullShare ((dat1 V c).after 2 t) from by
        unfold Dat.leavesExact; rw [liveAt1_2 t hc1], after1_2, accAt1_next V c t h0]
      iintro ⟨⟨HS, Hr, Hg⟩, Ho, ⟨%d0, H0⟩, ⟨%d1, H1⟩, ⟨%d2, H2⟩⟩
      iapply ((runLast1 c (grid1.coords t) _ _ _ _ _ _ _ _ hc0 hc1 (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS]
        · unfold owns; iexists _; isplitr
          swap; · iexact HS
          ipureintro
          exact (View.read_writes_of_cover _ _ _ _ _ (scoverLast1 c _ _ _ _ _ _ _ _ _ hc0 hc1 _ _ _)).trans (accLast1_eq c _ _ _ _ _ _ _ _ _ hc0 hc1 _ _ _)
        isplitl [Hr]; · iexact Hr
        iexact Hg
      isplitl [Ho]; · iexact Ho
      isplitl [H0]; · iexact H0
      isplitl [H1]; · iexact H1
      unfold owns; iexists _; isplitr
      swap; · iexact H2
      ipureintro
      exact (View.read_writes_of_cover _ _ _ _ _ (coverLast1 c _ _ _ _ _ _ _ _ _ hc0 hc1 _ _ _)).trans (outLast1_eq c _ _ _ _ _ _ _ _ _ hc0 hc1 _ _ _)
    · have hc1 : ¬condLast1 (grid1.coords t) := fun h => h1 ((hcondLast1 t).mp h)
      rw [Dat.leavesExact_idle (dat1 V c) 2 t (idleAt1_2 t hc1) (noFlush1_2 t hc1)]
      iintro ⟨⟨HS, Hr, Hg⟩, Ho, ⟨%d0, H0⟩, ⟨%d1, H1⟩, ⟨%d2, H2⟩⟩
      iapply ((runMid1 c (grid1.coords t) _ _ _ _ _ _ _ _ hc0 hc1 (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS]
        · unfold owns; iexists _; isplitr
          swap; · iexact HS
          ipureintro
          exact (View.read_writes_of_cover _ _ _ _ _ (scoverMid1 c _ _ _ _ _ _ _ _ _ hc0 hc1 _ _ _)).trans (accMid1_eq c _ _ _ _ _ _ _ _ _ hc0 hc1 _ _ _)
        isplitl [Hr]; · iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back, the accumulator's value forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_open V c _ _).trans (PhiA_close1 c)

end Region

end Cert.KernelIdeal.Body

end
-- ==== Proof.Body2.lean ====
/-
  The body of pallas_call 2 run at one grid point, in the three control cases a grid of 4 row blocks by 16 column
  blocks meets: the point that resets the accumulator (column block 0), a point that only accumulates, and the point
  that also stores the row block's partial sum (column block 15). Each run leaves the two input tiles as found; what the
  accumulator (and, at the last point, the output's buffer) holds afterwards is read back from the stores the run made
  and named by the body's own arithmetic: the tile's sum added to what the accumulator held.
-/
import proofs.«175880_j29377576305361_2_alg».proof.Proof.Gen.KernelIdeal.Launch
import proofs.«175880_j29377576305361_2_alg».proof.Proof.Gen.KernelIdeal.Skeleton
import proofs.«175880_j29377576305361_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch that resets the accumulator: taken where the second grid coordinate is 0. -/
abbrev condFirst2 (i : grid2.Coords) : Prop := (Scalar.cmpi .ne (Scalar.extui (Scalar.cmpi .eq (BitVec.ofNat 32 (i 1).val) 0#32)) 0#32) = 1#1
/-- The branch that stores the block's partial sum: taken where the second grid coordinate is 15. -/
abbrev condLast2 (i : grid2.Coords) : Prop := k2_cond2 i = 1#1

set_option maxHeartbeats 1000000 in
/-- At a point that resets the accumulator and is not the last of its row block: the accumulator ends at the pieces found, the two inputs and the idle output as they were. -/
noncomputable def runFirst2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : condFirst2 i) (hc1 : ¬condLast2 i) (x0 : Vec F S2048x64 .f32) (x1 : Vec F S512x64 .f32) :
    { LS0 : List (View.Piece (Elt F) S1x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨?_, fun xi2 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- At a point that neither resets nor stores: the accumulator, found at `xs`, ends at the pieces found. -/
noncomputable def runMid2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : ¬condFirst2 i) (hc1 : ¬condLast2 i) (x0 : Vec F S2048x64 .f32) (x1 : Vec F S512x64 .f32) (xs : Vec F S1x1 .f32) :
    { LS0 : List (View.Piece (Elt F) S1x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨?_, fun xi2 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- At the last point of a row block: the accumulator, found at `xs`, ends at the pieces found, and the output's buffer at the pieces found. -/
noncomputable def runLast2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole)
    (hc0 : ¬condFirst2 i) (hc1 : condLast2 i) (x0 : Vec F S2048x64 .f32) (x1 : Vec F S512x64 .f32) (xs : Vec F S1x1 .f32) :
    Σ' (L2 : List (View.Piece (Elt F) S1x1x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨?_, ?_, fun E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

theorem hzTwo2 : (![0, 0] : Fin 2 → ℕ) = fun _ => 0 := by funext a; fin_cases a <;> rfl
theorem hzThree2 : (![0, 0, 0] : Fin 3 → ℕ) = fun _ => 0 := by funext a; fin_cases a <;> rfl

theorem scoverFirst2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst2 i) (hc1 : ¬condLast2 i) (x0 : Vec F S2048x64 .f32) (x1 : Vec F S512x64 .f32) (y : S1x1.Idx) :
    ∃ pc ∈ (runFirst2 c i arg2 harg2 arg3 harg3 arg4 harg4 arg5 harg5 hc0 hc1 x0 x1).1, y ∈ pc.1.set :=
  View.cover_of_tiledL (runFirst2 c i arg2 harg2 arg3 harg3 arg4 harg4 arg5 harg5 hc0 hc1 x0 x1).1 S1x1.size (by sl_kernel_rfl) y

/-- What the accumulator holds after a resetting point: the found pieces read back. -/
def accFirst2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst2 i) (hc1 : ¬condLast2 i) (x0 : Vec F S2048x64 .f32) (x1 : Vec F S512x64 .f32) : Vec F S1x1 .f32 :=
  arg5.view.read (Elt F) (arg5.view.writes (Elt F) arg5.view.junk (runFirst2 c i arg2 harg2 arg3 harg3 arg4 harg4 arg5 harg5 hc0 hc1 x0 x1).1)

/-- It is the tile's sum added to the zero the reset stored. -/
theorem accFirst2_eq (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : condFirst2 i) (hc1 : ¬condLast2 i) (x0 : Vec F S2048x64 .f32) (x1 : Vec F S512x64 .f32) :
    accFirst2 c i arg2 harg2 arg3 harg3 arg4 harg4 arg5 harg5 hc0 hc1 x0 x1 = k2_pay3 x0 x1 (k2_pay2 (F := F)) := by
  unfold accFirst2
  rw [View.read_writes_eq_canon _ _ _ (scoverFirst2 c i arg2 harg2 arg3 harg3 arg4 harg4 arg5 harg5 hc0 hc1 x0 x1)]
  unfold runFirst2
  dsimp only
  sl_unfold_words
  rw [View.canon_cons_unit_zero hzTwo2, View.readCov_unit_zero _ hzTwo2]
  simp only [View.readAt_eq_ld, harg2.read_unread, harg3.read_unread, View.ld_unit_zero (S := S2048x64) hzTwo2, View.ld_unit_zero (S := S512x64) hzTwo2]

theorem scoverMid2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : ¬condLast2 i) (x0 : Vec F S2048x64 .f32) (x1 : Vec F S512x64 .f32) (xs : Vec F S1x1 .f32) (y : S1x1.Idx) :
    ∃ pc ∈ (runMid2 c i arg2 harg2 arg3 harg3 arg4 harg4 arg5 harg5 hc0 hc1 x0 x1 xs).1, y ∈ pc.1.set :=
  View.cover_of_tiledL (runMid2 c i arg2 harg2 arg3 harg3 arg4 harg4 arg5 harg5 hc0 hc1 x0 x1 xs).1 S1x1.size (by sl_kernel_rfl) y

/-- What the accumulator holds after a point that only accumulates. -/
def accMid2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : ¬condLast2 i) (x0 : Vec F S2048x64 .f32) (x1 : Vec F S512x64 .f32) (xs : Vec F S1x1 .f32) : Vec F S1x1 .f32 :=
  arg5.view.read (Elt F) (arg5.view.writes (Elt F) arg5.view.junk (runMid2 c i arg2 harg2 arg3 harg3 arg4 harg4 arg5 harg5 hc0 hc1 x0 x1 xs).1)

theorem accMid2_eq (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : ¬condLast2 i) (x0 : Vec F S2048x64 .f32) (x1 : Vec F S512x64 .f32) (xs : Vec F S1x1 .f32) :
    accMid2 c i arg2 harg2 arg3 harg3 arg4 harg4 arg5 harg5 hc0 hc1 x0 x1 xs = k2_pay3 x0 x1 xs := by
  unfold accMid2
  rw [View.read_writes_eq_canon _ _ _ (scoverMid2 c i arg2 harg2 arg3 harg3 arg4 harg4 arg5 harg5 hc0 hc1 x0 x1 xs)]
  unfold runMid2
  dsimp only
  sl_unfold_words
  rw [View.canon_unit_zero hzTwo2]
  simp only [View.readAt_eq_ld, harg2.read_unread, harg3.read_unread, harg5.read_unread, View.ld_unit_zero (S := S2048x64) hzTwo2, View.ld_unit_zero (S := S512x64) hzTwo2, View.ld_unit_zero (S := S1x1) hzTwo2]

theorem scoverLast2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : condLast2 i) (x0 : Vec F S2048x64 .f32) (x1 : Vec F S512x64 .f32) (xs : Vec F S1x1 .f32) (y : S1x1.Idx) :
    ∃ pc ∈ (runLast2 c i arg2 harg2 arg3 harg3 arg4 harg4 arg5 harg5 hc0 hc1 x0 x1 xs).2.1, y ∈ pc.1.set :=
  View.cover_of_tiledL (runLast2 c i arg2 harg2 arg3 harg3 arg4 harg4 arg5 harg5 hc0 hc1 x0 x1 xs).2.1 S1x1.size (by sl_kernel_rfl) y

theorem coverLast2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : condLast2 i) (x0 : Vec F S2048x64 .f32) (x1 : Vec F S512x64 .f32) (xs : Vec F S1x1 .f32) (y : S1x1x128.Idx) :
    ∃ pc ∈ (runLast2 c i arg2 harg2 arg3 harg3 arg4 harg4 arg5 harg5 hc0 hc1 x0 x1 xs).1, y ∈ pc.1.set :=
  View.cover_of_tiledL (runLast2 c i arg2 harg2 arg3 harg3 arg4 harg4 arg5 harg5 hc0 hc1 x0 x1 xs).1 S1x1x128.size (by sl_kernel_rfl) y

/-- What the accumulator holds after the last point of a row block. -/
def accLast2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : condLast2 i) (x0 : Vec F S2048x64 .f32) (x1 : Vec F S512x64 .f32) (xs : Vec F S1x1 .f32) : Vec F S1x1 .f32 :=
  arg5.view.read (Elt F) (arg5.view.writes (Elt F) arg5.view.junk (runLast2 c i arg2 harg2 arg3 harg3 arg4 harg4 arg5 harg5 hc0 hc1 x0 x1 xs).2.1)

/-- What the output's buffer holds after the last point of a row block. -/
def outLast2 (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : condLast2 i) (x0 : Vec F S2048x64 .f32) (x1 : Vec F S512x64 .f32) (xs : Vec F S1x1 .f32) : Vec F S1x1x128 .f32 :=
  arg4.view.read (Elt F) (arg4.view.writes (Elt F) arg4.view.junk (runLast2 c i arg2 harg2 arg3 harg3 arg4 harg4 arg5 harg5 hc0 hc1 x0 x1 xs).1)

theorem accLast2_eq (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : condLast2 i) (x0 : Vec F S2048x64 .f32) (x1 : Vec F S512x64 .f32) (xs : Vec F S1x1 .f32) :
    accLast2 c i arg2 harg2 arg3 harg3 arg4 harg4 arg5 harg5 hc0 hc1 x0 x1 xs = k2_pay3 x0 x1 xs := by
  unfold accLast2
  rw [View.read_writes_eq_canon _ _ _ (scoverLast2 c i arg2 harg2 arg3 harg3 arg4 harg4 arg5 harg5 hc0 hc1 x0 x1 xs)]
  unfold runLast2
  dsimp only
  sl_unfold_words
  rw [View.canon_unit_zero hzTwo2]
  simp only [View.readAt_eq_ld, harg2.read_unread, harg3.read_unread, harg5.read_unread, View.ld_unit_zero (S := S2048x64) hzTwo2, View.ld_unit_zero (S := S512x64) hzTwo2, View.ld_unit_zero (S := S1x1) hzTwo2]

theorem outLast2_eq (c : Dev nD) (i : grid2.Coords) (arg2 : Memref sig .tc .vmem S2048x64 .f32) (harg2 : arg2.IsWhole) (arg3 : Memref sig .tc .vmem S512x64 .f32) (harg3 : arg3.IsWhole) (arg4 : Memref sig .tc .vmem S1x1x128 .f32) (harg4 : arg4.IsWhole) (arg5 : Memref sig .tc .vmem S1x1 .f32) (harg5 : arg5.IsWhole) (hc0 : ¬condFirst2 i) (hc1 : condLast2 i) (x0 : Vec F S2048x64 .f32) (x1 : Vec F S512x64 .f32) (xs : Vec F S1x1 .f32) :
    outLast2 c i arg2 harg2 arg3 harg3 arg4 harg4 arg5 harg5 hc0 hc1 x0 x1 xs = k2_pay1 (k2_pay3 x0 x1 xs) := by
  unfold outLast2
  rw [View.read_writes_eq_canon _ _ _ (coverLast2 c i arg2 harg2 arg3 harg3 arg4 harg4 arg5 harg5 hc0 hc1 x0 x1 xs)]
  unfold runLast2
  dsimp only
  sl_unfold_words
  rw [View.canon_unit_zero hzThree2, View.readCov_unit_zero _ hzTwo2]
  simp only [View.readAt_eq_ld, harg2.read_unread, harg3.read_unread, harg5.read_unread, View.ld_unit_zero (S := S2048x64) hzTwo2, View.ld_unit_zero (S := S512x64) hzTwo2, View.ld_unit_zero (S := S1x1) hzTwo2]

end Cert.KernelIdeal.Body

end
-- ==== Proof.Region2.lean ====
/-
  Pallas_call 2 over its grid of 4 row blocks by 16 column blocks, from any contents `V` of the core's buffers at its
  entry: what the accumulator holds after each point (the tile's sum added to the previous point's value, restarted
  from zero at column block 0), the proof data over it (each input's buffer at its tile, the output's at the masked
  accumulator, written back only after column block 15), and the body's obligation at every point by the case of the
  point.
-/
import proofs.«175880_j29377576305361_2_alg».proof.Proof.Gen.KernelIdeal.Launch
import proofs.«175880_j29377576305361_2_alg».proof.Proof.Gen.KernelIdeal.Skeleton
import proofs.«175880_j29377576305361_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«175880_j29377576305361_2_alg».proof.Proof.Body2

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's current buffer holds its tile at every point, fetched there or not (unfetched, the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions over the grid, and where the output is idle -/

theorem hcondFirst2 : ∀ t : Fin cfg2.N, condFirst2 (grid2.coords t) ↔ t.val % 16 = 0 :=
  (by decide +kernel : ∀ t : Fin grid2.N, condFirst2 (grid2.coords t) ↔ t.val % 16 = 0)
theorem hcondLast2 : ∀ t : Fin cfg2.N, condLast2 (grid2.coords t) ↔ t.val % 16 = 15 :=
  (by decide +kernel : ∀ t : Fin grid2.N, condLast2 (grid2.coords t) ↔ t.val % 16 = 15)
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬condLast2 (grid2.coords t) → cfg2.idle 2 (grid2.coords t) = true := by decide +kernel
theorem noFlush2_2 : ∀ t : Fin cfg2.N, ¬condLast2 (grid2.coords t) → (cfg2.win 2).flush t = false := by decide +kernel
theorem liveAt2_2 : ∀ t : Fin cfg2.N, condLast2 (grid2.coords t) → cfg2.idle 2 (grid2.coords t) = false := by decide +kernel

/-! ## The accumulator point by point -/

/-- What the accumulator holds after point `n`: the tile's sum of point `n` added to zero at column block 0, to the value after point `n - 1` otherwise. -/
def accAt2 (c : Dev nD) : (n : ℕ) → n < cfg2.N → Vec F S1x1 .f32
  | 0, hn => k2_pay3 (iblk2 V c 0 ⟨0, hn⟩) (iblk2 V c 1 ⟨0, hn⟩) (k2_pay2 (F := F))
  | n + 1, hn =>
    if (n + 1) % 16 = 0 then k2_pay3 (iblk2 V c 0 ⟨n + 1, hn⟩) (iblk2 V c 1 ⟨n + 1, hn⟩) (k2_pay2 (F := F))
    else k2_pay3 (iblk2 V c 0 ⟨n + 1, hn⟩) (iblk2 V c 1 ⟨n + 1, hn⟩) (accAt2 c n (Nat.lt_of_succ_lt hn))

theorem accAt2_first (c : Dev nD) (t : Fin cfg2.N) (h0 : t.val % 16 = 0) :
    accAt2 V c t.val t.isLt = k2_pay3 (iblk2 V c 0 t) (iblk2 V c 1 t) (k2_pay2 (F := F)) := by
  obtain ⟨n, hn⟩ := t
  cases n with
  | zero => rfl
  | succ n => exact if_pos h0

theorem accAt2_next (c : Dev nD) (t : Fin cfg2.N) (h0 : ¬t.val % 16 = 0) :
    accAt2 V c t.val t.isLt = k2_pay3 (iblk2 V c 0 t) (iblk2 V c 1 t) (accAt2 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The accumulator's buffer. -/
abbrev scM2 : Memref sig .tc .vmem S1x1 .f32 := Memref.whole cc2_scratch0

/-- The core's scoped buffers other than this call's staging buffers and accumulator, each at some contents. -/
def rest2 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant hands out the accumulator's buffer at some contents beside the rest, -/
theorem PhiA_open2 (c : Dev nD) : (Pipeline.ΦA spec2 c : sProp 𝕄) ⊢ iprop((∃ d, owns (c : Thread nD τ) scM2 fullShare d) ∗ rest2 (F := F) c ∗ (∃ r, prngReg c r)) := by
  unfold Pipeline.ΦA rest2; rw [scopedRest2_eq]
  iintro ⟨⟨Hb0, Hb1, Hb2, Hb3, Hb4, Hb5, Hb6, Hb7, Hb8, Hb9, Hb10, Hb11, Hb12, Hb13, HS⟩, Hp⟩
  isplitl [HS]
  · icases HS with ⟨%f, HS⟩; iexists f; rw [owns_whole]; iexact HS
  isplitr [Hp]; swap; · iexact Hp
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hb8]; · iexact Hb8
  isplitl [Hb9]; · iexact Hb9
  isplitl [Hb10]; · iexact Hb10
  isplitl [Hb11]; · iexact Hb11
  isplitl [Hb12]; · iexact Hb12
  iexact Hb13

/-- and takes it back at any contents. -/
theorem PhiA_close2 (c : Dev nD) : iprop((∃ d, owns (c : Thread nD τ) scM2 fullShare d) ∗ rest2 (F := F) c ∗ (∃ r, prngReg c r)) ⊢ (Pipeline.ΦA spec2 c : sProp 𝕄) := by
  unfold Pipeline.ΦA rest2; rw [scopedRest2_eq]; simp only [owns_whole]
  iintro ⟨⟨%d, HS⟩, ⟨Hb0, Hb1, Hb2, Hb3, Hb4, Hb5, Hb6, Hb7, Hb8, Hb9, Hb10, Hb11, Hb12, Hb13⟩, Hp⟩
  isplitr [Hp]; swap; · iexact Hp
  ·
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    (iexists d; iexact HS)

/-- The invariant before position `n`: before the first point the class's; afterwards the accumulator at what the point before left, the rest and the generator register at some state. -/
def PhiS2 (c : Dev nD) : (n : ℕ) → n ≤ cfg2.N → sProp 𝕄
  | 0, _ => Pipeline.ΦA spec2 c
  | n + 1, hn => iprop(owns (c : Thread nD τ) scM2 fullShare (accAt2 V c n hn) ∗ rest2 (F := F) c ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2 fullShare (accAt2 V c n hn) ∗ rest2 (F := F) c ∗ (∃ r, prngReg c r)) := rfl
theorem PhiS2_pos (c : Dev nD) (n : ℕ) (h : n ≤ cfg2.N) (hz : n ≠ 0) :
    PhiS2 V c n h = iprop(owns (c : Thread nD τ) scM2 fullShare (accAt2 V c (n - 1) (by omega)) ∗ rest2 (F := F) c ∗ (∃ r, prngReg c r)) := by
  cases n with
  | zero => exact absurd rfl hz
  | succ n => rfl

/-- At any position the invariant yields the accumulator's buffer at some contents beside the rest. -/
theorem PhiS2_open (c : Dev nD) (n : ℕ) (h : n ≤ cfg2.N) :
    PhiS2 V c n h ⊢ iprop((∃ d, owns (c : Thread nD τ) scM2 fullShare d) ∗ rest2 (F := F) c ∗ (∃ r, prngReg c r)) := by
  cases n with
  | zero => exact PhiA_open2 c
  | succ n =>
    rw [PhiS2_succ]
    iintro ⟨HS, Hr, Hg⟩
    isplitl [HS]; · iexists _; iexact HS
    isplitl [Hr]; · iexact Hr
    iexact Hg

/-! ## The proof data -/

/-- The proof data of the call on core `c`: the arrays as the call finds them; after the body at point `t` each input's
    buffer at its tile and the output's at the masked accumulator; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (accAt2 V c t.val t.isLt)
  Φ t := PhiS2 V c t.val (Nat.le_of_lt_succ t.isLt)
  q w := match w with
    | ⟨0, _⟩ => fullShare
    | ⟨1, _⟩ => fullShare
    | ⟨2, _⟩ => fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay1 (accAt2 V c t.val t.isLt) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

abbrev ms2_0 (t : Fin cfg2.N) : Memref sig .tc .vmem S2048x64 .f32 := win2_0.stage (cfg2.slots t 0)
abbrev ms2_1 (t : Fin cfg2.N) : Memref sig .tc .vmem S512x64 .f32 := win2_1.stage (cfg2.slots t 1)
abbrev ms2_2 (t : Fin cfg2.N) : Memref sig .tc .vmem S1x1x128 .f32 := win2_2.stage (cfg2.slots t 2)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their tiles; the point's position among the 16 column blocks says
    which case it is in; the invariant hands the accumulator over at what the point before left (at anything where the
    body resets it first) and takes it back at this point's value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 64 := lt_of_lt_of_eq t.isLt (show cfg2.N = 64 from N_2)
  rw [PhiS2_castSucc V c t]
  by_cases h0 : t.val % 16 = 0
  · have h1 : ¬t.val % 16 = 15 := by omega
    have hc0 : condFirst2 (grid2.coords t) := (hcondFirst2 t).mpr h0
    have hc1 : ¬condLast2 (grid2.coords t) := fun h => h1 ((hcondLast2 t).mp h)
    rw [Dat.leavesExact_idle (dat2 V c) 2 t (idleAt2_2 t hc1) (noFlush2_2 t hc1)]
    rw [accAt2_first V c t h0]
    iintro ⟨HΦ, Ho, ⟨%d0, H0⟩, ⟨%d1, H1⟩, ⟨%d2, H2⟩⟩
    ihave HΦ' := (PhiS2_open V c t.val (Nat.le_of_lt t.isLt)) $$ HΦ
    icases HΦ' with ⟨HS, Hr, Hg⟩
    iapply ((runFirst2 c (grid2.coords t) _ _ _ _ _ _ _ _ hc0 hc1 (iblk2 V c 0 t) (iblk2 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hr Hg]
    · isplitl [HS]
      · unfold owns; iexists _; isplitr
        swap; · iexact HS
        ipureintro
        exact (View.read_writes_of_cover _ _ _ _ _ (scoverFirst2 c _ _ _ _ _ _ _ _ _ hc0 hc1 _ _)).trans (accFirst2_eq c _ _ _ _ _ _ _ _ _ hc0 hc1 _ _)
      isplitl [Hr]; · iexact Hr
      iexact Hg
    isplitl [Ho]; · iexact Ho
    isplitl [H0]; · iexact H0
    isplitl [H1]; · iexact H1
    iexists _; iexact H2
  · have hz : t.val ≠ 0 := fun h => h0 (by rw [h])
    have hc0 : ¬condFirst2 (grid2.coords t) := fun h => h0 ((hcondFirst2 t).mp h)
    rw [PhiS2_pos V c _ _ hz, accAt2_next V c t h0]
    by_cases h1 : t.val % 16 = 15
    · have hc1 : condLast2 (grid2.coords t) := (hcondLast2 t).mpr h1
      rw [show (dat2 V c).leavesExact 2 t = owns (c : Thread nD τ) (ms2_2 t) fullShare ((dat2 V c).after 2 t) from by
        unfold Dat.leavesExact; rw [liveAt2_2 t hc1], after2_2, accAt2_next V c t h0]
      iintro ⟨⟨HS, Hr, Hg⟩, Ho, ⟨%d0, H0⟩, ⟨%d1, H1⟩, ⟨%d2, H2⟩⟩
      iapply ((runLast2 c (grid2.coords t) _ _ _ _ _ _ _ _ hc0 hc1 (iblk2 V c 0 t) (iblk2 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS]
        · unfold owns; iexists _; isplitr
          swap; · iexact HS
          ipureintro
          exact (View.read_writes_of_cover _ _ _ _ _ (scoverLast2 c _ _ _ _ _ _ _ _ _ hc0 hc1 _ _ _)).trans (accLast2_eq c _ _ _ _ _ _ _ _ _ hc0 hc1 _ _ _)
        isplitl [Hr]; · iexact Hr
        iexact Hg
      isplitl [Ho]; · iexact Ho
      isplitl [H0]; · iexact H0
      isplitl [H1]; · iexact H1
      unfold owns; iexists _; isplitr
      swap; · iexact H2
      ipureintro
      exact (View.read_writes_of_cover _ _ _ _ _ (coverLast2 c _ _ _ _ _ _ _ _ _ hc0 hc1 _ _ _)).trans (outLast2_eq c _ _ _ _ _ _ _ _ _ hc0 hc1 _ _ _)
    · have hc1 : ¬condLast2 (grid2.coords t) := fun h => h1 ((hcondLast2 t).mp h)
      rw [Dat.leavesExact_idle (dat2 V c) 2 t (idleAt2_2 t hc1) (noFlush2_2 t hc1)]
      iintro ⟨⟨HS, Hr, Hg⟩, Ho, ⟨%d0, H0⟩, ⟨%d1, H1⟩, ⟨%d2, H2⟩⟩
      iapply ((runMid2 c (grid2.coords t) _ _ _ _ _ _ _ _ hc0 hc1 (iblk2 V c 0 t) (iblk2 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS]
        · unfold owns; iexists _; isplitr
          swap; · iexact HS
          ipureintro
          exact (View.read_writes_of_cover _ _ _ _ _ (scoverMid2 c _ _ _ _ _ _ _ _ _ hc0 hc1 _ _ _)).trans (accMid2_eq c _ _ _ _ _ _ _ _ _ hc0 hc1 _ _ _)
        isplitl [Hr]; · iexact Hr
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point, -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- and after the last point the invariant gives it back, the accumulator's value forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl]
  exact (PhiS2_open V c _ _).trans (PhiA_close2 c)

end Region

end Cert.KernelIdeal.Body

end
-- ==== Proof.SharedArrays.lean ====
import proofs.«175880_j29377576305361_2_alg».proof.Proof.Gen.KernelIdeal.Launch
import Idealize.ShloMosaic.Lib.Pipeline.RegionsLoop
import Idealize.ShloMosaic.Lib.Pipeline.Regions

noncomputable section

namespace Cert.KernelIdeal.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's unscoped buffers at contents `V` are the buffers behind the windows' arrays and the rest, whether or not
    two windows share an array. -/
theorem split_gen {gr W : Nat} (win : Fin W → Pipeline.WinSpec sig gr) (hunscoped : ∀ w, (Pipeline.arrRef win w).isScoped = false)
    (c : Dev nD) (V : (b : Ref sig .tc) → Buf (Elt F) ((c : Thread nD τ).loc b)) :
    (unscopedBufs c V : sProp 𝕄)
      = iprop((Pipeline.arrBufs (Ix := Unit) (Name := ℕ) (U := UR sig nD τ) (Lvl := ℕ) win c V : sProp 𝕄)
          ∗ Pipeline.unscopedRest (Ix := Unit) (Name := ℕ) (U := UR sig nD τ) (Lvl := ℕ) win c V) := by
  classical
  have hA : Finset.univ.image (Pipeline.arrRef win) ⊆ Finset.univ.filter fun b : Ref sig .tc => ¬ b.isScoped := fun b hb => by
    obtain ⟨w, -, rfl⟩ := Finset.mem_image.mp hb
    exact Finset.mem_filter.mpr ⟨Finset.mem_univ _, by simp [hunscoped w]⟩
  unfold unscopedBufs Pipeline.unscopedRest Pipeline.arrBufs
  rw [bigSep_sdiff_split hA]
  rfl

/-! ## Pipeline 0: windows 0 and 1 read `main_arg0` -/

/-- The buffers behind pipeline 0's arrays: windows 0 and 1 both read `main_arg0`, window 2 writes `main_v0`. -/
theorem image0 : Finset.univ.image (Pipeline.arrRef spec0) = {main_arg0, main_v0} := by decide

/-- The buffers behind pipeline 0's arrays, each whole at the full share, one by one. -/
theorem arrBufs0 (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0) ↦{fullShare} V main_v0)) := by
  unfold Pipeline.arrBufs
  rw [image0, bigSep_insert (by decide), bigSep_singleton]
  rfl

/-- Pipeline 0's arrays one by one: every array is a whole buffer; the input windows hold their shares `q`, the output the full share. -/
theorem arrays0 (c : Dev nD) (dat : Pipeline.Dat τ (Elt F) Unit ℕ (UR sig nD τ) ℕ cfg0 c)
    (Fc : (w : Fin cfg0.W) → Buf (Elt F) ((cfg0.win w).arr.view.loc (c : Thread nD τ))) :
    (dat.arrays Fc : sProp 𝕄)
      = iprop((((c : Thread nD τ).loc main_arg0) ↦{dat.q 0} Fc 0) ∗ (((c : Thread nD τ).loc main_arg0) ↦{dat.q 1} Fc 1)
          ∗ (((c : Thread nD τ).loc main_v0) ↦{fullShare} Fc 2)) := by
  unfold Pipeline.Dat.arrays
  rw [Gen.bigSep_W0]
  rw [(Gen.arr_whole0 0).set_eq_univ, (Gen.arr_whole0 2).set_eq_univ]
  rfl

/-- ENTRY for pipeline 0, whose two input windows read one argument: the core's unscoped buffers at contents `V` are
    the pipeline's arrays at the entry contents — the shared argument's full share split into its left half for window 0
    and its right half for window 1, the output's array at the full share — and the unscoped rest. -/
theorem entry0 (c : Dev nD) (dat : Pipeline.Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b)) (hA : ∀ w, dat.A w = V (Pipeline.arrRef spec0 w)) :
    (unscopedBufs c V : sProp 𝕄)
      ⊢ iprop(dat.arrays (dat.arrAt · 0) ∗ Pipeline.unscopedRest (Ix := Unit) (Name := ℕ) (U := UR sig nD τ) (Lvl := ℕ) spec0 c V) := by
  rw [split_gen spec0 Gen.winFacts₀0.arr_unscoped c V, arrBufs0, arrays0, hq0, hq1]
  rw [show dat.arrAt 0 0 = V main_arg0 from hA 0, show dat.arrAt 1 0 = V main_arg0 from hA 1, show dat.arrAt 2 0 = V main_v0 from hA 2]
  refine sep_mono ?_ .rfl
  iintro ⟨Ha, Hv⟩
  ihave Ha := (pointsTo_share (PosShare.mem_left_op_right fullShare)).1 $$ Ha
  icases Ha with ⟨H1, H2⟩
  isplitl [H1]; · iexact H1
  isplitl [H2]; · iexact H2
  iexact Hv

/-- EXIT for pipeline 0: the pipeline's arrays at contents `Fc` — windows 0 and 1 holding the two halves of the shared
    argument at the same contents — and the unscoped rest at `V` are the core's unscoped buffers at any valuation `V'`
    that has the arrays at `Fc` and agrees with `V` off them: the two halves join back into the full share. -/
theorem exit0 (c : Dev nD) (dat : Pipeline.Dat τ (Elt F) Unit ℕ (UR sig nD τ) ℕ cfg0 c)
    (hq0 : dat.q 0 = fullShare.left) (hq1 : dat.q 1 = fullShare.right)
    (V V' : (b : Ref sig .tc) → Buf (Elt F) ((c : Thread nD τ).loc b))
    (Fc : (w : Fin cfg0.W) → Buf (Elt F) ((cfg0.win w).arr.view.loc (c : Thread nD τ)))
    (hF : ∀ w, Fc w = V' (Pipeline.arrRef spec0 w))
    (hrest : ∀ b, b ∉ Finset.univ.image (Pipeline.arrRef spec0) → V' b = V b) :
    iprop(dat.arrays Fc ∗ Pipeline.unscopedRest (Ix := Unit) (Name := ℕ) (U := UR sig nD τ) (Lvl := ℕ) spec0 c V)
      ⊢ (unscopedBufs c V' : sProp 𝕄) := by
  rw [split_gen spec0 Gen.winFacts₀0.arr_unscoped c V', arrBufs0, arrays0, hq0, hq1]
  rw [show Fc 0 = V' main_arg0 from hF 0, show Fc 1 = V' main_arg0 from hF 1, show Fc 2 = V' main_v0 from hF 2]
  refine sep_mono ?_ (Entails.of_eq ?_)
  · iintro ⟨H1, H2, Hv⟩
    isplitl [H1 H2]
    · iapply (pointsTo_share (PosShare.mem_left_op_right fullShare)).2
      isplitl [H1]; · iexact H1
      iexact H2
    iexact Hv
  · unfold Pipeline.unscopedRest
    exact bigSep_congr fun b hb => by rw [hrest b (Finset.mem_sdiff.mp hb).2]

/-! ## Pipeline 1: windows 0 and 1 read `main_arg1` -/

/-- The buffers behind pipeline 1's arrays: windows 0 and 1 both read `main_arg1`, window 2 writes `main_v5`. -/
theorem image1 : Finset.univ.image (Pipeline.arrRef spec1) = {main_arg1, main_v5} := by decide

/-- The buffers behind pipeline 1's arrays, each whole at the full share, one by one. -/
theorem arrBufs1 (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v5) ↦{fullShare} V main_v5)) := by
  unfold Pipeline.arrBufs
  rw [image1, bigSep_insert (by decide), bigSep_singleton]
  rfl

/-- Pipeline 1's arrays one by one: every array is a whole buffer; the input windows hold their shares `q`, the output the full share. -/
theorem arrays1 (c : Dev nD) (dat : Pipeline.Dat τ (Elt F) Unit ℕ (UR sig nD τ) ℕ cfg1 c)
    (Fc : (w : Fin cfg1.W) → Buf (Elt F) ((cfg1.win w).arr.view.loc (c : Thread nD τ))) :
    (dat.arrays Fc : sProp 𝕄)
      = iprop((((c : Thread nD τ).loc main_arg1) ↦{dat.q 0} Fc 0) ∗ (((c : Thread nD τ).loc main_arg1) ↦{dat.q 1} Fc 1)
          ∗ (((c : Thread nD τ).loc main_v5) ↦{fullShare} Fc 2)) := by
  unfold Pipeline.Dat.arrays
  rw [Gen.bigSep_W1]
  rw [(Gen.arr_whole1 0).set_eq_univ, (Gen.arr_whole1 2).set_eq_univ]
  rfl

/-- ENTRY for pipeline 1, whose two input windows read one argument: the core's unscoped buffers at contents `V` are
    the pipeline's arrays at the entry contents — the shared argument's full share split into its left half for window 0
    and its right half for window 1, the output's array at the full share — and the unscoped rest. -/
theorem entry1 (c : Dev nD) (dat : Pipeline.Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b)) (hA : ∀ w, dat.A w = V (Pipeline.arrRef spec1 w)) :
    (unscopedBufs c V : sProp 𝕄)
      ⊢ iprop(dat.arrays (dat.arrAt · 0) ∗ Pipeline.unscopedRest (Ix := Unit) (Name := ℕ) (U := UR sig nD τ) (Lvl := ℕ) spec1 c V) := by
  rw [split_gen spec1 Gen.winFacts₀1.arr_unscoped c V, arrBufs1, arrays1, hq0, hq1]
  rw [show dat.arrAt 0 0 = V main_arg1 from hA 0, show dat.arrAt 1 0 = V main_arg1 from hA 1, show dat.arrAt 2 0 = V main_v5 from hA 2]
  refine sep_mono ?_ .rfl
  iintro ⟨Ha, Hv⟩
  ihave Ha := (pointsTo_share (PosShare.mem_left_op_right fullShare)).1 $$ Ha
  icases Ha with ⟨H1, H2⟩
  isplitl [H1]; · iexact H1
  isplitl [H2]; · iexact H2
  iexact Hv

/-- EXIT for pipeline 1: the pipeline's arrays at contents `Fc` — windows 0 and 1 holding the two halves of the shared
    argument at the same contents — and the unscoped rest at `V` are the core's unscoped buffers at any valuation `V'`
    that has the arrays at `Fc` and agrees with `V` off them: the two halves join back into the full share. -/
theorem exit1 (c : Dev nD) (dat : Pipeline.Dat τ (Elt F) Unit ℕ (UR sig nD τ) ℕ cfg1 c)
    (hq0 : dat.q 0 = fullShare.left) (hq1 : dat.q 1 = fullShare.right)
    (V V' : (b : Ref sig .tc) → Buf (Elt F) ((c : Thread nD τ).loc b))
    (Fc : (w : Fin cfg1.W) → Buf (Elt F) ((cfg1.win w).arr.view.loc (c : Thread nD τ)))
    (hF : ∀ w, Fc w = V' (Pipeline.arrRef spec1 w))
    (hrest : ∀ b, b ∉ Finset.univ.image (Pipeline.arrRef spec1) → V' b = V b) :
    iprop(dat.arrays Fc ∗ Pipeline.unscopedRest (Ix := Unit) (Name := ℕ) (U := UR sig nD τ) (Lvl := ℕ) spec1 c V)
      ⊢ (unscopedBufs c V' : sProp 𝕄) := by
  rw [split_gen spec1 Gen.winFacts₀1.arr_unscoped c V', arrBufs1, arrays1, hq0, hq1]
  rw [show Fc 0 = V' main_arg1 from hF 0, show Fc 1 = V' main_arg1 from hF 1, show Fc 2 = V' main_v5 from hF 2]
  refine sep_mono ?_ (Entails.of_eq ?_)
  · iintro ⟨H1, H2, Hv⟩
    isplitl [H1 H2]
    · iapply (pointsTo_share (PosShare.mem_left_op_right fullShare)).2
      isplitl [H1]; · iexact H1
      iexact H2
    iexact Hv
  · unfold Pipeline.unscopedRest
    exact bigSep_congr fun b hb => by rw [hrest b (Finset.mem_sdiff.mp hb).2]

end Cert.KernelIdeal.Shared
-- ==== Proof.FrameI.lean ====
/-
  The whole program: three pallas_calls, each followed by a short stretch of host operations. The contents of the
  core's unscoped buffers at each boundary are named in order from the launch memory: a call changes only its output's
  array, to what its write-backs leave; a host stretch is the fold of its operations. Each call is a segment entered at
  the contents before it and left at the contents after it, and every weakly fair execution of the program ends with
  every unscoped buffer at the last contents.
-/
import proofs.«175880_j29377576305361_2_alg».proof.Proof.Gen.KernelIdeal.Launch
import proofs.«175880_j29377576305361_2_alg».proof.Proof.Gen.KernelIdeal.Skeleton
import proofs.«175880_j29377576305361_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«175880_j29377576305361_2_alg».proof.Proof.Region0
import proofs.«175880_j29377576305361_2_alg».proof.Proof.Region1
import proofs.«175880_j29377576305361_2_alg».proof.Proof.Region2
import proofs.«175880_j29377576305361_2_alg».proof.Proof.Gen.KernelIdeal.Regions
import proofs.«175880_j29377576305361_2_alg».proof.Proof.SharedArrays

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev W0 : Dev nD → Valuation τ sig (Elt F) := fun c b => m (c, b)
abbrev VV0 : (c : Dev nD) → (b : Ref sig .tc) → Buf (Elt F) ((c : Thread nD τ).loc b) := fun c b => W0 m c b
/-- After call 0: its output's array at what the write-backs leave. -/
def W1 (c : Dev nD) : Valuation τ sig (Elt F) :=
  Function.update (W0 m c) (Proc.devRef .tc main_v0) ((dat0 (VV0 m) c).arrAt 2 cfg0.N)
abbrev VV1 : (c : Dev nD) → (b : Ref sig .tc) → Buf (Elt F) ((c : Thread nD τ).loc b) := fun c b => W1 m c b
/-- After the first host stretch. -/
abbrev W2 : Dev nD → Valuation τ sig (Elt F) := fun c => StableHlo.after hostOps1 (W1 m c)
abbrev VV2 : (c : Dev nD) → (b : Ref sig .tc) → Buf (Elt F) ((c : Thread nD τ).loc b) := fun c b => W2 m c b
/-- After call 1. -/
def W3 (c : Dev nD) : Valuation τ sig (Elt F) :=
  Function.update (W2 m c) (Proc.devRef .tc main_v5) ((dat1 (VV2 m) c).arrAt 2 cfg1.N)
abbrev VV3 : (c : Dev nD) → (b : Ref sig .tc) → Buf (Elt F) ((c : Thread nD τ).loc b) := fun c b => W3 m c b
/-- After the second host stretch. -/
abbrev W4 : Dev nD → Valuation τ sig (Elt F) := fun c => StableHlo.after hostOps2 (W3 m c)
abbrev VV4 : (c : Dev nD) → (b : Ref sig .tc) → Buf (Elt F) ((c : Thread nD τ).loc b) := fun c b => W4 m c b
/-- After call 2. -/
def W5 (c : Dev nD) : Valuation τ sig (Elt F) :=
  Function.update (W4 m c) (Proc.devRef .tc main_v10) ((dat2 (VV4 m) c).arrAt 2 cfg2.N)
abbrev VV5 : (c : Dev nD) → (b : Ref sig .tc) → Buf (Elt F) ((c : Thread nD τ).loc b) := fun c b => W5 m c b
/-- After the last host stretch: the end. -/
abbrev W6 : Dev nD → Valuation τ sig (Elt F) := fun c => StableHlo.after hostOps3 (W5 m c)

/-! ## The proof data family and what rides along -/

/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (VV0 m) c
  | ⟨1, _⟩ => fun c => dat1 (VV2 m) c
  | ⟨2, _⟩ => fun c => dat2 (VV4 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)

/-! ## The calls as segments -/

/-- What call 0 is entered with splits into its windows' arrays and the bypassing buffers, -/
theorem hsplit0 (c : Dev nD) : (unscopedBufs c (VV0 m c) : sProp 𝕄)
    ⊢ iprop((pdats m 0 c).arrays ((pdats m 0 c).arrAt · 0) ∗ Pipeline.unscopedRest (Ix := Unit) (Name := ℕ) (U := UR sig nD τ) (Lvl := ℕ) spec0 c (VV0 m c)) :=
  Shared.entry0 c (pdats m 0 c) rfl rfl (VV0 m c) fun _ => rfl

/-- The output's array after the call: every other buffer as entered. -/
theorem hF0 (c : Dev nD) (w : Fin cfg0.W) : (pdats m 0 c).arrAt w cfg0.N = VV1 m c (Pipeline.arrRef spec0 w) := by
  fin_cases w
  · exact ((pdats m 0 c).arrAt_in 0 rfl _).trans (by
      show VV0 m c (Pipeline.arrRef spec0 0) = W1 m c (Proc.devRef .tc (Pipeline.arrRef spec0 0))
      unfold W1
      rw [Function.update_of_ne (StableHlo.devRef_ne_of_ne (by decide))])
  · exact ((pdats m 0 c).arrAt_in 1 rfl _).trans (by
      show VV0 m c (Pipeline.arrRef spec0 1) = W1 m c (Proc.devRef .tc (Pipeline.arrRef spec0 1))
      unfold W1
      rw [Function.update_of_ne (StableHlo.devRef_ne_of_ne (by decide))])
  · show _ = W1 m c (Proc.devRef .tc main_v0)
    unfold W1
    rw [Function.update_self]
    rfl
theorem hrest0 (c : Dev nD) : ∀ b, b ∉ Finset.univ.image (Pipeline.arrRef spec0) → VV1 m c b = VV0 m c b := by
  intro b hb
  show W1 m c (Proc.devRef .tc b) = W0 m c (Proc.devRef .tc b)
  unfold W1
  rw [Function.update_of_ne (StableHlo.devRef_ne_of_ne (fun h => hb (by rw [h]; exact Finset.mem_image.mpr ⟨2, Finset.mem_univ _, rfl⟩)))]

/-- and what it leaves joins back into the core's buffers at the contents after it. -/
theorem hjoin0 (c : Dev nD) : iprop((pdats m 0 c).arrays ((pdats m 0 c).arrAt · cfg0.N) ∗ Pipeline.unscopedRest (Ix := Unit) (Name := ℕ) (U := UR sig nD τ) (Lvl := ℕ) spec0 c (VV0 m c))
    ⊢ (unscopedBufs c (VV1 m c) : sProp 𝕄) :=
  Shared.exit0 c (pdats m 0 c) rfl rfl (VV0 m c) (VV1 m c) ((pdats m 0 c).arrAt · cfg0.N) (hF0 m c) (hrest0 m c)

set_option backward.isDefEq.respectTransparency.types false in
/-- Call 0 as a segment of the program: entered from every unscoped buffer at the contents before it, left at the
    contents after it; its arrays split out and put back; the generator register lent to the invariant and returned;
    nothing owed; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := hsplit0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h2 : (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (VV0 m) c).trans h2
  hexit c := by
    have hjoin := hjoin0 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What call 1 is entered with splits into its windows' arrays and the bypassing buffers, -/
theorem hsplit1 (c : Dev nD) : (unscopedBufs c (VV2 m c) : sProp 𝕄)
    ⊢ iprop((pdats m 1 c).arrays ((pdats m 1 c).arrAt · 0) ∗ Pipeline.unscopedRest (Ix := Unit) (Name := ℕ) (U := UR sig nD τ) (Lvl := ℕ) spec1 c (VV2 m c)) :=
  Shared.entry1 c (pdats m 1 c) rfl rfl (VV2 m c) fun _ => rfl

/-- The output's array after the call: every other buffer as entered. -/
theorem hF1 (c : Dev nD) (w : Fin cfg1.W) : (pdats m 1 c).arrAt w cfg1.N = VV3 m c (Pipeline.arrRef spec1 w) := by
  fin_cases w
  · exact ((pdats m 1 c).arrAt_in 0 rfl _).trans (by
      show VV2 m c (Pipeline.arrRef spec1 0) = W3 m c (Proc.devRef .tc (Pipeline.arrRef spec1 0))
      unfold W3
      rw [Function.update_of_ne (StableHlo.devRef_ne_of_ne (by decide))])
  · exact ((pdats m 1 c).arrAt_in 1 rfl _).trans (by
      show VV2 m c (Pipeline.arrRef spec1 1) = W3 m c (Proc.devRef .tc (Pipeline.arrRef spec1 1))
      unfold W3
      rw [Function.update_of_ne (StableHlo.devRef_ne_of_ne (by decide))])
  · show _ = W3 m c (Proc.devRef .tc main_v5)
    unfold W3
    rw [Function.update_self]
    rfl
theorem hrest1 (c : Dev nD) : ∀ b, b ∉ Finset.univ.image (Pipeline.arrRef spec1) → VV3 m c b = VV2 m c b := by
  intro b hb
  show W3 m c (Proc.devRef .tc b) = W2 m c (Proc.devRef .tc b)
  unfold W3
  rw [Function.update_of_ne (StableHlo.devRef_ne_of_ne (fun h => hb (by rw [h]; exact Finset.mem_image.mpr ⟨2, Finset.mem_univ _, rfl⟩)))]

/-- and what it leaves joins back into the core's buffers at the contents after it. -/
theorem hjoin1 (c : Dev nD) : iprop((pdats m 1 c).arrays ((pdats m 1 c).arrAt · cfg1.N) ∗ Pipeline.unscopedRest (Ix := Unit) (Name := ℕ) (U := UR sig nD τ) (Lvl := ℕ) spec1 c (VV2 m c))
    ⊢ (unscopedBufs c (VV3 m c) : sProp 𝕄) :=
  Shared.exit1 c (pdats m 1 c) rfl rfl (VV2 m c) (VV3 m c) ((pdats m 1 c).arrAt · cfg1.N) (hF1 m c) (hrest1 m c)

set_option backward.isDefEq.respectTransparency.types false in
/-- Call 1 as a segment of the program: entered from every unscoped buffer at the contents before it, left at the
    contents after it; its arrays split out and put back; the generator register lent to the invariant and returned;
    nothing owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := hsplit1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (VV2 m) c).trans h2
  hexit c := by
    have hjoin := hjoin1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What call 2 is entered with splits into its windows' arrays and the bypassing buffers, -/
theorem hsplit2 (c : Dev nD) : (unscopedBufs c (VV4 m c) : sProp 𝕄)
    ⊢ iprop((pdats m 2 c).arrays ((pdats m 2 c).arrAt · 0) ∗ Pipeline.unscopedRest (Ix := Unit) (Name := ℕ) (U := UR sig nD τ) (Lvl := ℕ) spec2 c (VV4 m c)) :=
  Pipeline.arrays_of_unscopedBufs (p := 2) (pcfgs (F := F)) adm (pdats m) launch2.win launch2.arr_whole c ((pdats m 2 c).share_full fun w => by fin_cases w <;> rfl) (VV4 m c) fun _ => rfl

/-- The output's array after the call: every other buffer as entered. -/
theorem hF2 (c : Dev nD) (w : Fin cfg2.W) : (pdats m 2 c).arrAt w cfg2.N = VV5 m c (Pipeline.arrRef spec2 w) := by
  fin_cases w
  · exact ((pdats m 2 c).arrAt_in 0 rfl _).trans (by
      show VV4 m c (Pipeline.arrRef spec2 0) = W5 m c (Proc.devRef .tc (Pipeline.arrRef spec2 0))
      unfold W5
      rw [Function.update_of_ne (StableHlo.devRef_ne_of_ne (by decide))])
  · exact ((pdats m 2 c).arrAt_in 1 rfl _).trans (by
      show VV4 m c (Pipeline.arrRef spec2 1) = W5 m c (Proc.devRef .tc (Pipeline.arrRef spec2 1))
      unfold W5
      rw [Function.update_of_ne (StableHlo.devRef_ne_of_ne (by decide))])
  · show _ = W5 m c (Proc.devRef .tc main_v10)
    unfold W5
    rw [Function.update_self]
    rfl
theorem hrest2 (c : Dev nD) : ∀ b, b ∉ Finset.univ.image (Pipeline.arrRef spec2) → VV5 m c b = VV4 m c b := by
  intro b hb
  show W5 m c (Proc.devRef .tc b) = W4 m c (Proc.devRef .tc b)
  unfold W5
  rw [Function.update_of_ne (StableHlo.devRef_ne_of_ne (fun h => hb (by rw [h]; exact Finset.mem_image.mpr ⟨2, Finset.mem_univ _, rfl⟩)))]

/-- and what it leaves joins back into the core's buffers at the contents after it. -/
theorem hjoin2 (c : Dev nD) : iprop((pdats m 2 c).arrays ((pdats m 2 c).arrAt · cfg2.N) ∗ Pipeline.unscopedRest (Ix := Unit) (Name := ℕ) (U := UR sig nD τ) (Lvl := ℕ) spec2 c (VV4 m c))
    ⊢ (unscopedBufs c (VV5 m c) : sProp 𝕄) :=
  Pipeline.unscopedBufs_of_arrays (p := 2) (pcfgs (F := F)) adm (Ix := Unit) (Name := ℕ) (U := UR sig nD τ) (Lvl := ℕ) launch2.win launch2.arr_whole c (pdats m) ((pdats m 2 c).share_full fun w => by fin_cases w <;> rfl) (VV4 m c) (VV5 m c) ((pdats m 2 c).arrAt · cfg2.N) (hF2 m c) (hrest2 m c)

set_option backward.isDefEq.respectTransparency.types false in
/-- Call 2 as a segment of the program: entered from every unscoped buffer at the contents before it, left at the
    contents after it; its arrays split out and put back; the generator register lent to the invariant and returned;
    nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VV4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (VV4 m c)
  hentry c := by
    rw [Pipeline.ownSems0_none]
    have hsplit := hsplit2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h2 : (Pipeline.ΦA spec2 c : sProp 𝕄) ⊢ iprop((∃ r, prngReg c r) ∗ BI.emp ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (VV4 m) c).trans h2
  hexit c := by
    have hjoin := hjoin2 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m c) ∗ ∃ r, prngReg c r)

set_option backward.isDefEq.respectTransparency.types false in
/-- Every weakly fair execution of the program from memory `m` with zero counters terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## No boundary changes an argument -/

/-- A buffer that no call's output and no host stretch writes holds its launch contents at the end. -/
theorem W6_kept (c : Dev nD) (r : Ref sig .tc) (h1 : r ∉ hostOps1_W) (h2 : r ∉ hostOps2_W) (h3 : r ∉ hostOps3_W)
    (n0 : r ≠ main_v0) (n1 : r ≠ main_v5) (n2 : r ≠ main_v10) : W6 m c r = m ((c : Thread nD τ).loc r) := by
  show StableHlo.after hostOps3 (W5 m c) (Proc.devRef .tc r) = _
  rw [StableHlo.after_of_writes_sub hostOps3 _ hostOps3_writes h3]
  unfold W5
  rw [Function.update_of_ne (StableHlo.devRef_ne_of_ne n2)]
  show StableHlo.after hostOps2 (W3 m c) (Proc.devRef .tc r) = _
  rw [StableHlo.after_of_writes_sub hostOps2 _ hostOps2_writes h2]
  unfold W3
  rw [Function.update_of_ne (StableHlo.devRef_ne_of_ne n1)]
  show StableHlo.after hostOps1 (W1 m c) (Proc.devRef .tc r) = _
  rw [StableHlo.after_of_writes_sub hostOps1 _ hostOps1_writes h1]
  unfold W1
  rw [Function.update_of_ne (StableHlo.devRef_ne_of_ne n0)]

/-- THE FRAME: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W6_kept m c main_arg0 (by decide) (by decide) (by decide) (by decide) (by decide) (by decide)),
     (h c _ (mem_uc main_arg1 (by decide))).trans (W6_kept m c main_arg1 (by decide) (by decide) (by decide) (by decide) (by decide) (by decide))⟩)
    (run_all m ρ)

end Cert.KernelIdeal.Body

end
-- ==== Proof.ValueG.lean ====
/-
  The result buffer at the end of the program, read back through the three host stretches: each stretch after a call
  takes lane 0 of the four row blocks of the call's output, sums them from zero and divides by 2^26; the last stretch
  combines the three quotients as (first + second) − 2 · third. Also: the two argument arrays reach every call as
  launched.
-/
import proofs.«175880_j29377576305361_2_alg».proof.Proof.Gen.KernelIdeal.Launch
import proofs.«175880_j29377576305361_2_alg».proof.Proof.Gen.KernelIdeal.Skeleton
import proofs.«175880_j29377576305361_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«175880_j29377576305361_2_alg».proof.Proof.FrameI
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Lane 0 of each of the four row blocks of a call's output, summed from zero, over 2^26. -/
def tailMean (o : (⟨S4x1x128, .f32⟩ : BufTy).Contents (Elt F)) : (⟨S_, .f32⟩ : BufTy).Contents (Elt F) :=
  Host.divf (Host.reduceAdd (shapeCast S4 (extractStridedSlice S4x1x1 ![0, 0, 0] o slices_S4x1x128_S4x1x1_0_0_0) shapeCasts_S4x1x1_S4)
    (constant S_ .f32 0x00000000#32) reducesTo_S4_S_d0 h_S_) (constant S_ .f32 0x4C800000#32)

/-- What call 0, 1, 2 leave in their outputs' arrays. -/
abbrev out0 (c : Dev nD) : (⟨S4x1x128, .f32⟩ : BufTy).Contents (Elt F) := (dat0 (VV0 m) c).arrAt 2 cfg0.N
abbrev out1 (c : Dev nD) : (⟨S4x1x128, .f32⟩ : BufTy).Contents (Elt F) := (dat1 (VV2 m) c).arrAt 2 cfg1.N
abbrev out2 (c : Dev nD) : (⟨S4x1x128, .f32⟩ : BufTy).Contents (Elt F) := (dat2 (VV4 m) c).arrAt 2 cfg2.N

theorem W1_v0 (c : Dev nD) : W1 m c (Proc.devRef .tc main_v0) = out0 m c := by
  unfold W1; rw [Function.update_self]
theorem W3_v5 (c : Dev nD) : W3 m c (Proc.devRef .tc main_v5) = out1 m c := by
  unfold W3; rw [Function.update_self]
theorem W5_v10 (c : Dev nD) : W5 m c (Proc.devRef .tc main_v10) = out2 m c := by
  unfold W5; rw [Function.update_self]

/-- The first stretch leaves the first quotient in `main_v4`. -/
theorem W2_v4 (c : Dev nD) : W2 m c (Proc.devRef .tc main_v4) = tailMean (out0 m c) := by
  rw [← W1_v0]
  show StableHlo.after hostOps1 (W1 m c) (Proc.devRef .tc main_v4) = _
  after_results
  rfl
/-- The second stretch leaves the second quotient in `main_v9`. -/
theorem W4_v9 (c : Dev nD) : W4 m c (Proc.devRef .tc main_v9) = tailMean (out1 m c) := by
  rw [← W3_v5]
  show StableHlo.after hostOps2 (W3 m c) (Proc.devRef .tc main_v9) = _
  after_results
  rfl
/-- A buffer the second stretch and call 1 do not write keeps what the first stretch left. -/
theorem W4_of_W2 (c : Dev nD) (r : Ref sig .tc) (h2 : r ∉ hostOps2_W) (n1 : r ≠ main_v5) : W4 m c r = W2 m c r := by
  show StableHlo.after hostOps2 (W3 m c) (Proc.devRef .tc r) = _
  rw [StableHlo.after_of_writes_sub hostOps2 _ hostOps2_writes h2]
  unfold W3
  rw [Function.update_of_ne (StableHlo.devRef_ne_of_ne n1)]
theorem W5_of_W4 (c : Dev nD) (r : Ref sig .tc) (n2 : r ≠ main_v10) : W5 m c r = W4 m c r := by
  unfold W5
  rw [Function.update_of_ne (StableHlo.devRef_ne_of_ne n2)]
theorem W2_of_W0 (c : Dev nD) (r : Ref sig .tc) (h1 : r ∉ hostOps1_W) (n0 : r ≠ main_v0) : W2 m c r = m ((c : Thread nD τ).loc r) := by
  show StableHlo.after hostOps1 (W1 m c) (Proc.devRef .tc r) = _
  rw [StableHlo.after_of_writes_sub hostOps1 _ hostOps1_writes h1]
  unfold W1
  rw [Function.update_of_ne (StableHlo.devRef_ne_of_ne n0)]

/-- THE RESULT at the end: (first quotient + second quotient) − 2 · third quotient. -/
theorem W6_v17 (c : Dev nD) : W6 m c (Proc.devRef .tc main_v17)
    = subf (addf (tailMean (out0 m c)) (tailMean (out1 m c))) (mulf (constant S_ .f32 0x40000000#32) (tailMean (out2 m c))) := by
  rw [← W2_v4, ← W4_v9, ← W5_v10, ← W4_of_W2 m c main_v4 (by decide) (by decide), ← W5_of_W4 m c main_v4 (by decide), ← W5_of_W4 m c main_v9 (by decide)]
  show StableHlo.after hostOps3 (W5 m c) (Proc.devRef .tc main_v17) = _
  after_results
  rfl

/-- Both arguments reach every call as launched. -/
theorem VV2_arg0 (c : Dev nD) : VV2 m c main_arg0 = m ((c : Thread nD τ).loc main_arg0) := W2_of_W0 m c main_arg0 (by decide) (by decide)
theorem VV2_arg1 (c : Dev nD) : VV2 m c main_arg1 = m ((c : Thread nD τ).loc main_arg1) := W2_of_W0 m c main_arg1 (by decide) (by decide)
theorem VV4_arg0 (c : Dev nD) : VV4 m c main_arg0 = m ((c : Thread nD τ).loc main_arg0) :=
  (W4_of_W2 m c main_arg0 (by decide) (by decide)).trans (VV2_arg0 m c)
theorem VV4_arg1 (c : Dev nD) : VV4 m c main_arg1 = m ((c : Thread nD τ).loc main_arg1) :=
  (W4_of_W2 m c main_arg1 (by decide) (by decide)).trans (VV2_arg1 m c)

end Cert.KernelIdeal.Body

end
-- ==== Proof.OutI.lean ====
/-
  The pallas_calls' windows read at an index: where each input window's block sits in its array at a grid point, and what
  the output's array holds after the run at the first lane of each row block — the masked accumulator of that row
  block's last point.
-/
import proofs.«175880_j29377576305361_2_alg».proof.Proof.Gen.KernelIdeal.Launch
import proofs.«175880_j29377576305361_2_alg».proof.Proof.Gen.KernelIdeal.Skeleton
import proofs.«175880_j29377576305361_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import Idealize.ShloMosaic.Lib.ValueIdx
import proofs.«175880_j29377576305361_2_alg».proof.Proof.Region0
import proofs.«175880_j29377576305361_2_alg».proof.Proof.Region1
import proofs.«175880_j29377576305361_2_alg».proof.Proof.Region2

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## Pallas_call 2 -/

/-- The index maps over the grid of 4 row blocks by 16 column blocks: window 0 moves with the row block, window 1 with the
    column block, the output with the row block. -/
theorem idx2_0 : ∀ t : Fin cfg2.N, win2_0.index t (0 : Fin 2) = t.val / 16 ∧ win2_0.index t (1 : Fin 2) = 0 :=
  (by decide +kernel : ∀ t : Fin grid2.N, _)
theorem idx2_1 : ∀ t : Fin cfg2.N, win2_1.index t (0 : Fin 2) = t.val % 16 ∧ win2_1.index t (1 : Fin 2) = 0 :=
  (by decide +kernel : ∀ t : Fin grid2.N, _)
theorem idx2_2 : ∀ t : Fin cfg2.N, win2_2.index t (0 : Fin 3) = t.val / 16 ∧ win2_2.index t (1 : Fin 3) = 0 ∧ win2_2.index t (2 : Fin 3) = 0 :=
  (by decide +kernel : ∀ t : Fin grid2.N, _)

/-- Row `r` of window 0's block at point `t` is row `2048·(t / 16) + r` of its array. -/
theorem iblk2_0_apply (c : Dev nD) (t : Fin cfg2.N) (r : Fin 2048) (k : Fin 64) :
    iblk2 V c 0 t (ix2 r k)
      = V c (Pipeline.arrRef spec2 0) (ix2 (⟨t.val / 16 * 2048 + r.val, by have := t.isLt; have : cfg2.N = 64 := N_2; have := r.isLt; omega⟩ : Fin 8192) k) := by
  unfold iblk2
  show V c (Pipeline.arrRef spec2 0) (((cfg2.win 0).blk t).view.emb (ix2 r k)) = _
  refine congrArg _ (funext fun a => Fin.ext ?_)
  obtain ⟨e0, e1⟩ := idx2_0 t
  match a with
  | ⟨0, _⟩ => show win2_0.index t (0 : Fin 2) * 2048 + 1 * r.val = t.val / 16 * 2048 + r.val; omega
  | ⟨1, _⟩ => show win2_0.index t (1 : Fin 2) * 64 + 1 * k.val = k.val; omega

/-- Row `s` of window 1's block at point `t` is row `512·(t % 16) + s` of its array. -/
theorem iblk2_1_apply (c : Dev nD) (t : Fin cfg2.N) (s : Fin 512) (k : Fin 64) :
    iblk2 V c 1 t (ix2 s k)
      = V c (Pipeline.arrRef spec2 1) (ix2 (⟨t.val % 16 * 512 + s.val, by have := s.isLt; omega⟩ : Fin 8192) k) := by
  unfold iblk2
  show V c (Pipeline.arrRef spec2 1) (((cfg2.win 1).blk t).view.emb (ix2 s k)) = _
  refine congrArg _ (funext fun a => Fin.ext ?_)
  obtain ⟨e0, e1⟩ := idx2_1 t
  match a with
  | ⟨0, _⟩ => show win2_1.index t (0 : Fin 2) * 512 + 1 * s.val = t.val % 16 * 512 + s.val; omega
  | ⟨1, _⟩ => show win2_1.index t (1 : Fin 2) * 64 + 1 * k.val = k.val; omega

/-- The accumulator's value depends on the point alone, not on how its bound is proved. -/
theorem accAt2_congr (c : Dev nD) {n n' : ℕ} (h : n = n') (hn : n < cfg2.N) (hn' : n' < cfg2.N) :
    accAt2 V c n hn = accAt2 V c n' hn' := by subst h; rfl

/-- The output's array as one function of its index: at row block `i 0`, the masked accumulator after that row block's
    last column block, point `16·(i 0) + 15`, read at lane `i 2`. -/
def G2 (c : Dev nD) : S4x1x128.Idx → Elt F .f32 := fun i =>
  k2_pay1 (accAt2 V c (16 * (i 0).val + 15) (by have : (i 0).val < 4 := (i 0).isLt; have : cfg2.N = 64 := N_2; omega))
    (ix3 (0 : Fin 1) (0 : Fin 1) (⟨(i 2).val, (i 2).isLt⟩ : Fin 128))

/-- What a point that writes the output back writes is its block of that function: the point is the last of its row
    block. -/
theorem flushed2_eq (c : Dev nD) (t : Fin cfg2.N) (hf : (cfg2.win 2).flush t = true) :
    (dat2 V c).flushed 2 t = ((cfg2.win 2).blk t).view.read (Elt F) (G2 V c) := by
  show (cfg2.win 2).cut (grid2.coords t) ((dat2 V c).after 2 t) = _
  rw [after2_2]
  have h15 : t.val % 16 = 15 := (flush2_2 t).mp hf
  obtain ⟨e0, e1, e2⟩ := idx2_2 t
  funext j
  have hj0 : (j 0).val < 1 := (j 0).isLt
  have hj1 : (j 1).val < 1 := (j 1).isLt
  have hA : 16 * ((((cfg2.win 2).blk t).view.emb j) 0).val + 15 = t.val := by
    show 16 * (win2_2.index t (0 : Fin 3) * 1 + 1 * (j 0).val) + 15 = t.val
    omega
  have hB : (ix3 (0 : Fin 1) (0 : Fin 1) (⟨((((cfg2.win 2).blk t).view.emb j) 2).val, ((((cfg2.win 2).blk t).view.emb j) 2).isLt⟩ : Fin 128) : S1x1x128.Idx)
      = (cfg2.win 2).xinj (grid2.coords t) j := by
    funext a; apply Fin.ext
    match a with
    | ⟨0, _⟩ => show 0 = (j 0).val; omega
    | ⟨1, _⟩ => show 0 = (j 1).val; omega
    | ⟨2, _⟩ => show win2_2.index t (2 : Fin 3) * 128 + 1 * (j 2).val = (j 2).val; omega
  have key : ∀ (n : ℕ) (hn : n < cfg2.N) (y : S1x1x128.Idx), n = t.val → y = (cfg2.win 2).xinj (grid2.coords t) j →
      k2_pay1 (accAt2 V c t.val t.isLt) ((cfg2.win 2).xinj (grid2.coords t) j) = k2_pay1 (accAt2 V c n hn) y := by
    intro n hn y h1 h2; subst h1; subst h2; rfl
  exact key _ _ _ hA hB

/-- An index of the output's array is in point `t`'s block iff each coordinate is in the block's range on its axis. -/
theorem mem_blk2_2 (t : Fin cfg2.N) (i : S4x1x128.Idx) :
    i ∈ ((cfg2.win 2).blk t).view.set ↔ ∀ a : Fin 3, win2_2.index t a * S1x1x128.size a ≤ (i a).val ∧ (i a).val < win2_2.index t a * S1x1x128.size a + S1x1x128.size a := by
  show i ∈ ((View.whole main_v10).slice (win2_2.rect t)).set ↔ _
  rw [View.set_slice_whole, Rect.mem_set_unit]
  exact Iff.rfl

/-- THE OUTPUT after the run, at the first lane of row block `bi`: the masked accumulator after point `16·bi + 15`, read at
    lane 0. -/
theorem out2_apply (c : Dev nD) (bi : Fin 4) :
    (dat2 V c).arrAt 2 cfg2.N (ix3 bi (0 : Fin 1) (0 : Fin 128))
      = k2_pay1 (accAt2 V c (16 * bi.val + 15) (by have : cfg2.N = 64 := N_2; omega)) (ix3 (0 : Fin 1) (0 : Fin 1) (0 : Fin 128)) := by
  have hN : cfg2.N = 64 := N_2
  have ht : 16 * bi.val + 15 < cfg2.N := by omega
  have hf : (cfg2.win 2).flush ⟨16 * bi.val + 15, ht⟩ = true := (flush2_2 _).mpr (by show (16 * bi.val + 15) % 16 = 15; omega)
  have hmem : (ix3 bi (0 : Fin 1) (0 : Fin 128) : S4x1x128.Idx) ∈ ((cfg2.win 2).blk ⟨16 * bi.val + 15, ht⟩).view.set := by
    rw [mem_blk2_2]
    obtain ⟨e0, e1, e2⟩ := idx2_2 ⟨16 * bi.val + 15, ht⟩
    have e0' : win2_2.index ⟨16 * bi.val + 15, ht⟩ (0 : Fin 3) = (16 * bi.val + 15) / 16 := e0
    intro a
    match a with
    | ⟨0, _⟩ => show win2_2.index ⟨16 * bi.val + 15, ht⟩ (0 : Fin 3) * 1 ≤ bi.val ∧ bi.val < win2_2.index ⟨16 * bi.val + 15, ht⟩ (0 : Fin 3) * 1 + 1; omega
    | ⟨1, _⟩ => show win2_2.index ⟨16 * bi.val + 15, ht⟩ (1 : Fin 3) * 1 ≤ 0 ∧ 0 < win2_2.index ⟨16 * bi.val + 15, ht⟩ (1 : Fin 3) * 1 + 1; omega
    | ⟨2, _⟩ => show win2_2.index ⟨16 * bi.val + 15, ht⟩ (2 : Fin 3) * 128 ≤ 0 ∧ 0 < win2_2.index ⟨16 * bi.val + 15, ht⟩ (2 : Fin 3) * 128 + 128; omega
  rw [(dat2 V c).arrAt_apply_of_mem 2 (G2 V c) (flushed2_eq V c) cfg2.N ⟨16 * bi.val + 15, ht⟩ _ ht hf hmem]
  rfl

/-! ## Pallas_call 0 -/

/-- The index maps over the grid of 4 row blocks by 16 column blocks: window 0 moves with the row block, window 1 with the
    column block, the output with the row block. -/
theorem idx0_0 : ∀ t : Fin cfg0.N, win0_0.index t (0 : Fin 2) = t.val / 16 ∧ win0_0.index t (1 : Fin 2) = 0 :=
  (by decide +kernel : ∀ t : Fin grid0.N, _)
theorem idx0_1 : ∀ t : Fin cfg0.N, win0_1.index t (0 : Fin 2) = t.val % 16 ∧ win0_1.index t (1 : Fin 2) = 0 :=
  (by decide +kernel : ∀ t : Fin grid0.N, _)
theorem idx0_2 : ∀ t : Fin cfg0.N, win0_2.index t (0 : Fin 3) = t.val / 16 ∧ win0_2.index t (1 : Fin 3) = 0 ∧ win0_2.index t (2 : Fin 3) = 0 :=
  (by decide +kernel : ∀ t : Fin grid0.N, _)

/-- Row `r` of window 0's block at point `t` is row `2048·(t / 16) + r` of its array. -/
theorem iblk0_0_apply (c : Dev nD) (t : Fin cfg0.N) (r : Fin 2048) (k : Fin 64) :
    iblk0 V c 0 t (ix2 r k)
      = V c (Pipeline.arrRef spec0 0) (ix2 (⟨t.val / 16 * 2048 + r.val, by have := t.isLt; have : cfg0.N = 64 := N_0; have := r.isLt; omega⟩ : Fin 8192) k) := by
  unfold iblk0
  show V c (Pipeline.arrRef spec0 0) (((cfg0.win 0).blk t).view.emb (ix2 r k)) = _
  refine congrArg _ (funext fun a => Fin.ext ?_)
  obtain ⟨e0, e1⟩ := idx0_0 t
  match a with
  | ⟨0, _⟩ => show win0_0.index t (0 : Fin 2) * 2048 + 1 * r.val = t.val / 16 * 2048 + r.val; omega
  | ⟨1, _⟩ => show win0_0.index t (1 : Fin 2) * 64 + 1 * k.val = k.val; omega

/-- Row `s` of window 1's block at point `t` is row `512·(t % 16) + s` of its array. -/
theorem iblk0_1_apply (c : Dev nD) (t : Fin cfg0.N) (s : Fin 512) (k : Fin 64) :
    iblk0 V c 1 t (ix2 s k)
      = V c (Pipeline.arrRef spec0 1) (ix2 (⟨t.val % 16 * 512 + s.val, by have := s.isLt; omega⟩ : Fin 8192) k) := by
  unfold iblk0
  show V c (Pipeline.arrRef spec0 1) (((cfg0.win 1).blk t).view.emb (ix2 s k)) = _
  refine congrArg _ (funext fun a => Fin.ext ?_)
  obtain ⟨e0, e1⟩ := idx0_1 t
  match a with
  | ⟨0, _⟩ => show win0_1.index t (0 : Fin 2) * 512 + 1 * s.val = t.val % 16 * 512 + s.val; omega
  | ⟨1, _⟩ => show win0_1.index t (1 : Fin 2) * 64 + 1 * k.val = k.val; omega

/-- The accumulator's value depends on the point alone, not on how its bound is proved. -/
theorem accAt0_congr (c : Dev nD) {n n' : ℕ} (h : n = n') (hn : n < cfg0.N) (hn' : n' < cfg0.N) :
    accAt0 V c n hn = accAt0 V c n' hn' := by subst h; rfl

/-- The output's array as one function of its index: at row block `i 0`, the masked accumulator after that row block's
    last column block, point `16·(i 0) + 15`, read at lane `i 2`. -/
def G0 (c : Dev nD) : S4x1x128.Idx → Elt F .f32 := fun i =>
  k0_pay1 (accAt0 V c (16 * (i 0).val + 15) (by have : (i 0).val < 4 := (i 0).isLt; have : cfg0.N = 64 := N_0; omega))
    (ix3 (0 : Fin 1) (0 : Fin 1) (⟨(i 2).val, (i 2).isLt⟩ : Fin 128))

/-- What a point that writes the output back writes is its block of that function: the point is the last of its row
    block. -/
theorem flushed0_eq (c : Dev nD) (t : Fin cfg0.N) (hf : (cfg0.win 2).flush t = true) :
    (dat0 V c).flushed 2 t = ((cfg0.win 2).blk t).view.read (Elt F) (G0 V c) := by
  show (cfg0.win 2).cut (grid0.coords t) ((dat0 V c).after 2 t) = _
  rw [after0_2]
  have h15 : t.val % 16 = 15 := (flush0_2 t).mp hf
  obtain ⟨e0, e1, e2⟩ := idx0_2 t
  funext j
  have hj0 : (j 0).val < 1 := (j 0).isLt
  have hj1 : (j 1).val < 1 := (j 1).isLt
  have hA : 16 * ((((cfg0.win 2).blk t).view.emb j) 0).val + 15 = t.val := by
    show 16 * (win0_2.index t (0 : Fin 3) * 1 + 1 * (j 0).val) + 15 = t.val
    omega
  have hB : (ix3 (0 : Fin 1) (0 : Fin 1) (⟨((((cfg0.win 2).blk t).view.emb j) 2).val, ((((cfg0.win 2).blk t).view.emb j) 2).isLt⟩ : Fin 128) : S1x1x128.Idx)
      = (cfg0.win 2).xinj (grid0.coords t) j := by
    funext a; apply Fin.ext
    match a with
    | ⟨0, _⟩ => show 0 = (j 0).val; omega
    | ⟨1, _⟩ => show 0 = (j 1).val; omega
    | ⟨2, _⟩ => show win0_2.index t (2 : Fin 3) * 128 + 1 * (j 2).val = (j 2).val; omega
  have key : ∀ (n : ℕ) (hn : n < cfg0.N) (y : S1x1x128.Idx), n = t.val → y = (cfg0.win 2).xinj (grid0.coords t) j →
      k0_pay1 (accAt0 V c t.val t.isLt) ((cfg0.win 2).xinj (grid0.coords t) j) = k0_pay1 (accAt0 V c n hn) y := by
    intro n hn y h1 h2; subst h1; subst h2; rfl
  exact key _ _ _ hA hB

/-- An index of the output's array is in point `t`'s block iff each coordinate is in the block's range on its axis. -/
theorem mem_blk0_2 (t : Fin cfg0.N) (i : S4x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v0).slice (win0_2.rect t)).set ↔ _
  rw [View.set_slice_whole, Rect.mem_set_unit]
  exact Iff.rfl

/-- THE OUTPUT after the run, at the first lane of row block `bi`: the masked accumulator after point `16·bi + 15`, read at
    lane 0. -/
theorem out0_apply (c : Dev nD) (bi : Fin 4) :
    (dat0 V c).arrAt 2 cfg0.N (ix3 bi (0 : Fin 1) (0 : Fin 128))
      = k0_pay1 (accAt0 V c (16 * bi.val + 15) (by have : cfg0.N = 64 := N_0; omega)) (ix3 (0 : Fin 1) (0 : Fin 1) (0 : Fin 128)) := by
  have hN : cfg0.N = 64 := N_0
  have ht : 16 * bi.val + 15 < cfg0.N := by omega
  have hf : (cfg0.win 2).flush ⟨16 * bi.val + 15, ht⟩ = true := (flush0_2 _).mpr (by show (16 * bi.val + 15) % 16 = 15; omega)
  have hmem : (ix3 bi (0 : Fin 1) (0 : Fin 128) : S4x1x128.Idx) ∈ ((cfg0.win 2).blk ⟨16 * bi.val + 15, ht⟩).view.set := by
    rw [mem_blk0_2]
    obtain ⟨e0, e1, e2⟩ := idx0_2 ⟨16 * bi.val + 15, ht⟩
    have e0' : win0_2.index ⟨16 * bi.val + 15, ht⟩ (0 : Fin 3) = (16 * bi.val + 15) / 16 := e0
    intro a
    match a with
    | ⟨0, _⟩ => show win0_2.index ⟨16 * bi.val + 15, ht⟩ (0 : Fin 3) * 1 ≤ bi.val ∧ bi.val < win0_2.index ⟨16 * bi.val + 15, ht⟩ (0 : Fin 3) * 1 + 1; omega
    | ⟨1, _⟩ => show win0_2.index ⟨16 * bi.val + 15, ht⟩ (1 : Fin 3) * 1 ≤ 0 ∧ 0 < win0_2.index ⟨16 * bi.val + 15, ht⟩ (1 : Fin 3) * 1 + 1; omega
    | ⟨2, _⟩ => show win0_2.index ⟨16 * bi.val + 15, ht⟩ (2 : Fin 3) * 128 ≤ 0 ∧ 0 < win0_2.index ⟨16 * bi.val + 15, ht⟩ (2 : Fin 3) * 128 + 128; omega
  rw [(dat0 V c).arrAt_apply_of_mem 2 (G0 V c) (flushed0_eq V c) cfg0.N ⟨16 * bi.val + 15, ht⟩ _ ht hf hmem]
  rfl

/-! ## Pallas_call 1 -/

/-- The index maps over the grid of 4 row blocks by 16 column blocks: window 0 moves with the row block, window 1 with the
    column block, the output with the row block. -/
theorem idx1_0 : ∀ t : Fin cfg1.N, win1_0.index t (0 : Fin 2) = t.val / 16 ∧ win1_0.index t (1 : Fin 2) = 0 :=
  (by decide +kernel : ∀ t : Fin grid1.N, _)
theorem idx1_1 : ∀ t : Fin cfg1.N, win1_1.index t (0 : Fin 2) = t.val % 16 ∧ win1_1.index t (1 : Fin 2) = 0 :=
  (by decide +kernel : ∀ t : Fin grid1.N, _)
theorem idx1_2 : ∀ t : Fin cfg1.N, win1_2.index t (0 : Fin 3) = t.val / 16 ∧ win1_2.index t (1 : Fin 3) = 0 ∧ win1_2.index t (2 : Fin 3) = 0 :=
  (by decide +kernel : ∀ t : Fin grid1.N, _)

/-- Row `r` of window 0's block at point `t` is row `2048·(t / 16) + r` of its array. -/
theorem iblk1_0_apply (c : Dev nD) (t : Fin cfg1.N) (r : Fin 2048) (k : Fin 64) :
    iblk1 V c 0 t (ix2 r k)
      = V c (Pipeline.arrRef spec1 0) (ix2 (⟨t.val / 16 * 2048 + r.val, by have := t.isLt; have : cfg1.N = 64 := N_1; have := r.isLt; omega⟩ : Fin 8192) k) := by
  unfold iblk1
  show V c (Pipeline.arrRef spec1 0) (((cfg1.win 0).blk t).view.emb (ix2 r k)) = _
  refine congrArg _ (funext fun a => Fin.ext ?_)
  obtain ⟨e0, e1⟩ := idx1_0 t
  match a with
  | ⟨0, _⟩ => show win1_0.index t (0 : Fin 2) * 2048 + 1 * r.val = t.val / 16 * 2048 + r.val; omega
  | ⟨1, _⟩ => show win1_0.index t (1 : Fin 2) * 64 + 1 * k.val = k.val; omega

/-- Row `s` of window 1's block at point `t` is row `512·(t % 16) + s` of its array. -/
theorem iblk1_1_apply (c : Dev nD) (t : Fin cfg1.N) (s : Fin 512) (k : Fin 64) :
    iblk1 V c 1 t (ix2 s k)
      = V c (Pipeline.arrRef spec1 1) (ix2 (⟨t.val % 16 * 512 + s.val, by have := s.isLt; omega⟩ : Fin 8192) k) := by
  unfold iblk1
  show V c (Pipeline.arrRef spec1 1) (((cfg1.win 1).blk t).view.emb (ix2 s k)) = _
  refine congrArg _ (funext fun a => Fin.ext ?_)
  obtain ⟨e0, e1⟩ := idx1_1 t
  match a with
  | ⟨0, _⟩ => show win1_1.index t (0 : Fin 2) * 512 + 1 * s.val = t.val % 16 * 512 + s.val; omega
  | ⟨1, _⟩ => show win1_1.index t (1 : Fin 2) * 64 + 1 * k.val = k.val; omega

/-- The accumulator's value depends on the point alone, not on how its bound is proved. -/
theorem accAt1_congr (c : Dev nD) {n n' : ℕ} (h : n = n') (hn : n < cfg1.N) (hn' : n' < cfg1.N) :
    accAt1 V c n hn = accAt1 V c n' hn' := by subst h; rfl

/-- The output's array as one function of its index: at row block `i 0`, the masked accumulator after that row block's
    last column block, point `16·(i 0) + 15`, read at lane `i 2`. -/
def G1 (c : Dev nD) : S4x1x128.Idx → Elt F .f32 := fun i =>
  k1_pay1 (accAt1 V c (16 * (i 0).val + 15) (by have : (i 0).val < 4 := (i 0).isLt; have : cfg1.N = 64 := N_1; omega))
    (ix3 (0 : Fin 1) (0 : Fin 1) (⟨(i 2).val, (i 2).isLt⟩ : Fin 128))

/-- What a point that writes the output back writes is its block of that function: the point is the last of its row
    block. -/
theorem flushed1_eq (c : Dev nD) (t : Fin cfg1.N) (hf : (cfg1.win 2).flush t = true) :
    (dat1 V c).flushed 2 t = ((cfg1.win 2).blk t).view.read (Elt F) (G1 V c) := by
  show (cfg1.win 2).cut (grid1.coords t) ((dat1 V c).after 2 t) = _
  rw [after1_2]
  have h15 : t.val % 16 = 15 := (flush1_2 t).mp hf
  obtain ⟨e0, e1, e2⟩ := idx1_2 t
  funext j
  have hj0 : (j 0).val < 1 := (j 0).isLt
  have hj1 : (j 1).val < 1 := (j 1).isLt
  have hA : 16 * ((((cfg1.win 2).blk t).view.emb j) 0).val + 15 = t.val := by
    show 16 * (win1_2.index t (0 : Fin 3) * 1 + 1 * (j 0).val) + 15 = t.val
    omega
  have hB : (ix3 (0 : Fin 1) (0 : Fin 1) (⟨((((cfg1.win 2).blk t).view.emb j) 2).val, ((((cfg1.win 2).blk t).view.emb j) 2).isLt⟩ : Fin 128) : S1x1x128.Idx)
      = (cfg1.win 2).xinj (grid1.coords t) j := by
    funext a; apply Fin.ext
    match a with
    | ⟨0, _⟩ => show 0 = (j 0).val; omega
    | ⟨1, _⟩ => show 0 = (j 1).val; omega
    | ⟨2, _⟩ => show win1_2.index t (2 : Fin 3) * 128 + 1 * (j 2).val = (j 2).val; omega
  have key : ∀ (n : ℕ) (hn : n < cfg1.N) (y : S1x1x128.Idx), n = t.val → y = (cfg1.win 2).xinj (grid1.coords t) j →
      k1_pay1 (accAt1 V c t.val t.isLt) ((cfg1.win 2).xinj (grid1.coords t) j) = k1_pay1 (accAt1 V c n hn) y := by
    intro n hn y h1 h2; subst h1; subst h2; rfl
  exact key _ _ _ hA hB

/-- An index of the output's array is in point `t`'s block iff each coordinate is in the block's range on its axis. -/
theorem mem_blk1_2 (t : Fin cfg1.N) (i : S4x1x128.Idx) :
    i ∈ ((cfg1.win 2).blk t).view.set ↔ ∀ a : Fin 3, win1_2.index t a * S1x1x128.size a ≤ (i a).val ∧ (i a).val < win1_2.index t a * S1x1x128.size a + S1x1x128.size a := by
  show i ∈ ((View.whole main_v5).slice (win1_2.rect t)).set ↔ _
  rw [View.set_slice_whole, Rect.mem_set_unit]
  exact Iff.rfl

/-- THE OUTPUT after the run, at the first lane of row block `bi`: the masked accumulator after point `16·bi + 15`, read at
    lane 0. -/
theorem out1_apply (c : Dev nD) (bi : Fin 4) :
    (dat1 V c).arrAt 2 cfg1.N (ix3 bi (0 : Fin 1) (0 : Fin 128))
      = k1_pay1 (accAt1 V c (16 * bi.val + 15) (by have : cfg1.N = 64 := N_1; omega)) (ix3 (0 : Fin 1) (0 : Fin 1) (0 : Fin 128)) := by
  have hN : cfg1.N = 64 := N_1
  have ht : 16 * bi.val + 15 < cfg1.N := by omega
  have hf : (cfg1.win 2).flush ⟨16 * bi.val + 15, ht⟩ = true := (flush1_2 _).mpr (by show (16 * bi.val + 15) % 16 = 15; omega)
  have hmem : (ix3 bi (0 : Fin 1) (0 : Fin 128) : S4x1x128.Idx) ∈ ((cfg1.win 2).blk ⟨16 * bi.val + 15, ht⟩).view.set := by
    rw [mem_blk1_2]
    obtain ⟨e0, e1, e2⟩ := idx1_2 ⟨16 * bi.val + 15, ht⟩
    have e0' : win1_2.index ⟨16 * bi.val + 15, ht⟩ (0 : Fin 3) = (16 * bi.val + 15) / 16 := e0
    intro a
    match a with
    | ⟨0, _⟩ => show win1_2.index ⟨16 * bi.val + 15, ht⟩ (0 : Fin 3) * 1 ≤ bi.val ∧ bi.val < win1_2.index ⟨16 * bi.val + 15, ht⟩ (0 : Fin 3) * 1 + 1; omega
    | ⟨1, _⟩ => show win1_2.index ⟨16 * bi.val + 15, ht⟩ (1 : Fin 3) * 1 ≤ 0 ∧ 0 < win1_2.index ⟨16 * bi.val + 15, ht⟩ (1 : Fin 3) * 1 + 1; omega
    | ⟨2, _⟩ => show win1_2.index ⟨16 * bi.val + 15, ht⟩ (2 : Fin 3) * 128 ≤ 0 ∧ 0 < win1_2.index ⟨16 * bi.val + 15, ht⟩ (2 : Fin 3) * 128 + 128; omega
  rw [(dat1 V c).arrAt_apply_of_mem 2 (G1 V c) (flushed1_eq V c) cfg1.N ⟨16 * bi.val + 15, ht⟩ _ ht hf hmem]
  rfl

end Region

end Cert.KernelIdeal.Body

end
-- ==== Proof.LibBlockSum.lean ====
/-
  Sums over one long axis, cut into equal blocks.

  A rank-1 index set of extent n is Fin n, and a [1, n] index set is Fin n too, so a sum over either is a sum
  over Fin n.  An axis of extent N = B · n is B consecutive blocks of n, and the sum over Fin N is the double
  sum over (block, position in the block) at the index block · n + position.  At the exact values a lane sum
  of a [1, n] vector cast from a rank-1 vector is the plain sum of that vector, and the host's sum of a rank-1
  array down to a scalar is its initial value plus the plain sum.
-/
import Idealize.ShloMosaic.PureOps.Ideal.Laws
import Idealize.ShloMosaic.Lib.ValueIdx
import Idealize.ShloMosaic.Lib.ValueLayout

noncomputable section

open scoped BigOperators

namespace Cert.LibBlockSum

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a [1, n] index set is the sum over the second coordinate, the first being 0. -/
theorem sum_idx_1n {M : Type*} [AddCommMonoid M] {n : Nat} (f : (⟨2, ![1, n]⟩ : Shape).Idx → M) :
    ∑ i, f i = ∑ a : Fin n, f (ix2 (0 : Fin 1) a) := by
  rw [sum_idx2, Fin.sum_univ_one]

/-- Position `j` of block `t` on an axis of `B` blocks of `n`. -/
def blockIdx {B n N : Nat} (h : B * n = N) (t : Fin B) (j : Fin n) : Fin N :=
  ⟨t.val * n + j.val, by
    have h1 : t.val * n + j.val < t.val * n + n := Nat.add_lt_add_left j.isLt _
    have h2 : t.val * n + n ≤ B * n := by
      rw [← Nat.succ_mul]; exact Nat.mul_le_mul_right _ t.isLt
    omega⟩

theorem blockIdx_val {B n N : Nat} (h : B * n = N) (t : Fin B) (j : Fin n) :
    (blockIdx h t j).val = t.val * n + j.val := rfl

/-- The sum over an axis of `B` blocks of `n` is the sum over the blocks of the sums inside each. -/
theorem sum_blocks {M : Type*} [AddCommMonoid M] {B n N : Nat} (h : B * n = N) (f : Fin N → M) :
    ∑ r, f r = ∑ t : Fin B, ∑ j : Fin n, f (blockIdx h t j) := by
  subst h
  rw [← Equiv.sum_comp finProdFinEquiv f, Fintype.sum_prod_type]
  refine Finset.sum_congr rfl fun t _ => Finset.sum_congr rfl fun j _ => congrArg f (Fin.ext ?_)
  show j.val + n * t.val = t.val * n + j.val
  rw [Nat.mul_comm, Nat.add_comm]

/-- The lane sum of a rank-1 vector cast to [1, n], cast on to [1, 1] and read at its one entry, is the plain
    sum of the vector's entries. -/
theorem laneSum_eq {n : Nat} (x : FVec Ideal ⟨1, ![n]⟩ .f32)
    (hc : (⟨1, ![n]⟩ : Shape).ShapeCasts ⟨2, ![1, n]⟩)
    (hr : (⟨2, ![1, n]⟩ : Shape).Reduces [1] ⟨1, ![1]⟩) (hφ : FKind.Formats .f32)
    (hacc : (0x00000000#32 : BitVec 32) = FKind.add.neutral .f32 hφ)
    (hc' : (⟨1, ![1]⟩ : Shape).ShapeCasts ⟨2, ![1, 1]⟩) (hp : ∀ a, (![0, 0] : Fin 2 → Nat) a < (⟨2, ![1, 1]⟩ : Shape).size a) :
    extractAt ![0, 0] (shapeCast ⟨2, ![1, 1]⟩ (multiReduction .add [1] ⟨1, ![1]⟩ (shapeCast ⟨2, ![1, n]⟩ x hc) 0x00000000#32 hr hφ hacc) hc') hp
      = ∑ a : Fin n, x (ix1 a) := by
  unfold extractAt
  have e : (fun a => (⟨(![0, 0] : Fin 2 → Nat) a, hp a⟩ : Fin ((⟨2, ![1, 1]⟩ : Shape).size a))) = ix2 (0 : Fin 1) (0 : Fin 1) :=
    funext fun a => Fin.ext (by match a with | ⟨0, _⟩ => rfl | ⟨1, _⟩ => rfl)
  rw [e, shapeCast_a_1a_apply, Ideal.multiReduction_add_total _ _ _ (fun b => by match b with | ⟨0, _⟩ => rfl), sum_idx_1n]
  exact Finset.sum_congr rfl fun a _ => shapeCast_a_1a_apply x hc 0 a

/-- The host's sum of a rank-1 array down to a scalar, from the initial value `init`, is `init` plus the plain sum. -/
theorem hostSum_eq {n : Nat} (x : (⟨1, ![n]⟩ : Shape).Idx → EReal) (init : EReal)
    (h : (⟨1, ![n]⟩ : Shape).ReducesTo [0] ⟨0, ![]⟩) (j : (⟨0, ![]⟩ : Shape).Idx) :
    Ideal.hostReduceAdd h x init j = init + ∑ a : Fin n, x (ix1 a) := by
  rw [Ideal.hostReduceAdd_total h (fun b => b.elim0), sum_idx1]

end Cert.LibBlockSum

end
-- ==== Proof.MmdSpec.lean ====
/-
  The biased maximum-mean-discrepancy statistic with a Gaussian kernel, on the extended reals.

  For matrices x, y with 8192 rows and 64 columns:
    sq x i       = ∑ k, x i k · x i k                       (the squared norm of row i)
    dot x y i j  = ∑ k, x i k · y j k                       (the inner product of row i of x and row j of y)
    kern x y i j = exp( −((sq x i + sq y j) − 2 · dot x y i j) / 4096 )
    pairSum x y  = ∑ i, ∑ j, kern x y i j
    mean x y     = pairSum x y / 2^26
    mmd z t      = (mean z z + mean t t) − 2 · mean z t
  Every operation is the exact one on the extended reals; the float literals 2, 4096 and 2^26 stay as the
  words that spell them.

  Two laws, on every extended real (no finiteness is assumed):
    • negating by subtracting from zero and multiplying by 2^-12 is negating and dividing by 4096, so
      kern x y i j = exp( (0 − ((sq x i + sq y j) − 2 · dot x y i j)) · 2^-12 );
    • the double sum over 8192 × 8192 pairs is the sum over a 4 × 16 grid of 2048 × 512 blocks.
-/
import Idealize.ShloMosaic.PureOps.Ideal
import Idealize.ShloMosaic.PureOps.Ideal.Laws
import Idealize.ShloMosaic.Lib.ValueIdx
import proofs.«175880_j29377576305361_2_alg».proof.Proof.LibBlockSum

noncomputable section

open scoped BigOperators

namespace Cert.Mmd

open Idealize.ShloMosaic

/-- A matrix of 8192 rows and 64 columns of extended reals. -/
abbrev Mat : Type := Fin 8192 → Fin 64 → EReal

/-- The squared norm of row `i`. -/
def sq (x : Mat) (i : Fin 8192) : EReal := ∑ k : Fin 64, x i k * x i k

/-- The inner product of row `i` of `x` and row `j` of `y`. -/
def dot (x y : Mat) (i j : Fin 8192) : EReal := ∑ k : Fin 64, x i k * y j k

/-- The squared distance of row `i` of `x` and row `j` of `y`, expanded: the two squared norms less twice the inner product. -/
def sqDist (x y : Mat) (i j : Fin 8192) : EReal :=
  (sq x i + sq y j) - Ideal.ofBits .f32 0x40000000#32 * dot x y i j

/-- The Gaussian kernel of the two rows: the exponential of minus the squared distance over 4096. -/
def kern (x y : Mat) (i j : Fin 8192) : EReal :=
  Ideal.exp (Ideal.div (-(sqDist x y i j)) (Ideal.ofBits .f32 0x45800000#32))

/-- The sum of the kernel over all pairs of rows. -/
def pairSum (x y : Mat) : EReal := ∑ i : Fin 8192, ∑ j : Fin 8192, kern x y i j

/-- The mean of the kernel over all 2^26 pairs of rows. -/
def mean (x y : Mat) : EReal := Ideal.div (pairSum x y) (Ideal.ofBits .f32 0x4C800000#32)

/-- The biased statistic: the two within-sample means less twice the cross mean. -/
def mmd (z t : Mat) : EReal := (mean z z + mean t t) - Ideal.ofBits .f32 0x40000000#32 * mean z t

/-! ## The literals 4096 and 2^-12 -/

/-- The word `0x45800000` denotes the real 4096. -/
theorem ofBits_4096 : Ideal.ofBits .f32 0x45800000#32 = ((4096 : ℝ) : EReal) := by
  simp [Ideal.ofBits, Ideal.ieee, -EReal.coe_mul]; norm_num

/-- The word `0x39800000` denotes the real 2^-12 = 1/4096. -/
theorem ofBits_inv4096 : Ideal.ofBits .f32 0x39800000#32 = ((1 / 4096 : ℝ) : EReal) := by
  simp [Ideal.ofBits, Ideal.ieee, -EReal.coe_mul]; norm_num

/-- On every extended real, minus `a` over 4096 is zero less `a`, times 2^-12. -/
theorem neg_div_4096 (a : EReal) :
    Ideal.div (-a) (Ideal.ofBits .f32 0x45800000#32)
      = (Ideal.ofBits .f32 0x00000000#32 - a) * Ideal.ofBits .f32 0x39800000#32 := by
  rw [ofBits_4096, ofBits_inv4096, Ideal.ofBits_zero_f32, Ideal.div_coe (by norm_num), sub_eq_add_neg, zero_add]

/-- The kernel with the negation written as a difference from zero and the division by 4096 as a product with 2^-12. -/
theorem kern_kernelForm (x y : Mat) (i j : Fin 8192) :
    kern x y i j
      = Ideal.exp ((Ideal.ofBits .f32 0x00000000#32
            - ((sq x i + sq y j) - Ideal.ofBits .f32 0x40000000#32 * dot x y i j))
          * Ideal.ofBits .f32 0x39800000#32) := by
  unfold kern sqDist
  rw [neg_div_4096]

/-! ## The sum over all pairs, by blocks -/

/-- The sum over all pairs of rows is the sum over a 4 × 16 grid of blocks, 2048 rows of `x` by 512 rows of `y`
    each: row `bi · 2048 + r` against row `bj · 512 + s`. -/
theorem pairSum_blocks (x y : Mat) :
    pairSum x y
      = ∑ bi : Fin 4, ∑ bj : Fin 16, ∑ r : Fin 2048, ∑ s : Fin 512,
          kern x y ⟨bi.val * 2048 + r.val, by omega⟩ ⟨bj.val * 512 + s.val, by omega⟩ := by
  have h1 : 4 * 2048 = 8192 := by norm_num
  have h2 : 16 * 512 = 8192 := by norm_num
  calc pairSum x y
      = ∑ bi : Fin 4, ∑ r : Fin 2048, ∑ bj : Fin 16, ∑ s : Fin 512,
          kern x y (Cert.LibBlockSum.blockIdx h1 bi r) (Cert.LibBlockSum.blockIdx h2 bj s) := by
        unfold pairSum
        rw [Cert.LibBlockSum.sum_blocks h1 (fun i => ∑ j : Fin 8192, kern x y i j)]
        refine Finset.sum_congr rfl fun bi _ => Finset.sum_congr rfl fun r _ => ?_
        exact Cert.LibBlockSum.sum_blocks h2 _
    _ = ∑ bi : Fin 4, ∑ bj : Fin 16, ∑ r : Fin 2048, ∑ s : Fin 512,
          kern x y (Cert.LibBlockSum.blockIdx h1 bi r) (Cert.LibBlockSum.blockIdx h2 bj s) :=
        Finset.sum_congr rfl fun bi _ => Finset.sum_comm
    _ = _ := rfl

end Cert.Mmd

end
-- ==== Proof.KernelTile.lean ====
/-
  The arithmetic of one grid step of the kernel, on the extended reals, against Proof/MmdSpec.lean.

  A grid step holds a tile of 2048 rows of x and a tile of 512 rows of y.  Its body forms the squared norms of
  the rows of each tile (sums along the rows), the table of inner products of the rows (a matrix product with
  the transposed second tile into a zero accumulator), and from them, at each pair (r, s),
      exp( (0 − ((|x_r|² + |y_s|²) − 2 · ⟨x_r, y_s⟩)) · 2^-12 ),
  sums the 2048 × 512 values (along the rows, then down the column of row sums) and adds the total to the one
  entry of the running accumulator.  On the first of the sixteen steps of a row of the grid the accumulator is
  zero; after the sixteenth it holds the sum of the Gaussian kernel over the 2048 × 8192 pairs of the row, which
  a masked store spreads to lane 0 of the output block.  The host divides the sum of the four blocks' lane 0 by
  2^26: the mean of the kernel over all pairs.
-/
import proofs.«175880_j29377576305361_2_alg».proof.Proof.Gen.KernelIdeal.Skeleton
import proofs.«175880_j29377576305361_2_alg».proof.Proof.MmdSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## Layout operations and sums read at an index given by coordinates -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one index of a `[1, 1]` array. -/
theorem eq_ix2_zero (y : (⟨2, ![1, 1]⟩ : Shape).Idx) : y = ix2 (0 : Fin 1) (0 : Fin 1) :=
  funext fun a => Fin.ext (by
    match a with
    | ⟨0, _⟩ => have := idx2_lt0 y; show (y 0).val = 0; omega
    | ⟨1, _⟩ => have := idx2_lt1 y; show (y 1).val = 0; omega)

end Layout

/-- A sum along the rows of an `[n, m]` array, at row `r`: the sum over the columns. -/
theorem rowSum_apply {n m : ℕ} (v : FVec Ideal ⟨2, ![n, m]⟩ .f32) (h : (⟨2, ![n, m]⟩ : Shape).Reduces [1] ⟨1, ![n]⟩)
    (hφ : FKind.Formats .f32) (hacc : (0x00000000#32 : BitVec 32) = FKind.add.neutral .f32 hφ) (r : Fin n) :
    multiReduction .add [1] ⟨1, ![n]⟩ v 0x00000000#32 h hφ hacc (ix1 r) = ∑ k : Fin m, v (ix2 r k) :=
  (Ideal.multiReduction_add_single v _ h hφ hacc (ix1 r)).trans
    (Finset.sum_congr rfl fun k _ => congrArg v (funext fun c => Fin.ext (by
      match c with
      | ⟨0, _⟩ => rfl
      | ⟨1, _⟩ => rfl)))

/-- A sum down the one column of an `[n, 1]` array: the sum over the rows. -/
theorem colSum_apply {n : ℕ} (v : FVec Ideal ⟨2, ![n, 1]⟩ .f32) (h : (⟨2, ![n, 1]⟩ : Shape).Reduces [0] ⟨1, ![1]⟩)
    (hφ : FKind.Formats .f32) (hacc : (0x00000000#32 : BitVec 32) = FKind.add.neutral .f32 hφ) (u : Fin 1) :
    multiReduction .add [0] ⟨1, ![1]⟩ v 0x00000000#32 h hφ hacc (ix1 u) = ∑ r : Fin n, v (ix2 r u) :=
  (Ideal.multiReduction_add_single v _ h hφ hacc (ix1 u)).trans
    (Finset.sum_congr rfl fun r _ => congrArg v (funext fun c => Fin.ext (by
      match c with
      | ⟨0, _⟩ => rfl
      | ⟨1, _⟩ => rfl)))

/-! ## The matrix product of a tile of x with a transposed tile of y -/

theorem lhsIdx_row (i : S2048x512.Idx) (q : dot_S2048x64_S64x512_S2048x512_1_0_0_1_n_n.contr.Idx) :
    (dot_S2048x64_S64x512_S2048x512_1_0_0_1_n_n.lhsIdx i q 0).val = (i 0).val := by
  unfold DotDims.lhsIdx
  rw [dif_neg (show ¬(0 : Fin S2048x64.rank) ∈ dot_S2048x64_S64x512_S2048x512_1_0_0_1_n_n.lhsBatch by decide),
    dif_pos (show (0 : Fin S2048x64.rank) ∈ dot_S2048x64_S64x512_S2048x512_1_0_0_1_n_n.lhsNonContracting by decide)]
  rfl
theorem lhsIdx_contr (i : S2048x512.Idx) (q : dot_S2048x64_S64x512_S2048x512_1_0_0_1_n_n.contr.Idx) :
    (dot_S2048x64_S64x512_S2048x512_1_0_0_1_n_n.lhsIdx i q 1).val = (q ⟨0, by decide⟩).val :=
  dot_S2048x64_S64x512_S2048x512_1_0_0_1_n_n.lhsIdx_val_of_single rfl i q
theorem rhsIdx_contr (i : S2048x512.Idx) (q : dot_S2048x64_S64x512_S2048x512_1_0_0_1_n_n.contr.Idx) :
    (dot_S2048x64_S64x512_S2048x512_1_0_0_1_n_n.rhsIdx i q 0).val = (q ⟨0, by decide⟩).val :=
  dot_S2048x64_S64x512_S2048x512_1_0_0_1_n_n.rhsIdx_val_of_single rfl i q
theorem rhsIdx_col (i : S2048x512.Idx) (q : dot_S2048x64_S64x512_S2048x512_1_0_0_1_n_n.contr.Idx) :
    (dot_S2048x64_S64x512_S2048x512_1_0_0_1_n_n.rhsIdx i q 1).val = (i 1).val := by
  unfold DotDims.rhsIdx
  rw [dif_neg (show ¬(1 : Fin S64x512.rank) ∈ dot_S2048x64_S64x512_S2048x512_1_0_0_1_n_n.rhsBatch by decide),
    dif_pos (show (1 : Fin S64x512.rank) ∈ dot_S2048x64_S64x512_S2048x512_1_0_0_1_n_n.rhsNonContracting by decide)]
  rfl

/-- The product into a zero accumulator, at `(r, s)`: the sum over the 64 contracted coordinates. -/
theorem tileDot_apply (lhs : FVec Ideal S2048x64 .f32) (rhs : FVec Ideal S64x512 .f32) (r : Fin 2048) (s : Fin 512) :
    matmul dot_S2048x64_S64x512_S2048x512_1_0_0_1_n_n (some .fp32) lhs rhs (constant S2048x512 .f32 0x00000000#32) (ix2 r s)
      = ∑ k : Fin 64, lhs (ix2 r k) * rhs (ix2 k s) := by
  simp only [matmul]
  rw [Ideal.matmul_constant_zero_apply,
    ← Equiv.sum_comp (contrEquiv1 dot_S2048x64_S64x512_S2048x512_1_0_0_1_n_n 64 rfl rfl).symm]
  refine Finset.sum_congr rfl fun k _ => ?_
  have hk := contrEquiv1_symm_val dot_S2048x64_S64x512_S2048x512_1_0_0_1_n_n 64 rfl rfl k
  have el : dot_S2048x64_S64x512_S2048x512_1_0_0_1_n_n.lhsIdx (ix2 r s) ((contrEquiv1 dot_S2048x64_S64x512_S2048x512_1_0_0_1_n_n 64 rfl rfl).symm k) = ix2 r k :=
    funext fun a => Fin.ext (by
      match a with
      | ⟨0, _⟩ => exact lhsIdx_row _ _
      | ⟨1, _⟩ => exact (lhsIdx_contr _ _).trans hk)
  have er : dot_S2048x64_S64x512_S2048x512_1_0_0_1_n_n.rhsIdx (ix2 r s) ((contrEquiv1 dot_S2048x64_S64x512_S2048x512_1_0_0_1_n_n 64 rfl rfl).symm k) = ix2 k s :=
    funext fun a => Fin.ext (by
      match a with
      | ⟨0, _⟩ => exact (rhsIdx_contr _ _).trans hk
      | ⟨1, _⟩ => exact rhsIdx_col _ _)
  rw [el, er]

/-! ## One grid step -/

section Step
variable (x0 : FVec Ideal S2048x64 .f32) (x1 : FVec Ideal S512x64 .f32)

/-- The squared norms of the rows of the first tile, as a column. -/
def rowSqCol : FVec Ideal S2048x1 .f32 :=
  shapeCast S2048x1
    (multiReduction .add [1] S2048 (mulf x0 x0) 0x00000000#32 reduces_S2048x64_S2048 (.inl rfl) rfl)
    shapeCasts_S2048_S2048x1

/-- The squared norms of the rows of the second tile, as a row. -/
def colSqRow : FVec Ideal S1x512 .f32 :=
  transpose S1x512 [1, 0]
    (shapeCast S512x1
      (multiReduction .add [1] S512 (mulf x1 x1) 0x00000000#32 reduces_S512x64_S512 (.inl rfl) rfl)
      shapeCasts_S512_S512x1)
    transposes_S512x1_p1_0_S1x512

/-- The inner products of the rows of the two tiles. -/
def dots : FVec Ideal S2048x512 .f32 :=
  matmul dot_S2048x64_S64x512_S2048x512_1_0_0_1_n_n (some .fp32) x0
    (transpose S64x512 [1, 0] x1 transposes_S512x64_p1_0_S64x512) (constant S2048x512 .f32 0x00000000#32)

/-- The exponentiated table of the step. -/
def expTile : FVec Ideal S2048x512 .f32 :=
  exp (mulf
    (subf (broadcast S2048x512 (Scalar.ofBits (F := Ideal) .f32 0x00000000#32))
      (subf
        (addf (broadcastTo S2048x512 (rowSqCol x0) broadcasts_S2048x1_S2048x512)
          (broadcastTo S2048x512 (colSqRow x1) broadcasts_S1x512_S2048x512))
        (mulf (broadcast S2048x512 (Scalar.ofBits (F := Ideal) .f32 0x40000000#32)) (dots x0 x1))))
    (broadcast S2048x512 (Scalar.ofBits (F := Ideal) .f32 0x39800000#32)))

/-- The total of the exponentiated table, as a `[1, 1]` array. -/
def tileSum : FVec Ideal S1x1 .f32 :=
  shapeCast S1x1
    (multiReduction .add [0] S1
      (shapeCast S2048x1
        (multiReduction .add [1] S2048 (expTile x0 x1) 0x00000000#32 reduces_S2048x512_S2048 (.inl rfl) rfl)
        shapeCasts_S2048_S2048x1)
      0x00000000#32 reduces_S2048x1_S1 (.inl rfl) rfl)
    shapeCasts_S1_S1x1

/-- The step's payload is the accumulator plus the total of the exponentiated table. -/
theorem pay3_eq (xs : FVec Ideal S1x1 .f32) :
    k0_pay3 (F := Ideal) x0 x1 xs = shapeCast S1x1 (addf xs (tileSum x0 x1)) shapeCasts_S1x1_S1x1 := rfl

theorem rowSqCol_apply (r : Fin 2048) (u : Fin 1) :
    rowSqCol x0 (ix2 r u) = ∑ k : Fin 64, x0 (ix2 r k) * x0 (ix2 r k) := by
  unfold rowSqCol
  exact (shapeCast_a_a1_apply _ _ r u).trans (rowSum_apply _ _ _ _ r)

theorem colSqRow_apply (u : Fin 1) (s : Fin 512) :
    colSqRow x1 (ix2 u s) = ∑ k : Fin 64, x1 (ix2 s k) * x1 (ix2 s k) := by
  unfold colSqRow
  exact (transpose_ix2_apply _ _ u s).trans ((shapeCast_a_a1_apply _ _ s u).trans (rowSum_apply _ _ _ _ s))

theorem dots_apply (r : Fin 2048) (s : Fin 512) :
    dots x0 x1 (ix2 r s) = ∑ k : Fin 64, x0 (ix2 r k) * x1 (ix2 s k) := by
  unfold dots
  rw [tileDot_apply]
  exact Finset.sum_congr rfl fun k _ => congrArg (x0 (ix2 r k) * ·) (transpose_ix2_apply x1 _ k s)

/-- The exponentiated table at `(r, s)`. -/
theorem expTile_apply (r : Fin 2048) (s : Fin 512) :
    expTile x0 x1 (ix2 r s)
      = Ideal.exp ((Ideal.ofBits .f32 0x00000000#32
            - (((∑ k : Fin 64, x0 (ix2 r k) * x0 (ix2 r k)) + ∑ k : Fin 64, x1 (ix2 s k) * x1 (ix2 s k))
                - Ideal.ofBits .f32 0x40000000#32 * ∑ k : Fin 64, x0 (ix2 r k) * x1 (ix2 s k)))
          * Ideal.ofBits .f32 0x39800000#32) := by
  show Ideal.exp ((Ideal.ofBits .f32 0x00000000#32
      - ((broadcastTo S2048x512 (rowSqCol x0) broadcasts_S2048x1_S2048x512 (ix2 r s)
            + broadcastTo S2048x512 (colSqRow x1) broadcasts_S1x512_S2048x512 (ix2 r s))
          - Ideal.ofBits .f32 0x40000000#32 * dots x0 x1 (ix2 r s)))
      * Ideal.ofBits .f32 0x39800000#32) = _
  rw [broadcastTo_a1_ab_apply, broadcastTo_1b_ab_apply, rowSqCol_apply, colSqRow_apply, dots_apply]

theorem tileSum_apply (u v : Fin 1) :
    tileSum x0 x1 (ix2 u v) = ∑ r : Fin 2048, ∑ s : Fin 512, expTile x0 x1 (ix2 r s) := by
  unfold tileSum
  refine (shapeCast_a_1a_apply _ _ u v).trans ((colSum_apply _ _ _ _ v).trans (Finset.sum_congr rfl fun r _ => ?_))
  exact (shapeCast_a_a1_apply _ _ r v).trans (rowSum_apply _ _ _ _ r)

/-- The step's payload at its one index: the accumulator's entry plus the sum over the 2048 × 512 pairs. -/
theorem pay3_apply (xs : FVec Ideal S1x1 .f32) :
    k0_pay3 (F := Ideal) x0 x1 xs (ix2 (0 : Fin 1) (0 : Fin 1))
      = xs (ix2 (0 : Fin 1) (0 : Fin 1)) + ∑ r : Fin 2048, ∑ s : Fin 512,
          Ideal.exp ((Ideal.ofBits .f32 0x00000000#32
              - (((∑ k : Fin 64, x0 (ix2 r k) * x0 (ix2 r k)) + ∑ k : Fin 64, x1 (ix2 s k) * x1 (ix2 s k))
                  - Ideal.ofBits .f32 0x40000000#32 * ∑ k : Fin 64, x0 (ix2 r k) * x1 (ix2 s k)))
            * Ideal.ofBits .f32 0x39800000#32) := by
  rw [pay3_eq, shapeCast_self]
  show xs (ix2 (0 : Fin 1) (0 : Fin 1)) + tileSum x0 x1 (ix2 (0 : Fin 1) (0 : Fin 1)) = _
  rw [tileSum_apply]
  simp only [expTile_apply]

/-- Against the specification: when the tiles are rows `bi · 2048 + r` of `X` and rows `bj · 512 + s` of `Y`, the step
    adds the Gaussian kernel's sum over the block `(bi, bj)`. -/
theorem pay3_block (xs : FVec Ideal S1x1 .f32) (X Y : Cert.Mmd.Mat) (bi : Fin 4) (bj : Fin 16)
    (hx : ∀ (r : Fin 2048) (k : Fin 64), x0 (ix2 r k) = X ⟨bi.val * 2048 + r.val, by omega⟩ k)
    (hy : ∀ (s : Fin 512) (k : Fin 64), x1 (ix2 s k) = Y ⟨bj.val * 512 + s.val, by omega⟩ k) :
    k0_pay3 (F := Ideal) x0 x1 xs (ix2 (0 : Fin 1) (0 : Fin 1))
      = xs (ix2 (0 : Fin 1) (0 : Fin 1)) + ∑ r : Fin 2048, ∑ s : Fin 512,
          Cert.Mmd.kern X Y ⟨bi.val * 2048 + r.val, by omega⟩ ⟨bj.val * 512 + s.val, by omega⟩ := by
  rw [pay3_apply]
  refine congrArg (_ + ·) (Finset.sum_congr rfl fun r _ => Finset.sum_congr rfl fun s _ => ?_)
  rw [Cert.Mmd.kern_kernelForm]
  simp only [hx, hy, Cert.Mmd.sq, Cert.Mmd.dot]

end Step

/-! ## The reset and the masked store -/

/-- The reset stores zero. -/
theorem pay2_apply (y : S1x1.Idx) : k0_pay2 (F := Ideal) y = 0 := by
  have e : k0_pay2 (F := Ideal)
      = shapeCast S1x1 (broadcast S1x1 (Scalar.ofBits (F := Ideal) .f32 0x00000000#32)) shapeCasts_S1x1_S1x1 := rfl
  rw [e, shapeCast_self]
  exact Ideal.ofBits_zero_f32

/-- Lane 0 of the masked store is the accumulator's entry: the mask is 1 there. -/
theorem pay1_apply (v : FVec Ideal S1x1 .f32) :
    k0_pay1 (F := Ideal) v (ix3 (0 : Fin 1) (0 : Fin 1) (0 : Fin 128)) = v (ix2 (0 : Fin 1) (0 : Fin 1)) := by
  have e : k0_pay1 (F := Ideal) v
      = mulf (sitofp .f32 (extui 32 (cmpi .eq (iota .tc S1x1x128 32 [2] iota_S1x1x128_d2_w32) (broadcast S1x1x128 0#32)) natLt_1_32))
          (broadcast S1x1x128 (extractAt ![0, 0] v inpos_S1x1_p0_0)) := rfl
  have ei : (fun a => (⟨(![0, 0] : Fin 2 → Nat) a, inpos_S1x1_p0_0 a⟩ : Fin (S1x1.size a))) = ix2 (0 : Fin 1) (0 : Fin 1) :=
    funext fun a => Fin.ext (by match a with | ⟨0, _⟩ => rfl | ⟨1, _⟩ => rfl)
  rw [e]
  show FloatOps.sitofp (F := Ideal) .f32
        ((IntOp.cmpi .eq (iota .tc S1x1x128 32 [2] iota_S1x1x128_d2_w32 (ix3 (0 : Fin 1) (0 : Fin 1) (0 : Fin 128))) 0#32).setWidth 32)
      * extractAt ![0, 0] v inpos_S1x1_p0_0 = _
  rw [iota_single_apply]
  unfold extractAt
  rw [ei]
  have hm : FloatOps.sitofp (F := Ideal) .f32 ((IntOp.cmpi .eq (BitVec.ofNat 32 0) 0#32).setWidth 32) = (1 : EReal) := by
    show ((((IntOp.cmpi .eq (BitVec.ofNat 32 0) 0#32).setWidth 32).toInt : ℝ) : EReal) = 1
    have h1 : ((IntOp.cmpi .eq (BitVec.ofNat 32 0) 0#32).setWidth 32).toInt = 1 := by decide
    rw [h1]; simp
  exact (congrArg (· * v (ix2 (0 : Fin 1) (0 : Fin 1))) hm).trans (one_mul _)

/-! ## The sixteen steps of a row of the grid -/

section Row
variable (X Y : Cert.Mmd.Mat)

/-- The Gaussian kernel's sum over the block that grid step `n` holds: rows `(n / 16 % 4) · 2048 + r` of `X` against
    rows `(n % 16) · 512 + s` of `Y`. -/
def stepBlock (n : ℕ) : EReal :=
  ∑ r : Fin 2048, ∑ s : Fin 512,
    Cert.Mmd.kern X Y ⟨(n / 16 % 4) * 2048 + r.val, by omega⟩ ⟨(n % 16) * 512 + s.val, by omega⟩

/-- At step `16 · bi + bj` the block is `(bi, bj)`. -/
theorem stepBlock_eq (bi : Fin 4) (bj : Fin 16) :
    stepBlock X Y (16 * bi.val + bj.val)
      = ∑ r : Fin 2048, ∑ s : Fin 512,
          Cert.Mmd.kern X Y ⟨bi.val * 2048 + r.val, by omega⟩ ⟨bj.val * 512 + s.val, by omega⟩ := by
  unfold stepBlock
  refine Finset.sum_congr rfl fun r _ => Finset.sum_congr rfl fun s _ => ?_
  exact congrArg₂ (Cert.Mmd.kern X Y) (Fin.ext (by show (16 * bi.val + bj.val) / 16 % 4 * 2048 + r.val = bi.val * 2048 + r.val; omega))
    (Fin.ext (by show (16 * bi.val + bj.val) % 16 * 512 + s.val = bj.val * 512 + s.val; omega))

variable (acc : ℕ → FVec Ideal S1x1 .f32) (bx : ℕ → FVec Ideal S2048x64 .f32) (by' : ℕ → FVec Ideal S512x64 .f32)

/-- One step: the accumulator's entry after step `n` is its entry before (zero on the first step of a row of the
    grid) plus the block's sum. -/
theorem acc_step
    (hstep : ∀ n, n < 64 → acc n = if n % 16 = 0 then k0_pay3 (F := Ideal) (bx n) (by' n) (k0_pay2 (F := Ideal))
      else k0_pay3 (F := Ideal) (bx n) (by' n) (acc (n - 1)))
    (hbx : ∀ n, n < 64 → ∀ (r : Fin 2048) (k : Fin 64), bx n (ix2 r k) = X ⟨(n / 16 % 4) * 2048 + r.val, by omega⟩ k)
    (hby : ∀ n, n < 64 → ∀ (s : Fin 512) (k : Fin 64), by' n (ix2 s k) = Y ⟨(n % 16) * 512 + s.val, by omega⟩ k)
    (n : ℕ) (hn : n < 64) :
    acc n (ix2 (0 : Fin 1) (0 : Fin 1))
      = (if n % 16 = 0 then 0 else acc (n - 1) (ix2 (0 : Fin 1) (0 : Fin 1))) + stepBlock X Y n := by
  have hb := fun xs => pay3_block (bx n) (by' n) xs X Y ⟨n / 16 % 4, by omega⟩ ⟨n % 16, by omega⟩ (hbx n hn) (hby n hn)
  rw [hstep n hn]
  split
  · rw [hb, pay2_apply]; rfl
  · rw [hb]; rfl

/-- After step `16 · b + j` the accumulator's entry is the sum of the blocks of steps `16 · b` … `16 · b + j`. -/
theorem acc_prefix
    (hstep : ∀ n, n < 64 → acc n = if n % 16 = 0 then k0_pay3 (F := Ideal) (bx n) (by' n) (k0_pay2 (F := Ideal))
      else k0_pay3 (F := Ideal) (bx n) (by' n) (acc (n - 1)))
    (hbx : ∀ n, n < 64 → ∀ (r : Fin 2048) (k : Fin 64), bx n (ix2 r k) = X ⟨(n / 16 % 4) * 2048 + r.val, by omega⟩ k)
    (hby : ∀ n, n < 64 → ∀ (s : Fin 512) (k : Fin 64), by' n (ix2 s k) = Y ⟨(n % 16) * 512 + s.val, by omega⟩ k)
    (b : ℕ) (hb : b < 4) (j : ℕ) (hj : j < 16) :
    acc (16 * b + j) (ix2 (0 : Fin 1) (0 : Fin 1)) = ∑ i ∈ Finset.range (j + 1), stepBlock X Y (16 * b + i) := by
  induction j with
  | zero =>
    rw [acc_step X Y acc bx by' hstep hbx hby _ (by omega), if_pos (by omega), zero_add, Finset.sum_range_one]
  | succ j ih =>
    rw [acc_step X Y acc bx by' hstep hbx hby _ (by omega), if_neg (by omega),
      show 16 * b + (j + 1) - 1 = 16 * b + j by omega, ih (by omega)]
    exact (Finset.sum_range_succ _ _).symm

/-- After the sixteenth step of row `bi` of the grid, lane 0 of the masked store holds the Gaussian kernel's sum
    over rows `bi · 2048 + r` of `X` against every row of `Y`. -/
theorem row_total
    (hstep : ∀ n, n < 64 → acc n = if n % 16 = 0 then k0_pay3 (F := Ideal) (bx n) (by' n) (k0_pay2 (F := Ideal))
      else k0_pay3 (F := Ideal) (bx n) (by' n) (acc (n - 1)))
    (hbx : ∀ n, n < 64 → ∀ (r : Fin 2048) (k : Fin 64), bx n (ix2 r k) = X ⟨(n / 16 % 4) * 2048 + r.val, by omega⟩ k)
    (hby : ∀ n, n < 64 → ∀ (s : Fin 512) (k : Fin 64), by' n (ix2 s k) = Y ⟨(n % 16) * 512 + s.val, by omega⟩ k)
    (bi : Fin 4) :
    k0_pay1 (F := Ideal) (acc (16 * bi.val + 15)) (ix3 (0 : Fin 1) (0 : Fin 1) (0 : Fin 128))
      = ∑ bj : Fin 16, ∑ r : Fin 2048, ∑ s : Fin 512,
          Cert.Mmd.kern X Y ⟨bi.val * 2048 + r.val, by omega⟩ ⟨bj.val * 512 + s.val, by omega⟩ := by
  rw [pay1_apply, acc_prefix X Y acc bx by' hstep hbx hby bi.val bi.isLt 15 (by omega),
    Finset.sum_range (fun i => stepBlock X Y (16 * bi.val + i))]
  exact Finset.sum_congr rfl fun bj _ => stepBlock_eq X Y bi bj

end Row

/-! ## The host operations after a call, and the last four -/

/-- The host takes lane 0 of the four output blocks, sums them from zero and divides by 2^26. -/
theorem hostTail_apply (o : FVec Ideal S4x1x128 .f32) (i : S_.Idx) :
    Host.divf (F := Ideal)
        (Host.reduceAdd (F := Ideal)
          (shapeCast S4 (extractStridedSlice S4x1x1 ![0, 0, 0] o slices_S4x1x128_S4x1x1_0_0_0) shapeCasts_S4x1x1_S4)
          (constant (F := Ideal) S_ .f32 0x00000000#32) reducesTo_S4_S_d0 h_S_)
        (constant (F := Ideal) S_ .f32 0x4C800000#32) i
      = Ideal.div (∑ bi : Fin 4, o (ix3 bi (0 : Fin 1) (0 : Fin 128))) (Ideal.ofBits .f32 0x4C800000#32) := by
  show Ideal.div
      (Ideal.hostReduceAdd reducesTo_S4_S_d0
        (shapeCast S4 (extractStridedSlice S4x1x1 ![0, 0, 0] o slices_S4x1x128_S4x1x1_0_0_0) shapeCasts_S4x1x1_S4)
        (Ideal.ofBits .f32 0x00000000#32) i)
      (Ideal.ofBits .f32 0x4C800000#32) = _
  rw [Cert.LibBlockSum.hostSum_eq, Ideal.ofBits_zero_f32, zero_add]
  refine congrArg (Ideal.div · _) (Finset.sum_congr rfl fun bi _ => ?_)
  refine (shapeCast_apply _ _ (ix1 bi) (ix3 bi (0 : Fin 1) (0 : Fin 1)) ?_).trans ?_
  · rw [Shape.rowMajor_val_three, Shape.rowMajor_val_one]
    show (bi.val * 1 + 0) * 1 + 0 = bi.val
    omega
  · exact extractStridedSlice_apply _ _ _ _ (ix3 bi (0 : Fin 1) (0 : Fin 128)) (fun ax => by
      match ax with
      | ⟨0, _⟩ => exact (Nat.zero_add _).symm
      | ⟨1, _⟩ => exact (Nat.zero_add _).symm
      | ⟨2, _⟩ => exact (Nat.zero_add _).symm)

/-- When lane 0 of block `bi` holds the kernel's sum over rows `bi · 2048 + r` of `X` against every row of `Y`, the
    host's result is the mean of the kernel over all pairs. -/
theorem hostTail_mean (o : FVec Ideal S4x1x128 .f32) (X Y : Cert.Mmd.Mat) (i : S_.Idx)
    (ho : ∀ bi : Fin 4, o (ix3 bi (0 : Fin 1) (0 : Fin 128))
      = ∑ bj : Fin 16, ∑ r : Fin 2048, ∑ s : Fin 512,
          Cert.Mmd.kern X Y ⟨bi.val * 2048 + r.val, by omega⟩ ⟨bj.val * 512 + s.val, by omega⟩) :
    Host.divf (F := Ideal)
        (Host.reduceAdd (F := Ideal)
          (shapeCast S4 (extractStridedSlice S4x1x1 ![0, 0, 0] o slices_S4x1x128_S4x1x1_0_0_0) shapeCasts_S4x1x1_S4)
          (constant (F := Ideal) S_ .f32 0x00000000#32) reducesTo_S4_S_d0 h_S_)
        (constant (F := Ideal) S_ .f32 0x4C800000#32) i
      = Cert.Mmd.mean X Y := by
  rw [hostTail_apply, Cert.Mmd.mean, Cert.Mmd.pairSum_blocks]
  exact congrArg (Ideal.div · _) (Finset.sum_congr rfl fun bi _ => ho bi)

/-- The last four host operations combine the three means into the statistic. -/
theorem hostCombine_apply (mzz mtt mzt : FVec Ideal S_ .f32) (Z T : Cert.Mmd.Mat) (i : S_.Idx)
    (hzz : mzz i = Cert.Mmd.mean Z Z) (htt : mtt i = Cert.Mmd.mean T T) (hzt : mzt i = Cert.Mmd.mean Z T) :
    subf (addf mzz mtt) (mulf (constant (F := Ideal) S_ .f32 0x40000000#32) mzt) i = Cert.Mmd.mmd Z T := by
  show (mzz i + mtt i) - Ideal.ofBits .f32 0x40000000#32 * mzt i = _
  rw [hzz, htt, hzt]
  rfl

/-! ## The other two calls run the same body -/

theorem k1_pay1_eq : @k1_pay1 = @k0_pay1 := rfl
theorem k1_pay2_eq : @k1_pay2 = @k0_pay2 := rfl
theorem k1_pay3_eq : @k1_pay3 = @k0_pay3 := rfl
theorem k2_pay1_eq : @k2_pay1 = @k0_pay1 := rfl
theorem k2_pay2_eq : @k2_pay2 = @k0_pay2 := rfl
theorem k2_pay3_eq : @k2_pay3 = @k0_pay3 := rfl

end Cert.KernelIdeal.Tile

end
-- ==== Proof.KernelRows.lean ====
/-
  The sixteen steps of a row of the grid, for accumulators and tiles given only at the grid's points.

  The values a run meets are indexed by a grid point n together with a proof that n is below the grid's size N,
  where N is 64.  Extended off the grid by any value, they are sequences to which the row total of
  Proof/KernelTile.lean applies: below 64, n / 16 % 4 is n / 16, the row of the grid.  The three calls run the
  same body.
-/
import proofs.«175880_j29377576305361_2_alg».proof.Proof.KernelTile

noncomputable section

open scoped BigOperators

namespace Cert.KernelIdeal.Tile

open Cert.KernelIdeal Cert.KernelIdeal.Gen Idealize.ShloMosaic Idealize.ShloMosaic.ValueIdx

/-- After the sixteenth step of row `bi` of the grid, lane 0 of the masked store holds the Gaussian kernel's sum over
    rows `bi · 2048 + r` of `X` against every row of `Y`: the first call. -/
theorem rows_of_points0 (X Y : Cert.Mmd.Mat) (N : ℕ) (hN : N = 64)
    (accAt : (n : ℕ) → n < N → FVec Ideal S1x1 .f32)
    (b0 : (n : ℕ) → n < N → FVec Ideal S2048x64 .f32) (b1 : (n : ℕ) → n < N → FVec Ideal S512x64 .f32)
    (hfirst : ∀ n (h : n < N), n % 16 = 0 →
      accAt n h = k0_pay3 (F := Ideal) (b0 n h) (b1 n h) (k0_pay2 (F := Ideal)))
    (hnext : ∀ n (h : n < N), ¬ n % 16 = 0 →
      accAt n h = k0_pay3 (F := Ideal) (b0 n h) (b1 n h) (accAt (n - 1) (Nat.lt_of_le_of_lt (Nat.sub_le _ _) h)))
    (hb0 : ∀ n (h : n < N) (r : Fin 2048) (k : Fin 64), b0 n h (ix2 r k) = X ⟨n / 16 * 2048 + r.val, by omega⟩ k)
    (hb1 : ∀ n (h : n < N) (s : Fin 512) (k : Fin 64), b1 n h (ix2 s k) = Y ⟨n % 16 * 512 + s.val, by omega⟩ k)
    (bi : Fin 4) (h15 : 16 * bi.val + 15 < N) :
    k0_pay1 (F := Ideal) (accAt (16 * bi.val + 15) h15) (ix3 (0 : Fin 1) (0 : Fin 1) (0 : Fin 128))
      = ∑ bj : Fin 16, ∑ r : Fin 2048, ∑ s : Fin 512,
          Cert.Mmd.kern X Y ⟨bi.val * 2048 + r.val, by omega⟩ ⟨bj.val * 512 + s.val, by omega⟩ := by
  subst hN
  let acc : ℕ → FVec Ideal S1x1 .f32 := fun n => if h : n < 64 then accAt n h else k0_pay2 (F := Ideal)
  let bx : ℕ → FVec Ideal S2048x64 .f32 := fun n => if h : n < 64 then b0 n h else fun _ => 0
  let by' : ℕ → FVec Ideal S512x64 .f32 := fun n => if h : n < 64 then b1 n h else fun _ => 0
  have eacc : ∀ n (h : n < 64), acc n = accAt n h := fun n h => dif_pos h
  have ebx : ∀ n (h : n < 64), bx n = b0 n h := fun n h => dif_pos h
  have eby : ∀ n (h : n < 64), by' n = b1 n h := fun n h => dif_pos h
  have hstep : ∀ n, n < 64 → acc n = if n % 16 = 0 then k0_pay3 (F := Ideal) (bx n) (by' n) (k0_pay2 (F := Ideal))
      else k0_pay3 (F := Ideal) (bx n) (by' n) (acc (n - 1)) := by
    intro n hn
    rw [eacc n hn, ebx n hn, eby n hn]
    split
    · next hm => exact hfirst n hn hm
    · next hm => rw [eacc (n - 1) (Nat.lt_of_le_of_lt (Nat.sub_le _ _) hn)]; exact hnext n hn hm
  have hbx : ∀ n, n < 64 → ∀ (r : Fin 2048) (k : Fin 64), bx n (ix2 r k) = X ⟨(n / 16 % 4) * 2048 + r.val, by omega⟩ k := by
    intro n hn r k
    rw [ebx n hn, hb0 n hn r k]
    exact congrArg (fun i => X i k) (Fin.ext (by show n / 16 * 2048 + r.val = n / 16 % 4 * 2048 + r.val; omega))
  have hby : ∀ n, n < 64 → ∀ (s : Fin 512) (k : Fin 64), by' n (ix2 s k) = Y ⟨(n % 16) * 512 + s.val, by omega⟩ k := by
    intro n hn s k
    rw [eby n hn, hb1 n hn s k]
  rw [← eacc _ h15]
  exact row_total X Y acc bx by' hstep hbx hby bi

/-- The same for the second call, whose body is the first call's. -/
theorem rows_of_points1 (X Y : Cert.Mmd.Mat) (N : ℕ) (hN : N = 64)
    (accAt : (n : ℕ) → n < N → FVec Ideal S1x1 .f32)
    (b0 : (n : ℕ) → n < N → FVec Ideal S2048x64 .f32) (b1 : (n : ℕ) → n < N → FVec Ideal S512x64 .f32)
    (hfirst : ∀ n (h : n < N), n % 16 = 0 →
      accAt n h = k1_pay3 (F := Ideal) (b0 n h) (b1 n h) (k1_pay2 (F := Ideal)))
    (hnext : ∀ n (h : n < N), ¬ n % 16 = 0 →
      accAt n h = k1_pay3 (F := Ideal) (b0 n h) (b1 n h) (accAt (n - 1) (Nat.lt_of_le_of_lt (Nat.sub_le _ _) h)))
    (hb0 : ∀ n (h : n < N) (r : Fin 2048) (k : Fin 64), b0 n h (ix2 r k) = X ⟨n / 16 * 2048 + r.val, by omega⟩ k)
    (hb1 : ∀ n (h : n < N) (s : Fin 512) (k : Fin 64), b1 n h (ix2 s k) = Y ⟨n % 16 * 512 + s.val, by omega⟩ k)
    (bi : Fin 4) (h15 : 16 * bi.val + 15 < N) :
    k1_pay1 (F := Ideal) (accAt (16 * bi.val + 15) h15) (ix3 (0 : Fin 1) (0 : Fin 1) (0 : Fin 128))
      = ∑ bj : Fin 16, ∑ r : Fin 2048, ∑ s : Fin 512,
          Cert.Mmd.kern X Y ⟨bi.val * 2048 + r.val, by omega⟩ ⟨bj.val * 512 + s.val, by omega⟩ :=
  rows_of_points0 X Y N hN accAt b0 b1 hfirst hnext hb0 hb1 bi h15

/-- The same for the third call, whose body is the first call's. -/
theorem rows_of_points2 (X Y : Cert.Mmd.Mat) (N : ℕ) (hN : N = 64)
    (accAt : (n : ℕ) → n < N → FVec Ideal S1x1 .f32)
    (b0 : (n : ℕ) → n < N → FVec Ideal S2048x64 .f32) (b1 : (n : ℕ) → n < N → FVec Ideal S512x64 .f32)
    (hfirst : ∀ n (h : n < N), n % 16 = 0 →
      accAt n h = k2_pay3 (F := Ideal) (b0 n h) (b1 n h) (k2_pay2 (F := Ideal)))
    (hnext : ∀ n (h : n < N), ¬ n % 16 = 0 →
      accAt n h = k2_pay3 (F := Ideal) (b0 n h) (b1 n h) (accAt (n - 1) (Nat.lt_of_le_of_lt (Nat.sub_le _ _) h)))
    (hb0 : ∀ n (h : n < N) (r : Fin 2048) (k : Fin 64), b0 n h (ix2 r k) = X ⟨n / 16 * 2048 + r.val, by omega⟩ k)
    (hb1 : ∀ n (h : n < N) (s : Fin 512) (k : Fin 64), b1 n h (ix2 s k) = Y ⟨n % 16 * 512 + s.val, by omega⟩ k)
    (bi : Fin 4) (h15 : 16 * bi.val + 15 < N) :
    k2_pay1 (F := Ideal) (accAt (16 * bi.val + 15) h15) (ix3 (0 : Fin 1) (0 : Fin 1) (0 : Fin 128))
      = ∑ bj : Fin 16, ∑ r : Fin 2048, ∑ s : Fin 512,
          Cert.Mmd.kern X Y ⟨bi.val * 2048 + r.val, by omega⟩ ⟨bj.val * 512 + s.val, by omega⟩ :=
  rows_of_points0 X Y N hN accAt b0 b1 hfirst hnext hb0 hb1 bi h15

end Cert.KernelIdeal.Tile

end
-- ==== Proof.ValueI.lean ====
/-
  At the exact instance the program's result is the specification's statistic of the two argument arrays: each call's
  output holds, in lane 0 of row block b, the sum over the sixteen column blocks of the kernel's values on the tile
  (the accumulator's sixteen steps), so each host stretch's quotient is the mean of the kernel over all pairs of rows,
  and the last stretch combines the three means.
-/
import proofs.«175880_j29377576305361_2_alg».proof.Proof.Gen.KernelIdeal.Launch
import proofs.«175880_j29377576305361_2_alg».proof.Proof.Gen.KernelIdeal.Skeleton
import proofs.«175880_j29377576305361_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«175880_j29377576305361_2_alg».proof.Proof.ValueG
import proofs.«175880_j29377576305361_2_alg».proof.Proof.OutI
import proofs.«175880_j29377576305361_2_alg».proof.Proof.KernelTile
import proofs.«175880_j29377576305361_2_alg».proof.Proof.KernelRows
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The rows of an argument array. -/
abbrev rowsOf (a : (⟨S8192x64, .f32⟩ : BufTy).Contents (Elt Ideal)) : Cert.Mmd.Mat := fun i k => a (ix2 i k)

/-- Lane 0 of row block `bi` of call 0's output is the kernel summed over the row block's 2048 rows against all rows. -/
theorem out0_rows (c : Dev nD) (bi : Fin 4) :
    out0 (F := Ideal) m c (ix3 bi (0 : Fin 1) (0 : Fin 128))
      = ∑ bj : Fin 16, ∑ r : Fin 2048, ∑ s : Fin 512, Cert.Mmd.kern (rowsOf (m ((c : Thread nD τ).loc main_arg0))) (rowsOf (m ((c : Thread nD τ).loc main_arg0)))
          ⟨bi.val * 2048 + r.val, by omega⟩ ⟨bj.val * 512 + s.val, by omega⟩ := by
  rw [show out0 (F := Ideal) m c = (dat0 (VV0 m) c).arrAt 2 cfg0.N from rfl, out0_apply]
  exact Cert.KernelIdeal.Tile.rows_of_points0 _ _ cfg0.N N_0 (accAt0 (VV0 m) c) (fun n h => iblk0 (VV0 m) c 0 ⟨n, h⟩) (fun n h => iblk0 (VV0 m) c 1 ⟨n, h⟩)
    (fun n h h0 => accAt0_first (VV0 m) c ⟨n, h⟩ h0) (fun n h h0 => accAt0_next (VV0 m) c ⟨n, h⟩ h0)
    (fun n h r k => iblk0_0_apply (VV0 m) c ⟨n, h⟩ r k) (fun n h s k => iblk0_1_apply (VV0 m) c ⟨n, h⟩ s k) bi _

theorem out1_rows (c : Dev nD) (bi : Fin 4) :
    out1 (F := Ideal) m c (ix3 bi (0 : Fin 1) (0 : Fin 128))
      = ∑ bj : Fin 16, ∑ r : Fin 2048, ∑ s : Fin 512, Cert.Mmd.kern (rowsOf (m ((c : Thread nD τ).loc main_arg1))) (rowsOf (m ((c : Thread nD τ).loc main_arg1)))
          ⟨bi.val * 2048 + r.val, by omega⟩ ⟨bj.val * 512 + s.val, by omega⟩ := by
  rw [show out1 (F := Ideal) m c = (dat1 (VV2 m) c).arrAt 2 cfg1.N from rfl, out1_apply]
  exact Cert.KernelIdeal.Tile.rows_of_points1 _ _ cfg1.N N_1 (accAt1 (VV2 m) c) (fun n h => iblk1 (VV2 m) c 0 ⟨n, h⟩) (fun n h => iblk1 (VV2 m) c 1 ⟨n, h⟩)
    (fun n h h0 => accAt1_first (VV2 m) c ⟨n, h⟩ h0) (fun n h h0 => accAt1_next (VV2 m) c ⟨n, h⟩ h0)
    (fun n h r k => (iblk1_0_apply (VV2 m) c ⟨n, h⟩ r k).trans (by rw [show VV2 m c (Pipeline.arrRef spec1 0) = m ((c : Thread nD τ).loc main_arg1) from VV2_arg1 m c]))
    (fun n h s k => (iblk1_1_apply (VV2 m) c ⟨n, h⟩ s k).trans (by rw [show VV2 m c (Pipeline.arrRef spec1 1) = m ((c : Thread nD τ).loc main_arg1) from VV2_arg1 m c])) bi _

theorem out2_rows (c : Dev nD) (bi : Fin 4) :
    out2 (F := Ideal) m c (ix3 bi (0 : Fin 1) (0 : Fin 128))
      = ∑ bj : Fin 16, ∑ r : Fin 2048, ∑ s : Fin 512, Cert.Mmd.kern (rowsOf (m ((c : Thread nD τ).loc main_arg0))) (rowsOf (m ((c : Thread nD τ).loc main_arg1)))
          ⟨bi.val * 2048 + r.val, by omega⟩ ⟨bj.val * 512 + s.val, by omega⟩ := by
  rw [show out2 (F := Ideal) m c = (dat2 (VV4 m) c).arrAt 2 cfg2.N from rfl, out2_apply]
  exact Cert.KernelIdeal.Tile.rows_of_points2 _ _ cfg2.N N_2 (accAt2 (VV4 m) c) (fun n h => iblk2 (VV4 m) c 0 ⟨n, h⟩) (fun n h => iblk2 (VV4 m) c 1 ⟨n, h⟩)
    (fun n h h0 => accAt2_first (VV4 m) c ⟨n, h⟩ h0) (fun n h h0 => accAt2_next (VV4 m) c ⟨n, h⟩ h0)
    (fun n h r k => (iblk2_0_apply (VV4 m) c ⟨n, h⟩ r k).trans (by rw [show VV4 m c (Pipeline.arrRef spec2 0) = m ((c : Thread nD τ).loc main_arg0) from VV4_arg0 m c]))
    (fun n h s k => (iblk2_1_apply (VV4 m) c ⟨n, h⟩ s k).trans (by rw [show VV4 m c (Pipeline.arrRef spec2 1) = m ((c : Thread nD τ).loc main_arg1) from VV4_arg1 m c])) bi _

/-- THE RESULT: the program ends with the specification's statistic of its two arguments in the result buffer. -/
theorem result_eq (c : Dev nD) :
    W6 (F := Ideal) m c (Proc.devRef .tc main_v17)
      = fun _ => Cert.Mmd.mmd (rowsOf (m ((c : Thread nD τ).loc main_arg0))) (rowsOf (m ((c : Thread nD τ).loc main_arg1))) := by
  rw [W6_v17]
  funext i
  exact Cert.KernelIdeal.Tile.hostCombine_apply _ _ _ _ _ i
    (Cert.KernelIdeal.Tile.hostTail_mean _ _ _ i (out0_rows m c))
    (Cert.KernelIdeal.Tile.hostTail_mean _ _ _ i (out1_rows m c))
    (Cert.KernelIdeal.Tile.hostTail_mean _ _ _ i (out2_rows m c))

end Cert.KernelIdeal.Body

end
-- ==== Proof.RefIsMmd.lean ====
/-
  The reference computes the maximum-mean-discrepancy statistic of Proof/MmdSpec.lean.

  The reference evaluates the same chain of operations three times: on (z, z), on (t, t) and on (z, t), where
  z and t are its two arguments.  One chain, on a pair (a, b) of arrays: the row sums of a·a and of b·b are the
  squared norms of the rows; the product of a with the transpose of b is the table of inner products of the
  rows; their combination, negated, divided by 4096 and exponentiated, is the Gaussian kernel of row i of a and
  row j of b; the sum of the kernel over every index of the 8192 × 8192 table, from zero, is the double sum over
  the pairs of rows; divided by 2^26 it is the mean.  The chains on (z, z) and on (t, t) are the chain on (a, b)
  at a = b.  The last four operations combine the three means.
-/
import proofs.«175880_j29377576305361_2_alg».proof.Proof.Gen.ReferenceIdeal.Read
import proofs.«175880_j29377576305361_2_alg».proof.Proof.MmdSpec

noncomputable section

open scoped BigOperators

namespace Cert.ReferenceIdeal.RefValue

open Cert.ReferenceIdeal Cert.ReferenceIdeal.Read Idealize.ShloMosaic Idealize.ShloMosaic.ValueIdx

/-- An argument array: 8192 rows of 64 extended reals. -/
abbrev Arr : Type := (⟨S8192x64, .f32⟩ : BufTy).Contents (Elt Ideal)

/-- An argument array as a matrix, by its two coordinates. -/
abbrev rows (a : Arr) : Cert.Mmd.Mat := fun i k => a (ix2 i k)

/-! ## The chains on (z, z) and on (t, t) are the chain on (a, b) at a = b -/

theorem mean_zz (a : Arr) : val_main_v19 (F := Ideal) a = val_main_v60 (F := Ideal) a a := rfl
theorem mean_tt (b : Arr) : val_main_v39 (F := Ideal) b = val_main_v60 (F := Ideal) b b := rfl

/-! ## Indices by coordinates -/

theorem idx_rowSum_a (i : Fin 8192) (k : Fin 64) : idx_main_v42 (ix1 i) k = ix2 i k :=
  funext fun a => Fin.ext (by match a with | ⟨0, _⟩ => rfl | ⟨1, _⟩ => rfl)
theorem idx_rowSum_b (i : Fin 8192) (k : Fin 64) : idx_main_v44 (ix1 i) k = ix2 i k :=
  funext fun a => Fin.ext (by match a with | ⟨0, _⟩ => rfl | ⟨1, _⟩ => rfl)
theorem idx_row (i j : Fin 8192) : idx_main_v45 (idx_main_v47 (ix2 i j)) = ix1 i :=
  funext fun a => Fin.ext (by match a with | ⟨0, _⟩ => rfl)
theorem idx_col (i j : Fin 8192) : idx_main_v46 (idx_main_v48 (ix2 i j)) = ix1 j :=
  funext fun a => Fin.ext (by match a with | ⟨0, _⟩ => rfl)
theorem idx_dot_l (i j : Fin 8192) (k : Fin 64) : lidx_main_v51 (ix2 i j) k = ix2 i k :=
  funext fun a => Fin.ext (by match a with | ⟨0, _⟩ => rfl | ⟨1, _⟩ => rfl)
theorem idx_dot_r (i j : Fin 8192) (k : Fin 64) : idx_main_v50 (ridx_main_v51 (ix2 i j) k) = ix2 j k :=
  funext fun a => Fin.ext (by match a with | ⟨0, _⟩ => rfl | ⟨1, _⟩ => rfl)

/-! ## The stages of one chain -/

/-- The row sums of a·a are the squared norms of the rows of a. -/
theorem rowSq_a (a : Arr) (i : Fin 8192) : val_main_v42 (F := Ideal) a (ix1 i) = Cert.Mmd.sq (rows a) i := by
  rw [val_main_v42_apply]
  simp only [val_main_cst_11_apply, val_main_v41_apply, Ideal.ofBits_def, Ideal.mulf_def, Ideal.ofBits_zero_f32,
    zero_add, idx_rowSum_a]
  rfl

/-- The row sums of b·b are the squared norms of the rows of b. -/
theorem rowSq_b (b : Arr) (j : Fin 8192) : val_main_v44 (F := Ideal) b (ix1 j) = Cert.Mmd.sq (rows b) j := by
  rw [val_main_v44_apply]
  simp only [val_main_cst_12_apply, val_main_v43_apply, Ideal.ofBits_def, Ideal.mulf_def, Ideal.ofBits_zero_f32,
    zero_add, idx_rowSum_b]
  rfl

/-- The product of a with the transpose of b, at (i, j), is the inner product of row i of a and row j of b. -/
theorem dot_ab (a b : Arr) (i j : Fin 8192) :
    val_main_v51 (F := Ideal) a b (ix2 i j) = Cert.Mmd.dot (rows a) (rows b) i j := by
  rw [val_main_v51_apply]
  simp only [val_main_v50_apply, idx_dot_l, idx_dot_r]
  rfl

/-- The expanded squared distance of row i of a and row j of b. -/
theorem sqDist_ab (a b : Arr) (i j : Fin 8192) :
    val_main_v54 (F := Ideal) a b (ix2 i j) = Cert.Mmd.sqDist (rows a) (rows b) i j := by
  rw [val_main_v54_apply, val_main_v49_apply, val_main_v53_apply, val_main_v47_apply, val_main_v45_apply,
    val_main_v48_apply, val_main_v46_apply, val_main_v52_apply, val_main_cst_13_apply, idx_row, idx_col,
    rowSq_a, rowSq_b, dot_ab]
  rfl

/-- The entry (i, j) of the exponentiated table is the Gaussian kernel of row i of a and row j of b. -/
theorem kern_ab (a b : Arr) (i j : Fin 8192) :
    val_main_v58 (F := Ideal) a b (ix2 i j) = Cert.Mmd.kern (rows a) (rows b) i j := by
  rw [val_main_v58_apply, val_main_v57_apply, val_main_v55_apply, val_main_v56_apply, val_main_cst_14_apply,
    sqDist_ab]
  rfl

/-- The sum of the table over all its indices, from zero, divided by 2^26, is the mean of the kernel. -/
theorem mean_ab (a b : Arr) (i : S_.Idx) :
    val_main_v60 (F := Ideal) a b i = Cert.Mmd.mean (rows a) (rows b) := by
  rw [val_main_v60_apply, val_main_v59_apply, val_main_cst_15_apply, val_main_cst_16_apply, sum_idx2]
  simp only [kern_ab, Ideal.ofBits_def, Ideal.ofBits_zero_f32, zero_add, Ideal.hostDivf_def]
  rfl

/-! ## The reference's result -/

/-- The reference's result is the statistic of its two arguments. -/
theorem ref_eq_mmd (a0 a1 : Arr) :
    val_main_v62 (F := Ideal) a0 a1
      = fun _ => Cert.Mmd.mmd (fun i k => a0 (ix2 i k)) (fun i k => a1 (ix2 i k)) := by
  funext i
  rw [val_main_v62_apply, val_main_v40_apply, val_main_v61_apply, val_main_cst_17_apply, mean_zz, mean_tt,
    mean_ab, mean_ab, mean_ab]
  rfl

end Cert.ReferenceIdeal.RefValue

end
-- ==== Proof.lean ====
/-
  A biased maximum-mean-discrepancy statistic of two samples z, t of 8192 rows and 64 columns, with the Gaussian kernel
  k(x, y) = exp(−‖x − y‖² / 4096) written through ‖x‖² + ‖y‖² − 2·x·y: the mean of k over all pairs of rows of (z, z), of
  (t, t) and of (z, t), combined as the first plus the second minus twice the third.

  The kernel program computes each mean by one pallas_call over a grid of 4 row blocks by 16 column blocks: at each point
  the sum of k over a tile of 2048 by 512 pairs is added to an accumulator that is reset at column block 0 and stored,
  in lane 0 of the row block's output, after column block 15; the host then sums the four row blocks and divides by 2^26.
  The reference computes the full 8192 by 8192 matrix of k and takes its mean. On the extended reals the two are the
  same number: sums of extended reals may be regrouped freely (the 4 × 16 × 2048 × 512 blocks against the 8192 × 8192
  pairs), the kernel's product with 2^-12 is the reference's quotient by 4096 on every extended real, and subtracting
  from zero is negating. No finiteness of the inputs is used.

  The three frames: each program runs to the end, faults nowhere and leaves both arguments as launched — for the two
  kernel programs by running each pallas_call's body at every grid point in its three control cases (reset, accumulate,
  accumulate and store) and chaining the calls with the host stretches between them; for the reference by its run.
-/
import proofs.«175880_j29377576305361_2_alg».proof.Defs
import proofs.«175880_j29377576305361_2_alg».proof.Proof.Gen.Kernel
import proofs.«175880_j29377576305361_2_alg».proof.Proof.Gen.KernelIdeal
import proofs.«175880_j29377576305361_2_alg».proof.Proof.Gen.ReferenceIdeal
import proofs.«175880_j29377576305361_2_alg».proof.Proof.Gen.ReferenceIdeal.Run
import proofs.«175880_j29377576305361_2_alg».proof.Proof.Gen.ReferenceIdeal.Read
import proofs.«175880_j29377576305361_2_alg».proof.Proof.Gen.Pre_finite_inputs
import proofs.«175880_j29377576305361_2_alg».proof.Proof.KFrame
import proofs.«175880_j29377576305361_2_alg».proof.Proof.FrameI
import proofs.«175880_j29377576305361_2_alg».proof.Proof.ValueI
import proofs.«175880_j29377576305361_2_alg».proof.Proof.RefIsMmd
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_p : Cert.frame_Kernel := fun m ρ _ => Cert.Kernel.Body.frame (F := Bits) m ρ

/-- So does the idealized kernel program. -/
theorem frame_pi : Cert.frame_KernelIdeal := fun m ρ _ => Cert.KernelIdeal.Body.frame (F := Ideal) m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the exact instance both programs end with the statistic of the arguments in their result buffers. -/
theorem algebraic : Cert.algebraic_KernelIdeal_ReferenceIdeal := by
  intro m ρ m' ρ' _ hagree
  refine ⟨fun c => fun _ => Cert.Mmd.mmd
      (Cert.KernelIdeal.Body.rowsOf (m ((c.tc : Thread Cert.KernelIdeal.nD Cert.KernelIdeal.τ).loc Cert.KernelIdeal.main_arg0)))
      (Cert.KernelIdeal.Body.rowsOf (m ((c.tc : Thread Cert.KernelIdeal.nD Cert.KernelIdeal.τ).loc Cert.KernelIdeal.main_arg1))), ?_, ?_⟩
  · exact (θ_run (Cert.KernelIdeal.defs (F := Ideal)) _ _).mono (fun r h c =>
      ⟨(h c _ (Cert.KernelIdeal.Body.mem_uc Cert.KernelIdeal.main_v17 (by decide))).trans (Cert.KernelIdeal.Body.result_eq m c),
       (h c _ (Cert.KernelIdeal.Body.mem_uc Cert.KernelIdeal.main_arg0 (by decide))).trans
         (Cert.KernelIdeal.Body.W6_kept m c Cert.KernelIdeal.main_arg0 (by decide) (by decide) (by decide) (by decide) (by decide) (by decide)),
       (h c _ (Cert.KernelIdeal.Body.mem_uc Cert.KernelIdeal.main_arg1 (by decide))).trans
         (Cert.KernelIdeal.Body.W6_kept m c Cert.KernelIdeal.main_arg1 (by decide) (by decide) (by decide) (by decide) (by decide) (by decide))⟩)
      (Cert.KernelIdeal.Body.run_all (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v62_eq, Cert.ReferenceIdeal.RefValue.ref_eq_mmd, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
